-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8000x16 : Shape := ⟨3, ![256, 8000, 16]⟩
abbrev S_ : Shape := ⟨0, ![]⟩
abbrev S256x8000x15 : Shape := ⟨3, ![256, 8000, 15]⟩
abbrev S256x8000x1 : Shape := ⟨3, ![256, 8000, 1]⟩
abbrev S256x8000x14 : Shape := ⟨3, ![256, 8000, 14]⟩
abbrev S256x8000x2 : Shape := ⟨3, ![256, 8000, 2]⟩
abbrev S256x8000x13 : Shape := ⟨3, ![256, 8000, 13]⟩
abbrev S256x8000x3 : Shape := ⟨3, ![256, 8000, 3]⟩
abbrev S256x8000x12 : Shape := ⟨3, ![256, 8000, 12]⟩
abbrev S256x8000x4 : Shape := ⟨3, ![256, 8000, 4]⟩
abbrev S256x8000x11 : Shape := ⟨3, ![256, 8000, 11]⟩
abbrev S256x8000x5 : Shape := ⟨3, ![256, 8000, 5]⟩
abbrev S256x8000x10 : Shape := ⟨3, ![256, 8000, 10]⟩
abbrev S256x8000x6 : Shape := ⟨3, ![256, 8000, 6]⟩
abbrev S256x8000x9 : Shape := ⟨3, ![256, 8000, 9]⟩
abbrev S256x8000x7 : Shape := ⟨3, ![256, 8000, 7]⟩
abbrev S256x8000x8 : Shape := ⟨3, ![256, 8000, 8]⟩

class Facts : Prop where
  bcast_S_S256x8000x16 : S_.BroadcastsInDim S256x8000x16 (![] : Fin 0 → Fin S256x8000x16.rank)
  reducesTo_S256x8000x16_S_d0_1_2 : S256x8000x16.ReducesTo [0, 1, 2] S_
  h_S_ : 0 < S_.numel
  slices_S256x8000x16_S256x8000x15_0_0_0 : S256x8000x16.Slices ![0, 0, 0] S256x8000x15
  slices_S256x8000x16_S256x8000x1_0_0_15 : S256x8000x16.Slices ![0, 0, 15] S256x8000x1
  bcast_S256x8000x1_S256x8000x15_0_1_2 : S256x8000x1.BroadcastsInDim S256x8000x15 (![0, 1, 2] : Fin 3 → Fin S256x8000x15.rank)
  bcast_S_S256x8000x1 : S_.BroadcastsInDim S256x8000x1 (![] : Fin 0 → Fin S256x8000x1.rank)
  concatenates_S256x8000x15_S256x8000x1_S256x8000x16_d2 : Shape.Concatenates [S256x8000x15, S256x8000x1] S256x8000x16 2
  slices_S256x8000x16_S256x8000x14_0_0_0 : S256x8000x16.Slices ![0, 0, 0] S256x8000x14
  slices_S256x8000x16_S256x8000x2_0_0_14 : S256x8000x16.Slices ![0, 0, 14] S256x8000x2
  slices_S256x8000x2_S256x8000x1_0_0_0 : S256x8000x2.Slices ![0, 0, 0] S256x8000x1
  bcast_S256x8000x1_S256x8000x14_0_1_2 : S256x8000x1.BroadcastsInDim S256x8000x14 (![0, 1, 2] : Fin 3 → Fin S256x8000x14.rank)
  concatenates_S256x8000x14_S256x8000x2_S256x8000x16_d2 : Shape.Concatenates [S256x8000x14, S256x8000x2] S256x8000x16 2
  slices_S256x8000x16_S256x8000x13_0_0_0 : S256x8000x16.Slices ![0, 0, 0] S256x8000x13
  slices_S256x8000x16_S256x8000x3_0_0_13 : S256x8000x16.Slices ![0, 0, 13] S256x8000x3
  slices_S256x8000x3_S256x8000x1_0_0_0 : S256x8000x3.Slices ![0, 0, 0] S256x8000x1
  bcast_S256x8000x1_S256x8000x13_0_1_2 : S256x8000x1.BroadcastsInDim S256x8000x13 (![0, 1, 2] : Fin 3 → Fin S256x8000x13.rank)
  concatenates_S256x8000x13_S256x8000x3_S256x8000x16_d2 : Shape.Concatenates [S256x8000x13, S256x8000x3] S256x8000x16 2
  slices_S256x8000x16_S256x8000x12_0_0_0 : S256x8000x16.Slices ![0, 0, 0] S256x8000x12
  slices_S256x8000x16_S256x8000x4_0_0_12 : S256x8000x16.Slices ![0, 0, 12] S256x8000x4
  slices_S256x8000x4_S256x8000x1_0_0_0 : S256x8000x4.Slices ![0, 0, 0] S256x8000x1
  bcast_S256x8000x1_S256x8000x12_0_1_2 : S256x8000x1.BroadcastsInDim S256x8000x12 (![0, 1, 2] : Fin 3 → Fin S256x8000x12.rank)
  concatenates_S256x8000x12_S256x8000x4_S256x8000x16_d2 : Shape.Concatenates [S256x8000x12, S256x8000x4] S256x8000x16 2
  slices_S256x8000x16_S256x8000x11_0_0_0 : S256x8000x16.Slices ![0, 0, 0] S256x8000x11
  slices_S256x8000x16_S256x8000x5_0_0_11 : S256x8000x16.Slices ![0, 0, 11] S256x8000x5
  slices_S256x8000x5_S256x8000x1_0_0_0 : S256x8000x5.Slices ![0, 0, 0] S256x8000x1
  bcast_S256x8000x1_S256x8000x11_0_1_2 : S256x8000x1.BroadcastsInDim S256x8000x11 (![0, 1, 2] : Fin 3 → Fin S256x8000x11.rank)
  concatenates_S256x8000x11_S256x8000x5_S256x8000x16_d2 : Shape.Concatenates [S256x8000x11, S256x8000x5] S256x8000x16 2
  slices_S256x8000x16_S256x8000x10_0_0_0 : S256x8000x16.Slices ![0, 0, 0] S256x8000x10
  slices_S256x8000x16_S256x8000x6_0_0_10 : S256x8000x16.Slices ![0, 0, 10] S256x8000x6
  slices_S256x8000x6_S256x8000x1_0_0_0 : S256x8000x6.Slices ![0, 0, 0] S256x8000x1
  bcast_S256x8000x1_S256x8000x10_0_1_2 : S256x8000x1.BroadcastsInDim S256x8000x10 (![0, 1, 2] : Fin 3 → Fin S256x8000x10.rank)
  concatenates_S256x8000x10_S256x8000x6_S256x8000x16_d2 : Shape.Concatenates [S256x8000x10, S256x8000x6] S256x8000x16 2
  slices_S256x8000x16_S256x8000x9_0_0_0 : S256x8000x16.Slices ![0, 0, 0] S256x8000x9
  slices_S256x8000x16_S256x8000x7_0_0_9 : S256x8000x16.Slices ![0, 0, 9] S256x8000x7
  slices_S256x8000x7_S256x8000x1_0_0_0 : S256x8000x7.Slices ![0, 0, 0] S256x8000x1
  bcast_S256x8000x1_S256x8000x9_0_1_2 : S256x8000x1.BroadcastsInDim S256x8000x9 (![0, 1, 2] : Fin 3 → Fin S256x8000x9.rank)
  concatenates_S256x8000x9_S256x8000x7_S256x8000x16_d2 : Shape.Concatenates [S256x8000x9, S256x8000x7] S256x8000x16 2
  slices_S256x8000x16_S256x8000x8_0_0_0 : S256x8000x16.Slices ![0, 0, 0] S256x8000x8
  slices_S256x8000x16_S256x8000x8_0_0_8 : S256x8000x16.Slices ![0, 0, 8] S256x8000x8
  slices_S256x8000x8_S256x8000x1_0_0_0 : S256x8000x8.Slices ![0, 0, 0] S256x8000x1
  bcast_S256x8000x1_S256x8000x8_0_1_2 : S256x8000x1.BroadcastsInDim S256x8000x8 (![0, 1, 2] : Fin 3 → Fin S256x8000x8.rank)
  concatenates_S256x8000x8_S256x8000x8_S256x8000x16_d2 : Shape.Concatenates [S256x8000x8, S256x8000x8] S256x8000x16 2
  slices_S256x8000x16_S256x8000x7_0_0_0 : S256x8000x16.Slices ![0, 0, 0] S256x8000x7
  slices_S256x8000x16_S256x8000x9_0_0_7 : S256x8000x16.Slices ![0, 0, 7] S256x8000x9
  slices_S256x8000x9_S256x8000x1_0_0_0 : S256x8000x9.Slices ![0, 0, 0] S256x8000x1
  bcast_S256x8000x1_S256x8000x7_0_1_2 : S256x8000x1.BroadcastsInDim S256x8000x7 (![0, 1, 2] : Fin 3 → Fin S256x8000x7.rank)
  concatenates_S256x8000x7_S256x8000x9_S256x8000x16_d2 : Shape.Concatenates [S256x8000x7, S256x8000x9] S256x8000x16 2
  slices_S256x8000x16_S256x8000x6_0_0_0 : S256x8000x16.Slices ![0, 0, 0] S256x8000x6
  slices_S256x8000x16_S256x8000x10_0_0_6 : S256x8000x16.Slices ![0, 0, 6] S256x8000x10
  slices_S256x8000x10_S256x8000x1_0_0_0 : S256x8000x10.Slices ![0, 0, 0] S256x8000x1
  bcast_S256x8000x1_S256x8000x6_0_1_2 : S256x8000x1.BroadcastsInDim S256x8000x6 (![0, 1, 2] : Fin 3 → Fin S256x8000x6.rank)
  concatenates_S256x8000x6_S256x8000x10_S256x8000x16_d2 : Shape.Concatenates [S256x8000x6, S256x8000x10] S256x8000x16 2
  slices_S256x8000x16_S256x8000x5_0_0_0 : S256x8000x16.Slices ![0, 0, 0] S256x8000x5
  slices_S256x8000x16_S256x8000x11_0_0_5 : S256x8000x16.Slices ![0, 0, 5] S256x8000x11
  slices_S256x8000x11_S256x8000x1_0_0_0 : S256x8000x11.Slices ![0, 0, 0] S256x8000x1
  bcast_S256x8000x1_S256x8000x5_0_1_2 : S256x8000x1.BroadcastsInDim S256x8000x5 (![0, 1, 2] : Fin 3 → Fin S256x8000x5.rank)
  concatenates_S256x8000x5_S256x8000x11_S256x8000x16_d2 : Shape.Concatenates [S256x8000x5, S256x8000x11] S256x8000x16 2
  slices_S256x8000x16_S256x8000x4_0_0_0 : S256x8000x16.Slices ![0, 0, 0] S256x8000x4
  slices_S256x8000x16_S256x8000x12_0_0_4 : S256x8000x16.Slices ![0, 0, 4] S256x8000x12
  slices_S256x8000x12_S256x8000x1_0_0_0 : S256x8000x12.Slices ![0, 0, 0] S256x8000x1
  bcast_S256x8000x1_S256x8000x4_0_1_2 : S256x8000x1.BroadcastsInDim S256x8000x4 (![0, 1, 2] : Fin 3 → Fin S256x8000x4.rank)
  concatenates_S256x8000x4_S256x8000x12_S256x8000x16_d2 : Shape.Concatenates [S256x8000x4, S256x8000x12] S256x8000x16 2
  slices_S256x8000x16_S256x8000x3_0_0_0 : S256x8000x16.Slices ![0, 0, 0] S256x8000x3
  slices_S256x8000x16_S256x8000x13_0_0_3 : S256x8000x16.Slices ![0, 0, 3] S256x8000x13
  slices_S256x8000x13_S256x8000x1_0_0_0 : S256x8000x13.Slices ![0, 0, 0] S256x8000x1
  bcast_S256x8000x1_S256x8000x3_0_1_2 : S256x8000x1.BroadcastsInDim S256x8000x3 (![0, 1, 2] : Fin 3 → Fin S256x8000x3.rank)
  concatenates_S256x8000x3_S256x8000x13_S256x8000x16_d2 : Shape.Concatenates [S256x8000x3, S256x8000x13] S256x8000x16 2
  slices_S256x8000x16_S256x8000x2_0_0_0 : S256x8000x16.Slices ![0, 0, 0] S256x8000x2
  slices_S256x8000x16_S256x8000x14_0_0_2 : S256x8000x16.Slices ![0, 0, 2] S256x8000x14
  slices_S256x8000x14_S256x8000x1_0_0_0 : S256x8000x14.Slices ![0, 0, 0] S256x8000x1
  bcast_S256x8000x1_S256x8000x2_0_1_2 : S256x8000x1.BroadcastsInDim S256x8000x2 (![0, 1, 2] : Fin 3 → Fin S256x8000x2.rank)
  concatenates_S256x8000x2_S256x8000x14_S256x8000x16_d2 : Shape.Concatenates [S256x8000x2, S256x8000x14] S256x8000x16 2
  slices_S256x8000x16_S256x8000x1_0_0_0 : S256x8000x16.Slices ![0, 0, 0] S256x8000x1
  slices_S256x8000x16_S256x8000x15_0_0_1 : S256x8000x16.Slices ![0, 0, 1] S256x8000x15
  slices_S256x8000x15_S256x8000x1_0_0_0 : S256x8000x15.Slices ![0, 0, 0] S256x8000x1
  concatenates_S256x8000x1_S256x8000x15_S256x8000x16_d2 : Shape.Concatenates [S256x8000x1, S256x8000x15] S256x8000x16 2

variable [Facts]

def fn_part9 {F : FTy → Type} [FloatOps F] (main_v3 : IVec S_ 1) (main_v196 : FVec F S256x8000x16 .f32) (main_v197 : FVec F S256x8000x16 .f32) : IVec S_ 1 :=
  let main_v198 : IVec S256x8000x16 1 := cmpf .olt main_v196 main_v197
  let main_c_16 : IVec S_ 1 := constantI S_ 1 1#1
  let main_v199 : IVec S_ 1 := (fun x v => Host.reduce IntOp.andi x v reducesTo_S256x8000x16_S_d0_1_2 h_S_) main_v198 main_c_16
  let main_v200 : IVec S_ 1 := andi main_v3 main_v199
  main_v200

def fn_part8 {F : FTy → Type} [FloatOps F] (main_v3 : IVec S_ 1) (main_v172 : FVec F S256x8000x2 .f32) (main_v173 : FVec F S256x8000x14 .f32) (main_v174 : FVec F S256x8000x1 .f32) (main_v175 : FVec F S256x8000x2 .f32) (main_v176 : FVec F S256x8000x2 .f32) : IVec S_ 1 :=
  let main_v177 : FVec F S256x8000x2 .f32 := mulf main_v176 main_v175
  let main_v178 : FVec F S256x8000x2 .f32 := subf main_v172 main_v177
  let main_v179 : FVec F S256x8000x1 .f32 := mulf main_v174 main_v174
  let main_cst_13 : FVec F S_ .f32 := constant S_ .f32 0x3F800000#32
  let main_v180 : FVec F S256x8000x1 .f32 := broadcastInDim S256x8000x1 ![] bcast_S_S256x8000x1 main_cst_13
  let main_v181 : FVec F S256x8000x1 .f32 := subf main_v180 main_v179
  let main_v182 : FVec F S256x8000x2 .f32 := broadcastInDim S256x8000x2 ![0, 1, 2] bcast_S256x8000x1_S256x8000x2_0_1_2 main_v181
  let main_v183 : FVec F S256x8000x2 .f32 := Host.divf main_v178 main_v182
  let main_v184 : FVec F S256x8000x16 .f32 := (fun a b => concatenate S256x8000x16 2 [⟨S256x8000x2, a⟩, ⟨S256x8000x14, b⟩] concatenates_S256x8000x2_S256x8000x14_S256x8000x16_d2) main_v183 main_v173
  let main_v185 : FVec F S256x8000x1 .f32 := (extractStridedSlice S256x8000x1 ![0, 0, 0] · slices_S256x8000x16_S256x8000x1_0_0_0) main_v184
  let main_v186 : FVec F S256x8000x15 .f32 := (extractStridedSlice S256x8000x15 ![0, 0, 1] · slices_S256x8000x16_S256x8000x15_0_0_1) main_v184
  let main_v187 : FVec F S256x8000x1 .f32 := (extractStridedSlice S256x8000x1 ![0, 0, 0] · slices_S256x8000x15_S256x8000x1_0_0_0) main_v186
  let main_v188 : FVec F S256x8000x1 .f32 := Host.reverse [2] main_v185
  let main_v189 : FVec F S256x8000x1 .f32 := mulf main_v187 main_v188
  let main_v190 : FVec F S256x8000x1 .f32 := subf main_v185 main_v189
  let main_v191 : FVec F S256x8000x1 .f32 := mulf main_v187 main_v187
  let main_cst_14 : FVec F S_ .f32 := constant S_ .f32 0x3F800000#32
  let main_v192 : FVec F S256x8000x1 .f32 := broadcastInDim S256x8000x1 ![] bcast_S_S256x8000x1 main_cst_14
  let main_v193 : FVec F S256x8000x1 .f32 := subf main_v192 main_v191
  let main_v194 : FVec F S256x8000x1 .f32 := Host.divf main_v190 main_v193
  let main_v195 : FVec F S256x8000x16 .f32 := (fun a b => concatenate S256x8000x16 2 [⟨S256x8000x1, a⟩, ⟨S256x8000x15, b⟩] concatenates_S256x8000x1_S256x8000x15_S256x8000x16_d2) main_v194 main_v186
  let main_v196 : FVec F S256x8000x16 .f32 := Host.absf main_v195
  let main_cst_15 : FVec F S_ .f32 := constant S_ .f32 0x7F800000#32
  let main_v197 : FVec F S256x8000x16 .f32 := broadcastInDim S256x8000x16 ![] bcast_S_S256x8000x16 main_cst_15
  fn_part9 (F := F) main_v3 main_v196 main_v197

def fn_part7 {F : FTy → Type} [FloatOps F] (main_v3 : IVec S_ 1) (main_v147 : FVec F S256x8000x12 .f32) (main_v152 : FVec F S256x8000x4 .f32) (main_v153 : FVec F S256x8000x1 .f32) (main_cst_11 : FVec F S_ .f32) : IVec S_ 1 :=
  let main_v154 : FVec F S256x8000x1 .f32 := broadcastInDim S256x8000x1 ![] bcast_S_S256x8000x1 main_cst_11
  let main_v155 : FVec F S256x8000x1 .f32 := subf main_v154 main_v153
  let main_v156 : FVec F S256x8000x4 .f32 := broadcastInDim S256x8000x4 ![0, 1, 2] bcast_S256x8000x1_S256x8000x4_0_1_2 main_v155
  let main_v157 : FVec F S256x8000x4 .f32 := Host.divf main_v152 main_v156
  let main_v158 : FVec F S256x8000x16 .f32 := (fun a b => concatenate S256x8000x16 2 [⟨S256x8000x4, a⟩, ⟨S256x8000x12, b⟩] concatenates_S256x8000x4_S256x8000x12_S256x8000x16_d2) main_v157 main_v147
  let main_v159 : FVec F S256x8000x3 .f32 := (extractStridedSlice S256x8000x3 ![0, 0, 0] · slices_S256x8000x16_S256x8000x3_0_0_0) main_v158
  let main_v160 : FVec F S256x8000x13 .f32 := (extractStridedSlice S256x8000x13 ![0, 0, 3] · slices_S256x8000x16_S256x8000x13_0_0_3) main_v158
  let main_v161 : FVec F S256x8000x1 .f32 := (extractStridedSlice S256x8000x1 ![0, 0, 0] · slices_S256x8000x13_S256x8000x1_0_0_0) main_v160
  let main_v162 : FVec F S256x8000x3 .f32 := Host.reverse [2] main_v159
  let main_v163 : FVec F S256x8000x3 .f32 := broadcastInDim S256x8000x3 ![0, 1, 2] bcast_S256x8000x1_S256x8000x3_0_1_2 main_v161
  let main_v164 : FVec F S256x8000x3 .f32 := mulf main_v163 main_v162
  let main_v165 : FVec F S256x8000x3 .f32 := subf main_v159 main_v164
  let main_v166 : FVec F S256x8000x1 .f32 := mulf main_v161 main_v161
  let main_cst_12 : FVec F S_ .f32 := constant S_ .f32 0x3F800000#32
  let main_v167 : FVec F S256x8000x1 .f32 := broadcastInDim S256x8000x1 ![] bcast_S_S256x8000x1 main_cst_12
  let main_v168 : FVec F S256x8000x1 .f32 := subf main_v167 main_v166
  let main_v169 : FVec F S256x8000x3 .f32 := broadcastInDim S256x8000x3 ![0, 1, 2] bcast_S256x8000x1_S256x8000x3_0_1_2 main_v168
  let main_v170 : FVec F S256x8000x3 .f32 := Host.divf main_v165 main_v169
  let main_v171 : FVec F S256x8000x16 .f32 := (fun a b => concatenate S256x8000x16 2 [⟨S256x8000x3, a⟩, ⟨S256x8000x13, b⟩] concatenates_S256x8000x3_S256x8000x13_S256x8000x16_d2) main_v170 main_v160
  let main_v172 : FVec F S256x8000x2 .f32 := (extractStridedSlice S256x8000x2 ![0, 0, 0] · slices_S256x8000x16_S256x8000x2_0_0_0) main_v171
  let main_v173 : FVec F S256x8000x14 .f32 := (extractStridedSlice S256x8000x14 ![0, 0, 2] · slices_S256x8000x16_S256x8000x14_0_0_2) main_v171
  let main_v174 : FVec F S256x8000x1 .f32 := (extractStridedSlice S256x8000x1 ![0, 0, 0] · slices_S256x8000x14_S256x8000x1_0_0_0) main_v173
  let main_v175 : FVec F S256x8000x2 .f32 := Host.reverse [2] main_v172
  let main_v176 : FVec F S256x8000x2 .f32 := broadcastInDim S256x8000x2 ![0, 1, 2] bcast_S256x8000x1_S256x8000x2_0_1_2 main_v174
  fn_part8 (F := F) main_v3 main_v172 main_v173 main_v174 main_v175 main_v176

def fn_part6 {F : FTy → Type} [FloatOps F] (main_v3 : IVec S_ 1) (main_v121 : FVec F S256x8000x10 .f32) (main_v131 : FVec F S256x8000x6 .f32) : IVec S_ 1 :=
  let main_v132 : FVec F S256x8000x16 .f32 := (fun a b => concatenate S256x8000x16 2 [⟨S256x8000x6, a⟩, ⟨S256x8000x10, b⟩] concatenates_S256x8000x6_S256x8000x10_S256x8000x16_d2) main_v131 main_v121
  let main_v133 : FVec F S256x8000x5 .f32 := (extractStridedSlice S256x8000x5 ![0, 0, 0] · slices_S256x8000x16_S256x8000x5_0_0_0) main_v132
  let main_v134 : FVec F S256x8000x11 .f32 := (extractStridedSlice S256x8000x11 ![0, 0, 5] · slices_S256x8000x16_S256x8000x11_0_0_5) main_v132
  let main_v135 : FVec F S256x8000x1 .f32 := (extractStridedSlice S256x8000x1 ![0, 0, 0] · slices_S256x8000x11_S256x8000x1_0_0_0) main_v134
  let main_v136 : FVec F S256x8000x5 .f32 := Host.reverse [2] main_v133
  let main_v137 : FVec F S256x8000x5 .f32 := broadcastInDim S256x8000x5 ![0, 1, 2] bcast_S256x8000x1_S256x8000x5_0_1_2 main_v135
  let main_v138 : FVec F S256x8000x5 .f32 := mulf main_v137 main_v136
  let main_v139 : FVec F S256x8000x5 .f32 := subf main_v133 main_v138
  let main_v140 : FVec F S256x8000x1 .f32 := mulf main_v135 main_v135
  let main_cst_10 : FVec F S_ .f32 := constant S_ .f32 0x3F800000#32
  let main_v141 : FVec F S256x8000x1 .f32 := broadcastInDim S256x8000x1 ![] bcast_S_S256x8000x1 main_cst_10
  let main_v142 : FVec F S256x8000x1 .f32 := subf main_v141 main_v140
  let main_v143 : FVec F S256x8000x5 .f32 := broadcastInDim S256x8000x5 ![0, 1, 2] bcast_S256x8000x1_S256x8000x5_0_1_2 main_v142
  let main_v144 : FVec F S256x8000x5 .f32 := Host.divf main_v139 main_v143
  let main_v145 : FVec F S256x8000x16 .f32 := (fun a b => concatenate S256x8000x16 2 [⟨S256x8000x5, a⟩, ⟨S256x8000x11, b⟩] concatenates_S256x8000x5_S256x8000x11_S256x8000x16_d2) main_v144 main_v134
  let main_v146 : FVec F S256x8000x4 .f32 := (extractStridedSlice S256x8000x4 ![0, 0, 0] · slices_S256x8000x16_S256x8000x4_0_0_0) main_v145
  let main_v147 : FVec F S256x8000x12 .f32 := (extractStridedSlice S256x8000x12 ![0, 0, 4] · slices_S256x8000x16_S256x8000x12_0_0_4) main_v145
  let main_v148 : FVec F S256x8000x1 .f32 := (extractStridedSlice S256x8000x1 ![0, 0, 0] · slices_S256x8000x12_S256x8000x1_0_0_0) main_v147
  let main_v149 : FVec F S256x8000x4 .f32 := Host.reverse [2] main_v146
  let main_v150 : FVec F S256x8000x4 .f32 := broadcastInDim S256x8000x4 ![0, 1, 2] bcast_S256x8000x1_S256x8000x4_0_1_2 main_v148
  let main_v151 : FVec F S256x8000x4 .f32 := mulf main_v150 main_v149
  let main_v152 : FVec F S256x8000x4 .f32 := subf main_v146 main_v151
  let main_v153 : FVec F S256x8000x1 .f32 := mulf main_v148 main_v148
  let main_cst_11 : FVec F S_ .f32 := constant S_ .f32 0x3F800000#32
  fn_part7 (F := F) main_v3 main_v147 main_v152 main_v153 main_cst_11

def fn_part5 {F : FTy → Type} [FloatOps F] (main_v3 : IVec S_ 1) (main_v107 : FVec F S256x8000x7 .f32) (main_v108 : FVec F S256x8000x9 .f32) (main_v109 : FVec F S256x8000x1 .f32) : IVec S_ 1 :=
  let main_v110 : FVec F S256x8000x7 .f32 := Host.reverse [2] main_v107
  let main_v111 : FVec F S256x8000x7 .f32 := broadcastInDim S256x8000x7 ![0, 1, 2] bcast_S256x8000x1_S256x8000x7_0_1_2 main_v109
  let main_v112 : FVec F S256x8000x7 .f32 := mulf main_v111 main_v110
  let main_v113 : FVec F S256x8000x7 .f32 := subf main_v107 main_v112
  let main_v114 : FVec F S256x8000x1 .f32 := mulf main_v109 main_v109
  let main_cst_8 : FVec F S_ .f32 := constant S_ .f32 0x3F800000#32
  let main_v115 : FVec F S256x8000x1 .f32 := broadcastInDim S256x8000x1 ![] bcast_S_S256x8000x1 main_cst_8
  let main_v116 : FVec F S256x8000x1 .f32 := subf main_v115 main_v114
  let main_v117 : FVec F S256x8000x7 .f32 := broadcastInDim S256x8000x7 ![0, 1, 2] bcast_S256x8000x1_S256x8000x7_0_1_2 main_v116
  let main_v118 : FVec F S256x8000x7 .f32 := Host.divf main_v113 main_v117
  let main_v119 : FVec F S256x8000x16 .f32 := (fun a b => concatenate S256x8000x16 2 [⟨S256x8000x7, a⟩, ⟨S256x8000x9, b⟩] concatenates_S256x8000x7_S256x8000x9_S256x8000x16_d2) main_v118 main_v108
  let main_v120 : FVec F S256x8000x6 .f32 := (extractStridedSlice S256x8000x6 ![0, 0, 0] · slices_S256x8000x16_S256x8000x6_0_0_0) main_v119
  let main_v121 : FVec F S256x8000x10 .f32 := (extractStridedSlice S256x8000x10 ![0, 0, 6] · slices_S256x8000x16_S256x8000x10_0_0_6) main_v119
  let main_v122 : FVec F S256x8000x1 .f32 := (extractStridedSlice S256x8000x1 ![0, 0, 0] · slices_S256x8000x10_S256x8000x1_0_0_0) main_v121
  let main_v123 : FVec F S256x8000x6 .f32 := Host.reverse [2] main_v120
  let main_v124 : FVec F S256x8000x6 .f32 := broadcastInDim S256x8000x6 ![0, 1, 2] bcast_S256x8000x1_S256x8000x6_0_1_2 main_v122
  let main_v125 : FVec F S256x8000x6 .f32 := mulf main_v124 main_v123
  let main_v126 : FVec F S256x8000x6 .f32 := subf main_v120 main_v125
  let main_v127 : FVec F S256x8000x1 .f32 := mulf main_v122 main_v122
  let main_cst_9 : FVec F S_ .f32 := constant S_ .f32 0x3F800000#32
  let main_v128 : FVec F S256x8000x1 .f32 := broadcastInDim S256x8000x1 ![] bcast_S_S256x8000x1 main_cst_9
  let main_v129 : FVec F S256x8000x1 .f32 := subf main_v128 main_v127
  let main_v130 : FVec F S256x8000x6 .f32 := broadcastInDim S256x8000x6 ![0, 1, 2] bcast_S256x8000x1_S256x8000x6_0_1_2 main_v129
  let main_v131 : FVec F S256x8000x6 .f32 := Host.divf main_v126 main_v130
  fn_part6 (F := F) main_v3 main_v121 main_v131

def fn_part4 {F : FTy → Type} [FloatOps F] (main_v3 : IVec S_ 1) (main_v82 : FVec F S256x8000x7 .f32) (main_v83 : FVec F S256x8000x1 .f32) (main_v87 : FVec F S256x8000x9 .f32) : IVec S_ 1 :=
  let main_v88 : FVec F S256x8000x1 .f32 := mulf main_v83 main_v83
  let main_cst_6 : FVec F S_ .f32 := constant S_ .f32 0x3F800000#32
  let main_v89 : FVec F S256x8000x1 .f32 := broadcastInDim S256x8000x1 ![] bcast_S_S256x8000x1 main_cst_6
  let main_v90 : FVec F S256x8000x1 .f32 := subf main_v89 main_v88
  let main_v91 : FVec F S256x8000x9 .f32 := broadcastInDim S256x8000x9 ![0, 1, 2] bcast_S256x8000x1_S256x8000x9_0_1_2 main_v90
  let main_v92 : FVec F S256x8000x9 .f32 := Host.divf main_v87 main_v91
  let main_v93 : FVec F S256x8000x16 .f32 := (fun a b => concatenate S256x8000x16 2 [⟨S256x8000x9, a⟩, ⟨S256x8000x7, b⟩] concatenates_S256x8000x9_S256x8000x7_S256x8000x16_d2) main_v92 main_v82
  let main_v94 : FVec F S256x8000x8 .f32 := (extractStridedSlice S256x8000x8 ![0, 0, 0] · slices_S256x8000x16_S256x8000x8_0_0_0) main_v93
  let main_v95 : FVec F S256x8000x8 .f32 := (extractStridedSlice S256x8000x8 ![0, 0, 8] · slices_S256x8000x16_S256x8000x8_0_0_8) main_v93
  let main_v96 : FVec F S256x8000x1 .f32 := (extractStridedSlice S256x8000x1 ![0, 0, 0] · slices_S256x8000x8_S256x8000x1_0_0_0) main_v95
  let main_v97 : FVec F S256x8000x8 .f32 := Host.reverse [2] main_v94
  let main_v98 : FVec F S256x8000x8 .f32 := broadcastInDim S256x8000x8 ![0, 1, 2] bcast_S256x8000x1_S256x8000x8_0_1_2 main_v96
  let main_v99 : FVec F S256x8000x8 .f32 := mulf main_v98 main_v97
  let main_v100 : FVec F S256x8000x8 .f32 := subf main_v94 main_v99
  let main_v101 : FVec F S256x8000x1 .f32 := mulf main_v96 main_v96
  let main_cst_7 : FVec F S_ .f32 := constant S_ .f32 0x3F800000#32
  let main_v102 : FVec F S256x8000x1 .f32 := broadcastInDim S256x8000x1 ![] bcast_S_S256x8000x1 main_cst_7
  let main_v103 : FVec F S256x8000x1 .f32 := subf main_v102 main_v101
  let main_v104 : FVec F S256x8000x8 .f32 := broadcastInDim S256x8000x8 ![0, 1, 2] bcast_S256x8000x1_S256x8000x8_0_1_2 main_v103
  let main_v105 : FVec F S256x8000x8 .f32 := Host.divf main_v100 main_v104
  let main_v106 : FVec F S256x8000x16 .f32 := (fun a b => concatenate S256x8000x16 2 [⟨S256x8000x8, a⟩, ⟨S256x8000x8, b⟩] concatenates_S256x8000x8_S256x8000x8_S256x8000x16_d2) main_v105 main_v95
  let main_v107 : FVec F S256x8000x7 .f32 := (extractStridedSlice S256x8000x7 ![0, 0, 0] · slices_S256x8000x16_S256x8000x7_0_0_0) main_v106
  let main_v108 : FVec F S256x8000x9 .f32 := (extractStridedSlice S256x8000x9 ![0, 0, 7] · slices_S256x8000x16_S256x8000x9_0_0_7) main_v106
  let main_v109 : FVec F S256x8000x1 .f32 := (extractStridedSlice S256x8000x1 ![0, 0, 0] · slices_S256x8000x9_S256x8000x1_0_0_0) main_v108
  fn_part5 (F := F) main_v3 main_v107 main_v108 main_v109

def fn_part3 {F : FTy → Type} [FloatOps F] (main_v3 : IVec S_ 1) (main_v56 : FVec F S256x8000x5 .f32) (main_v61 : FVec F S256x8000x11 .f32) (main_v64 : FVec F S256x8000x1 .f32) : IVec S_ 1 :=
  let main_v65 : FVec F S256x8000x11 .f32 := broadcastInDim S256x8000x11 ![0, 1, 2] bcast_S256x8000x1_S256x8000x11_0_1_2 main_v64
  let main_v66 : FVec F S256x8000x11 .f32 := Host.divf main_v61 main_v65
  let main_v67 : FVec F S256x8000x16 .f32 := (fun a b => concatenate S256x8000x16 2 [⟨S256x8000x11, a⟩, ⟨S256x8000x5, b⟩] concatenates_S256x8000x11_S256x8000x5_S256x8000x16_d2) main_v66 main_v56
  let main_v68 : FVec F S256x8000x10 .f32 := (extractStridedSlice S256x8000x10 ![0, 0, 0] · slices_S256x8000x16_S256x8000x10_0_0_0) main_v67
  let main_v69 : FVec F S256x8000x6 .f32 := (extractStridedSlice S256x8000x6 ![0, 0, 10] · slices_S256x8000x16_S256x8000x6_0_0_10) main_v67
  let main_v70 : FVec F S256x8000x1 .f32 := (extractStridedSlice S256x8000x1 ![0, 0, 0] · slices_S256x8000x6_S256x8000x1_0_0_0) main_v69
  let main_v71 : FVec F S256x8000x10 .f32 := Host.reverse [2] main_v68
  let main_v72 : FVec F S256x8000x10 .f32 := broadcastInDim S256x8000x10 ![0, 1, 2] bcast_S256x8000x1_S256x8000x10_0_1_2 main_v70
  let main_v73 : FVec F S256x8000x10 .f32 := mulf main_v72 main_v71
  let main_v74 : FVec F S256x8000x10 .f32 := subf main_v68 main_v73
  let main_v75 : FVec F S256x8000x1 .f32 := mulf main_v70 main_v70
  let main_cst_5 : FVec F S_ .f32 := constant S_ .f32 0x3F800000#32
  let main_v76 : FVec F S256x8000x1 .f32 := broadcastInDim S256x8000x1 ![] bcast_S_S256x8000x1 main_cst_5
  let main_v77 : FVec F S256x8000x1 .f32 := subf main_v76 main_v75
  let main_v78 : FVec F S256x8000x10 .f32 := broadcastInDim S256x8000x10 ![0, 1, 2] bcast_S256x8000x1_S256x8000x10_0_1_2 main_v77
  let main_v79 : FVec F S256x8000x10 .f32 := Host.divf main_v74 main_v78
  let main_v80 : FVec F S256x8000x16 .f32 := (fun a b => concatenate S256x8000x16 2 [⟨S256x8000x10, a⟩, ⟨S256x8000x6, b⟩] concatenates_S256x8000x10_S256x8000x6_S256x8000x16_d2) main_v79 main_v69
  let main_v81 : FVec F S256x8000x9 .f32 := (extractStridedSlice S256x8000x9 ![0, 0, 0] · slices_S256x8000x16_S256x8000x9_0_0_0) main_v80
  let main_v82 : FVec F S256x8000x7 .f32 := (extractStridedSlice S256x8000x7 ![0, 0, 9] · slices_S256x8000x16_S256x8000x7_0_0_9) main_v80
  let main_v83 : FVec F S256x8000x1 .f32 := (extractStridedSlice S256x8000x1 ![0, 0, 0] · slices_S256x8000x7_S256x8000x1_0_0_0) main_v82
  let main_v84 : FVec F S256x8000x9 .f32 := Host.reverse [2] main_v81
  let main_v85 : FVec F S256x8000x9 .f32 := broadcastInDim S256x8000x9 ![0, 1, 2] bcast_S256x8000x1_S256x8000x9_0_1_2 main_v83
  let main_v86 : FVec F S256x8000x9 .f32 := mulf main_v85 main_v84
  let main_v87 : FVec F S256x8000x9 .f32 := subf main_v81 main_v86
  fn_part4 (F := F) main_v3 main_v82 main_v83 main_v87

def fn_part2 {F : FTy → Type} [FloatOps F] (main_v3 : IVec S_ 1) (main_v41 : FVec F S256x8000x16 .f32) (main_v42 : FVec F S256x8000x12 .f32) : IVec S_ 1 :=
  let main_v43 : FVec F S256x8000x4 .f32 := (extractStridedSlice S256x8000x4 ![0, 0, 12] · slices_S256x8000x16_S256x8000x4_0_0_12) main_v41
  let main_v44 : FVec F S256x8000x1 .f32 := (extractStridedSlice S256x8000x1 ![0, 0, 0] · slices_S256x8000x4_S256x8000x1_0_0_0) main_v43
  let main_v45 : FVec F S256x8000x12 .f32 := Host.reverse [2] main_v42
  let main_v46 : FVec F S256x8000x12 .f32 := broadcastInDim S256x8000x12 ![0, 1, 2] bcast_S256x8000x1_S256x8000x12_0_1_2 main_v44
  let main_v47 : FVec F S256x8000x12 .f32 := mulf main_v46 main_v45
  let main_v48 : FVec F S256x8000x12 .f32 := subf main_v42 main_v47
  let main_v49 : FVec F S256x8000x1 .f32 := mulf main_v44 main_v44
  let main_cst_3 : FVec F S_ .f32 := constant S_ .f32 0x3F800000#32
  let main_v50 : FVec F S256x8000x1 .f32 := broadcastInDim S256x8000x1 ![] bcast_S_S256x8000x1 main_cst_3
  let main_v51 : FVec F S256x8000x1 .f32 := subf main_v50 main_v49
  let main_v52 : FVec F S256x8000x12 .f32 := broadcastInDim S256x8000x12 ![0, 1, 2] bcast_S256x8000x1_S256x8000x12_0_1_2 main_v51
  let main_v53 : FVec F S256x8000x12 .f32 := Host.divf main_v48 main_v52
  let main_v54 : FVec F S256x8000x16 .f32 := (fun a b => concatenate S256x8000x16 2 [⟨S256x8000x12, a⟩, ⟨S256x8000x4, b⟩] concatenates_S256x8000x12_S256x8000x4_S256x8000x16_d2) main_v53 main_v43
  let main_v55 : FVec F S256x8000x11 .f32 := (extractStridedSlice S256x8000x11 ![0, 0, 0] · slices_S256x8000x16_S256x8000x11_0_0_0) main_v54
  let main_v56 : FVec F S256x8000x5 .f32 := (extractStridedSlice S256x8000x5 ![0, 0, 11] · slices_S256x8000x16_S256x8000x5_0_0_11) main_v54
  let main_v57 : FVec F S256x8000x1 .f32 := (extractStridedSlice S256x8000x1 ![0, 0, 0] · slices_S256x8000x5_S256x8000x1_0_0_0) main_v56
  let main_v58 : FVec F S256x8000x11 .f32 := Host.reverse [2] main_v55
  let main_v59 : FVec F S256x8000x11 .f32 := broadcastInDim S256x8000x11 ![0, 1, 2] bcast_S256x8000x1_S256x8000x11_0_1_2 main_v57
  let main_v60 : FVec F S256x8000x11 .f32 := mulf main_v59 main_v58
  let main_v61 : FVec F S256x8000x11 .f32 := subf main_v55 main_v60
  let main_v62 : FVec F S256x8000x1 .f32 := mulf main_v57 main_v57
  let main_cst_4 : FVec F S_ .f32 := constant S_ .f32 0x3F800000#32
  let main_v63 : FVec F S256x8000x1 .f32 := broadcastInDim S256x8000x1 ![] bcast_S_S256x8000x1 main_cst_4
  let main_v64 : FVec F S256x8000x1 .f32 := subf main_v63 main_v62
  fn_part3 (F := F) main_v3 main_v56 main_v61 main_v64

def fn_part1 {F : FTy → Type} [FloatOps F] (main_v3 : IVec S_ 1) (main_v16 : FVec F S256x8000x14 .f32) (main_v17 : FVec F S256x8000x2 .f32) (main_v18 : FVec F S256x8000x1 .f32) (main_v19 : FVec F S256x8000x14 .f32) (main_v20 : FVec F S256x8000x14 .f32) : IVec S_ 1 :=
  let main_v21 : FVec F S256x8000x14 .f32 := mulf main_v20 main_v19
  let main_v22 : FVec F S256x8000x14 .f32 := subf main_v16 main_v21
  let main_v23 : FVec F S256x8000x1 .f32 := mulf main_v18 main_v18
  let main_cst_1 : FVec F S_ .f32 := constant S_ .f32 0x3F800000#32
  let main_v24 : FVec F S256x8000x1 .f32 := broadcastInDim S256x8000x1 ![] bcast_S_S256x8000x1 main_cst_1
  let main_v25 : FVec F S256x8000x1 .f32 := subf main_v24 main_v23
  let main_v26 : FVec F S256x8000x14 .f32 := broadcastInDim S256x8000x14 ![0, 1, 2] bcast_S256x8000x1_S256x8000x14_0_1_2 main_v25
  let main_v27 : FVec F S256x8000x14 .f32 := Host.divf main_v22 main_v26
  let main_v28 : FVec F S256x8000x16 .f32 := (fun a b => concatenate S256x8000x16 2 [⟨S256x8000x14, a⟩, ⟨S256x8000x2, b⟩] concatenates_S256x8000x14_S256x8000x2_S256x8000x16_d2) main_v27 main_v17
  let main_v29 : FVec F S256x8000x13 .f32 := (extractStridedSlice S256x8000x13 ![0, 0, 0] · slices_S256x8000x16_S256x8000x13_0_0_0) main_v28
  let main_v30 : FVec F S256x8000x3 .f32 := (extractStridedSlice S256x8000x3 ![0, 0, 13] · slices_S256x8000x16_S256x8000x3_0_0_13) main_v28
  let main_v31 : FVec F S256x8000x1 .f32 := (extractStridedSlice S256x8000x1 ![0, 0, 0] · slices_S256x8000x3_S256x8000x1_0_0_0) main_v30
  let main_v32 : FVec F S256x8000x13 .f32 := Host.reverse [2] main_v29
  let main_v33 : FVec F S256x8000x13 .f32 := broadcastInDim S256x8000x13 ![0, 1, 2] bcast_S256x8000x1_S256x8000x13_0_1_2 main_v31
  let main_v34 : FVec F S256x8000x13 .f32 := mulf main_v33 main_v32
  let main_v35 : FVec F S256x8000x13 .f32 := subf main_v29 main_v34
  let main_v36 : FVec F S256x8000x1 .f32 := mulf main_v31 main_v31
  let main_cst_2 : FVec F S_ .f32 := constant S_ .f32 0x3F800000#32
  let main_v37 : FVec F S256x8000x1 .f32 := broadcastInDim S256x8000x1 ![] bcast_S_S256x8000x1 main_cst_2
  let main_v38 : FVec F S256x8000x1 .f32 := subf main_v37 main_v36
  let main_v39 : FVec F S256x8000x13 .f32 := broadcastInDim S256x8000x13 ![0, 1, 2] bcast_S256x8000x1_S256x8000x13_0_1_2 main_v38
  let main_v40 : FVec F S256x8000x13 .f32 := Host.divf main_v35 main_v39
  let main_v41 : FVec F S256x8000x16 .f32 := (fun a b => concatenate S256x8000x16 2 [⟨S256x8000x13, a⟩, ⟨S256x8000x3, b⟩] concatenates_S256x8000x13_S256x8000x3_S256x8000x16_d2) main_v40 main_v30
  let main_v42 : FVec F S256x8000x12 .f32 := (extractStridedSlice S256x8000x12 ![0, 0, 0] · slices_S256x8000x16_S256x8000x12_0_0_0) main_v41
  fn_part2 (F := F) main_v3 main_v41 main_v42

def fn {F : FTy → Type} [FloatOps F] (main_arg0 : FVec F S256x8000x16 .f32) : IVec S_ 1 :=
  let main_v0 : FVec F S256x8000x16 .f32 := Host.absf main_arg0
  let main_cst : FVec F S_ .f32 := constant S_ .f32 0x7F800000#32
  let main_v1 : FVec F S256x8000x16 .f32 := broadcastInDim S256x8000x16 ![] bcast_S_S256x8000x16 main_cst
  let main_v2 : IVec S256x8000x16 1 := cmpf .olt main_v0 main_v1
  let main_c : IVec S_ 1 := constantI S_ 1 1#1
  let main_v3 : IVec S_ 1 := (fun x v => Host.reduce IntOp.andi x v reducesTo_S256x8000x16_S_d0_1_2 h_S_) main_v2 main_c
  let main_v4 : FVec F S256x8000x15 .f32 := (extractStridedSlice S256x8000x15 ![0, 0, 0] · slices_S256x8000x16_S256x8000x15_0_0_0) main_arg0
  let main_v5 : FVec F S256x8000x1 .f32 := (extractStridedSlice S256x8000x1 ![0, 0, 15] · slices_S256x8000x16_S256x8000x1_0_0_15) main_arg0
  let main_v6 : FVec F S256x8000x15 .f32 := Host.reverse [2] main_v4
  let main_v7 : FVec F S256x8000x15 .f32 := broadcastInDim S256x8000x15 ![0, 1, 2] bcast_S256x8000x1_S256x8000x15_0_1_2 main_v5
  let main_v8 : FVec F S256x8000x15 .f32 := mulf main_v7 main_v6
  let main_v9 : FVec F S256x8000x15 .f32 := subf main_v4 main_v8
  let main_v10 : FVec F S256x8000x1 .f32 := mulf main_v5 main_v5
  let main_cst_0 : FVec F S_ .f32 := constant S_ .f32 0x3F800000#32
  let main_v11 : FVec F S256x8000x1 .f32 := broadcastInDim S256x8000x1 ![] bcast_S_S256x8000x1 main_cst_0
  let main_v12 : FVec F S256x8000x1 .f32 := subf main_v11 main_v10
  let main_v13 : FVec F S256x8000x15 .f32 := broadcastInDim S256x8000x15 ![0, 1, 2] bcast_S256x8000x1_S256x8000x15_0_1_2 main_v12
  let main_v14 : FVec F S256x8000x15 .f32 := Host.divf main_v9 main_v13
  let main_v15 : FVec F S256x8000x16 .f32 := (fun a b => concatenate S256x8000x16 2 [⟨S256x8000x15, a⟩, ⟨S256x8000x1, b⟩] concatenates_S256x8000x15_S256x8000x1_S256x8000x16_d2) main_v14 main_v5
  let main_v16 : FVec F S256x8000x14 .f32 := (extractStridedSlice S256x8000x14 ![0, 0, 0] · slices_S256x8000x16_S256x8000x14_0_0_0) main_v15
  let main_v17 : FVec F S256x8000x2 .f32 := (extractStridedSlice S256x8000x2 ![0, 0, 14] · slices_S256x8000x16_S256x8000x2_0_0_14) main_v15
  let main_v18 : FVec F S256x8000x1 .f32 := (extractStridedSlice S256x8000x1 ![0, 0, 0] · slices_S256x8000x2_S256x8000x1_0_0_0) main_v17
  let main_v19 : FVec F S256x8000x14 .f32 := Host.reverse [2] main_v16
  let main_v20 : FVec F S256x8000x14 .f32 := broadcastInDim S256x8000x14 ![0, 1, 2] bcast_S256x8000x1_S256x8000x14_0_1_2 main_v18
  fn_part1 (F := F) main_v3 main_v16 main_v17 main_v18 main_v19 main_v20
-- ==== Kernel.lean ====
abbrev S256x8000x16 : Shape := ⟨3, ![256, 8000, 16]⟩
abbrev S2048000x16 : Shape := ⟨2, ![2048000, 16]⟩
abbrev S256000x128 : Shape := ⟨2, ![256000, 128]⟩
abbrev S5120x128 : Shape := ⟨2, ![5120, 128]⟩
abbrev S128x5120 : Shape := ⟨2, ![128, 5120]⟩
abbrev S8x16x5120 : Shape := ⟨3, ![8, 16, 5120]⟩
abbrev S8x15x5120 : Shape := ⟨3, ![8, 15, 5120]⟩
abbrev S8x1x5120 : Shape := ⟨3, ![8, 1, 5120]⟩
abbrev S8x14x5120 : Shape := ⟨3, ![8, 14, 5120]⟩
abbrev S8x2x5120 : Shape := ⟨3, ![8, 2, 5120]⟩
abbrev S8x13x5120 : Shape := ⟨3, ![8, 13, 5120]⟩
abbrev S8x3x5120 : Shape := ⟨3, ![8, 3, 5120]⟩
abbrev S8x12x5120 : Shape := ⟨3, ![8, 12, 5120]⟩
abbrev S8x4x5120 : Shape := ⟨3, ![8, 4, 5120]⟩
abbrev S8x11x5120 : Shape := ⟨3, ![8, 11, 5120]⟩
abbrev S8x5x5120 : Shape := ⟨3, ![8, 5, 5120]⟩
abbrev S8x10x5120 : Shape := ⟨3, ![8, 10, 5120]⟩
abbrev S8x6x5120 : Shape := ⟨3, ![8, 6, 5120]⟩
abbrev S8x9x5120 : Shape := ⟨3, ![8, 9, 5120]⟩
abbrev S8x7x5120 : Shape := ⟨3, ![8, 7, 5120]⟩
abbrev S8x8x5120 : Shape := ⟨3, ![8, 8, 5120]⟩

abbrev nBuf : Space → Nat
  | .hbm => 6
  | .vmem => 4
  | .smem => 0
  | _ => 0

abbrev bufTy : (tb : Table) → Fin (tcTables nBuf tb) → BufTy
  | .hbm, ⟨0, _⟩ => ⟨S256x8000x16, .f32⟩
  | .hbm, ⟨1, _⟩ => ⟨S2048000x16, .f32⟩
  | .hbm, ⟨2, _⟩ => ⟨S256000x128, .f32⟩
  | .hbm, ⟨3, _⟩ => ⟨S256000x128, .f32⟩
  | .hbm, ⟨4, _⟩ => ⟨S2048000x16, .f32⟩
  | .hbm, ⟨5, _⟩ => ⟨S256x8000x16, .f32⟩
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | _, _ => ⟨S256x8000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x8000x16_S2048000x16 : S256x8000x16.ShapeCasts S2048000x16
  shapeCasts_S2048000x16_S256000x128 : S2048000x16.ShapeCasts S256000x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  transposes_S5120x128_p1_0_S128x5120 : S5120x128.Transposes [1, 0] S128x5120
  shapeCasts_S128x5120_S8x16x5120 : S128x5120.ShapeCasts S8x16x5120
  slices_S8x16x5120_o0_0_0_S8x15x5120 : S8x16x5120.Slices ![0, 0, 0] S8x15x5120
  slices_S8x16x5120_o0_15_0_S8x1x5120 : S8x16x5120.Slices ![0, 15, 0] S8x1x5120
  slices_S8x15x5120_o0_14_0_S8x1x5120 : S8x15x5120.Slices ![0, 14, 0] S8x1x5120
  slices_S8x15x5120_o0_13_0_S8x1x5120 : S8x15x5120.Slices ![0, 13, 0] S8x1x5120
  slices_S8x15x5120_o0_12_0_S8x1x5120 : S8x15x5120.Slices ![0, 12, 0] S8x1x5120
  slices_S8x15x5120_o0_11_0_S8x1x5120 : S8x15x5120.Slices ![0, 11, 0] S8x1x5120
  slices_S8x15x5120_o0_10_0_S8x1x5120 : S8x15x5120.Slices ![0, 10, 0] S8x1x5120
  slices_S8x15x5120_o0_9_0_S8x1x5120 : S8x15x5120.Slices ![0, 9, 0] S8x1x5120
  slices_S8x15x5120_o0_8_0_S8x1x5120 : S8x15x5120.Slices ![0, 8, 0] S8x1x5120
  slices_S8x15x5120_o0_7_0_S8x1x5120 : S8x15x5120.Slices ![0, 7, 0] S8x1x5120
  slices_S8x15x5120_o0_6_0_S8x1x5120 : S8x15x5120.Slices ![0, 6, 0] S8x1x5120
  slices_S8x15x5120_o0_5_0_S8x1x5120 : S8x15x5120.Slices ![0, 5, 0] S8x1x5120
  slices_S8x15x5120_o0_4_0_S8x1x5120 : S8x15x5120.Slices ![0, 4, 0] S8x1x5120
  slices_S8x15x5120_o0_3_0_S8x1x5120 : S8x15x5120.Slices ![0, 3, 0] S8x1x5120
  slices_S8x15x5120_o0_2_0_S8x1x5120 : S8x15x5120.Slices ![0, 2, 0] S8x1x5120
  slices_S8x15x5120_o0_1_0_S8x1x5120 : S8x15x5120.Slices ![0, 1, 0] S8x1x5120
  slices_S8x15x5120_o0_0_0_S8x1x5120 : S8x15x5120.Slices ![0, 0, 0] S8x1x5120
  concatenates_S8x1x5120_S8x1x5120_S8x1x5120_S8x1x5120_S8x1x5120_S8x1x5120_S8x1x5120_S8x1x5120_S8x1x5120_S8x1x5120_S8x1x5120_S8x1x5120_S8x1x5120_S8x1x5120_S8x1x5120_S8x15x5120_d1 : Shape.Concatenates [S8x1x5120, S8x1x5120, S8x1x5120, S8x1x5120, S8x1x5120, S8x1x5120, S8x1x5120, S8x1x5120, S8x1x5120, S8x1x5120, S8x1x5120, S8x1x5120, S8x1x5120, S8x1x5120, S8x1x5120] S8x15x5120 1
  broadcasts_S8x1x5120_S8x15x5120 : S8x1x5120.Broadcasts S8x15x5120
  concatenates_S8x15x5120_S8x1x5120_S8x16x5120_d1 : Shape.Concatenates [S8x15x5120, S8x1x5120] S8x16x5120 1
  slices_S8x16x5120_o0_0_0_S8x14x5120 : S8x16x5120.Slices ![0, 0, 0] S8x14x5120
  slices_S8x16x5120_o0_14_0_S8x2x5120 : S8x16x5120.Slices ![0, 14, 0] S8x2x5120
  slices_S8x2x5120_o0_0_0_S8x1x5120 : S8x2x5120.Slices ![0, 0, 0] S8x1x5120
  slices_S8x14x5120_o0_13_0_S8x1x5120 : S8x14x5120.Slices ![0, 13, 0] S8x1x5120
  slices_S8x14x5120_o0_12_0_S8x1x5120 : S8x14x5120.Slices ![0, 12, 0] S8x1x5120
  slices_S8x14x5120_o0_11_0_S8x1x5120 : S8x14x5120.Slices ![0, 11, 0] S8x1x5120
  slices_S8x14x5120_o0_10_0_S8x1x5120 : S8x14x5120.Slices ![0, 10, 0] S8x1x5120
  slices_S8x14x5120_o0_9_0_S8x1x5120 : S8x14x5120.Slices ![0, 9, 0] S8x1x5120
  slices_S8x14x5120_o0_8_0_S8x1x5120 : S8x14x5120.Slices ![0, 8, 0] S8x1x5120
  slices_S8x14x5120_o0_7_0_S8x1x5120 : S8x14x5120.Slices ![0, 7, 0] S8x1x5120
  slices_S8x14x5120_o0_6_0_S8x1x5120 : S8x14x5120.Slices ![0, 6, 0] S8x1x5120
  slices_S8x14x5120_o0_5_0_S8x1x5120 : S8x14x5120.Slices ![0, 5, 0] S8x1x5120
  slices_S8x14x5120_o0_4_0_S8x1x5120 : S8x14x5120.Slices ![0, 4, 0] S8x1x5120
  slices_S8x14x5120_o0_3_0_S8x1x5120 : S8x14x5120.Slices ![0, 3, 0] S8x1x5120
  slices_S8x14x5120_o0_2_0_S8x1x5120 : S8x14x5120.Slices ![0, 2, 0] S8x1x5120
  slices_S8x14x5120_o0_1_0_S8x1x5120 : S8x14x5120.Slices ![0, 1, 0] S8x1x5120
  slices_S8x14x5120_o0_0_0_S8x1x5120 : S8x14x5120.Slices ![0, 0, 0] S8x1x5120
  concatenates_S8x1x5120_S8x1x5120_S8x1x5120_S8x1x5120_S8x1x5120_S8x1x5120_S8x1x5120_S8x1x5120_S8x1x5120_S8x1x5120_S8x1x5120_S8x1x5120_S8x1x5120_S8x1x5120_S8x14x5120_d1 : Shape.Concatenates [S8x1x5120, S8x1x5120, S8x1x5120, S8x1x5120, S8x1x5120, S8x1x5120, S8x1x5120, S8x1x5120, S8x1x5120, S8x1x5120, S8x1x5120, S8x1x5120, S8x1x5120, S8x1x5120] S8x14x5120 1
  broadcasts_S8x1x5120_S8x14x5120 : S8x1x5120.Broadcasts S8x14x5120
  concatenates_S8x14x5120_S8x2x5120_S8x16x5120_d1 : Shape.Concatenates [S8x14x5120, S8x2x5120] S8x16x5120 1
  slices_S8x16x5120_o0_0_0_S8x13x5120 : S8x16x5120.Slices ![0, 0, 0] S8x13x5120
  slices_S8x16x5120_o0_13_0_S8x3x5120 : S8x16x5120.Slices ![0, 13, 0] S8x3x5120
  slices_S8x3x5120_o0_0_0_S8x1x5120 : S8x3x5120.Slices ![0, 0, 0] S8x1x5120
  slices_S8x13x5120_o0_12_0_S8x1x5120 : S8x13x5120.Slices ![0, 12, 0] S8x1x5120
  slices_S8x13x5120_o0_11_0_S8x1x5120 : S8x13x5120.Slices ![0, 11, 0] S8x1x5120
  slices_S8x13x5120_o0_10_0_S8x1x5120 : S8x13x5120.Slices ![0, 10, 0] S8x1x5120
  slices_S8x13x5120_o0_9_0_S8x1x5120 : S8x13x5120.Slices ![0, 9, 0] S8x1x5120
  slices_S8x13x5120_o0_8_0_S8x1x5120 : S8x13x5120.Slices ![0, 8, 0] S8x1x5120
  slices_S8x13x5120_o0_7_0_S8x1x5120 : S8x13x5120.Slices ![0, 7, 0] S8x1x5120
  slices_S8x13x5120_o0_6_0_S8x1x5120 : S8x13x5120.Slices ![0, 6, 0] S8x1x5120
  slices_S8x13x5120_o0_5_0_S8x1x5120 : S8x13x5120.Slices ![0, 5, 0] S8x1x5120
  slices_S8x13x5120_o0_4_0_S8x1x5120 : S8x13x5120.Slices ![0, 4, 0] S8x1x5120
  slices_S8x13x5120_o0_3_0_S8x1x5120 : S8x13x5120.Slices ![0, 3, 0] S8x1x5120
  slices_S8x13x5120_o0_2_0_S8x1x5120 : S8x13x5120.Slices ![0, 2, 0] S8x1x5120
  slices_S8x13x5120_o0_1_0_S8x1x5120 : S8x13x5120.Slices ![0, 1, 0] S8x1x5120
  slices_S8x13x5120_o0_0_0_S8x1x5120 : S8x13x5120.Slices ![0, 0, 0] S8x1x5120
  concatenates_S8x1x5120_S8x1x5120_S8x1x5120_S8x1x5120_S8x1x5120_S8x1x5120_S8x1x5120_S8x1x5120_S8x1x5120_S8x1x5120_S8x1x5120_S8x1x5120_S8x1x5120_S8x13x5120_d1 : Shape.Concatenates [S8x1x5120, S8x1x5120, S8x1x5120, S8x1x5120, S8x1x5120, S8x1x5120, S8x1x5120, S8x1x5120, S8x1x5120, S8x1x5120, S8x1x5120, S8x1x5120, S8x1x5120] S8x13x5120 1
  broadcasts_S8x1x5120_S8x13x5120 : S8x1x5120.Broadcasts S8x13x5120
  concatenates_S8x13x5120_S8x3x5120_S8x16x5120_d1 : Shape.Concatenates [S8x13x5120, S8x3x5120] S8x16x5120 1
  slices_S8x16x5120_o0_0_0_S8x12x5120 : S8x16x5120.Slices ![0, 0, 0] S8x12x5120
  slices_S8x16x5120_o0_12_0_S8x4x5120 : S8x16x5120.Slices ![0, 12, 0] S8x4x5120
  slices_S8x4x5120_o0_0_0_S8x1x5120 : S8x4x5120.Slices ![0, 0, 0] S8x1x5120
  slices_S8x12x5120_o0_11_0_S8x1x5120 : S8x12x5120.Slices ![0, 11, 0] S8x1x5120
  slices_S8x12x5120_o0_10_0_S8x1x5120 : S8x12x5120.Slices ![0, 10, 0] S8x1x5120
  slices_S8x12x5120_o0_9_0_S8x1x5120 : S8x12x5120.Slices ![0, 9, 0] S8x1x5120
  slices_S8x12x5120_o0_8_0_S8x1x5120 : S8x12x5120.Slices ![0, 8, 0] S8x1x5120
  slices_S8x12x5120_o0_7_0_S8x1x5120 : S8x12x5120.Slices ![0, 7, 0] S8x1x5120
  slices_S8x12x5120_o0_6_0_S8x1x5120 : S8x12x5120.Slices ![0, 6, 0] S8x1x5120
  slices_S8x12x5120_o0_5_0_S8x1x5120 : S8x12x5120.Slices ![0, 5, 0] S8x1x5120
  slices_S8x12x5120_o0_4_0_S8x1x5120 : S8x12x5120.Slices ![0, 4, 0] S8x1x5120
  slices_S8x12x5120_o0_3_0_S8x1x5120 : S8x12x5120.Slices ![0, 3, 0] S8x1x5120
  slices_S8x12x5120_o0_2_0_S8x1x5120 : S8x12x5120.Slices ![0, 2, 0] S8x1x5120
  slices_S8x12x5120_o0_1_0_S8x1x5120 : S8x12x5120.Slices ![0, 1, 0] S8x1x5120
  slices_S8x12x5120_o0_0_0_S8x1x5120 : S8x12x5120.Slices ![0, 0, 0] S8x1x5120
  concatenates_S8x1x5120_S8x1x5120_S8x1x5120_S8x1x5120_S8x1x5120_S8x1x5120_S8x1x5120_S8x1x5120_S8x1x5120_S8x1x5120_S8x1x5120_S8x1x5120_S8x12x5120_d1 : Shape.Concatenates [S8x1x5120, S8x1x5120, S8x1x5120, S8x1x5120, S8x1x5120, S8x1x5120, S8x1x5120, S8x1x5120, S8x1x5120, S8x1x5120, S8x1x5120, S8x1x5120] S8x12x5120 1
  broadcasts_S8x1x5120_S8x12x5120 : S8x1x5120.Broadcasts S8x12x5120
  concatenates_S8x12x5120_S8x4x5120_S8x16x5120_d1 : Shape.Concatenates [S8x12x5120, S8x4x5120] S8x16x5120 1
  slices_S8x16x5120_o0_0_0_S8x11x5120 : S8x16x5120.Slices ![0, 0, 0] S8x11x5120
  slices_S8x16x5120_o0_11_0_S8x5x5120 : S8x16x5120.Slices ![0, 11, 0] S8x5x5120
  slices_S8x5x5120_o0_0_0_S8x1x5120 : S8x5x5120.Slices ![0, 0, 0] S8x1x5120
  slices_S8x11x5120_o0_10_0_S8x1x5120 : S8x11x5120.Slices ![0, 10, 0] S8x1x5120
  slices_S8x11x5120_o0_9_0_S8x1x5120 : S8x11x5120.Slices ![0, 9, 0] S8x1x5120
  slices_S8x11x5120_o0_8_0_S8x1x5120 : S8x11x5120.Slices ![0, 8, 0] S8x1x5120
  slices_S8x11x5120_o0_7_0_S8x1x5120 : S8x11x5120.Slices ![0, 7, 0] S8x1x5120
  slices_S8x11x5120_o0_6_0_S8x1x5120 : S8x11x5120.Slices ![0, 6, 0] S8x1x5120
  slices_S8x11x5120_o0_5_0_S8x1x5120 : S8x11x5120.Slices ![0, 5, 0] S8x1x5120
  slices_S8x11x5120_o0_4_0_S8x1x5120 : S8x11x5120.Slices ![0, 4, 0] S8x1x5120
  slices_S8x11x5120_o0_3_0_S8x1x5120 : S8x11x5120.Slices ![0, 3, 0] S8x1x5120
  slices_S8x11x5120_o0_2_0_S8x1x5120 : S8x11x5120.Slices ![0, 2, 0] S8x1x5120
  slices_S8x11x5120_o0_1_0_S8x1x5120 : S8x11x5120.Slices ![0, 1, 0] S8x1x5120
  slices_S8x11x5120_o0_0_0_S8x1x5120 : S8x11x5120.Slices ![0, 0, 0] S8x1x5120
  concatenates_S8x1x5120_S8x1x5120_S8x1x5120_S8x1x5120_S8x1x5120_S8x1x5120_S8x1x5120_S8x1x5120_S8x1x5120_S8x1x5120_S8x1x5120_S8x11x5120_d1 : Shape.Concatenates [S8x1x5120, S8x1x5120, S8x1x5120, S8x1x5120, S8x1x5120, S8x1x5120, S8x1x5120, S8x1x5120, S8x1x5120, S8x1x5120, S8x1x5120] S8x11x5120 1
  broadcasts_S8x1x5120_S8x11x5120 : S8x1x5120.Broadcasts S8x11x5120
  concatenates_S8x11x5120_S8x5x5120_S8x16x5120_d1 : Shape.Concatenates [S8x11x5120, S8x5x5120] S8x16x5120 1
  slices_S8x16x5120_o0_0_0_S8x10x5120 : S8x16x5120.Slices ![0, 0, 0] S8x10x5120
  slices_S8x16x5120_o0_10_0_S8x6x5120 : S8x16x5120.Slices ![0, 10, 0] S8x6x5120
  slices_S8x6x5120_o0_0_0_S8x1x5120 : S8x6x5120.Slices ![0, 0, 0] S8x1x5120
  slices_S8x10x5120_o0_9_0_S8x1x5120 : S8x10x5120.Slices ![0, 9, 0] S8x1x5120
  slices_S8x10x5120_o0_8_0_S8x1x5120 : S8x10x5120.Slices ![0, 8, 0] S8x1x5120
  slices_S8x10x5120_o0_7_0_S8x1x5120 : S8x10x5120.Slices ![0, 7, 0] S8x1x5120
  slices_S8x10x5120_o0_6_0_S8x1x5120 : S8x10x5120.Slices ![0, 6, 0] S8x1x5120
  slices_S8x10x5120_o0_5_0_S8x1x5120 : S8x10x5120.Slices ![0, 5, 0] S8x1x5120
  slices_S8x10x5120_o0_4_0_S8x1x5120 : S8x10x5120.Slices ![0, 4, 0] S8x1x5120
  slices_S8x10x5120_o0_3_0_S8x1x5120 : S8x10x5120.Slices ![0, 3, 0] S8x1x5120
  slices_S8x10x5120_o0_2_0_S8x1x5120 : S8x10x5120.Slices ![0, 2, 0] S8x1x5120
  slices_S8x10x5120_o0_1_0_S8x1x5120 : S8x10x5120.Slices ![0, 1, 0] S8x1x5120
  slices_S8x10x5120_o0_0_0_S8x1x5120 : S8x10x5120.Slices ![0, 0, 0] S8x1x5120
  concatenates_S8x1x5120_S8x1x5120_S8x1x5120_S8x1x5120_S8x1x5120_S8x1x5120_S8x1x5120_S8x1x5120_S8x1x5120_S8x1x5120_S8x10x5120_d1 : Shape.Concatenates [S8x1x5120, S8x1x5120, S8x1x5120, S8x1x5120, S8x1x5120, S8x1x5120, S8x1x5120, S8x1x5120, S8x1x5120, S8x1x5120] S8x10x5120 1
  broadcasts_S8x1x5120_S8x10x5120 : S8x1x5120.Broadcasts S8x10x5120
  concatenates_S8x10x5120_S8x6x5120_S8x16x5120_d1 : Shape.Concatenates [S8x10x5120, S8x6x5120] S8x16x5120 1
  slices_S8x16x5120_o0_0_0_S8x9x5120 : S8x16x5120.Slices ![0, 0, 0] S8x9x5120
  slices_S8x16x5120_o0_9_0_S8x7x5120 : S8x16x5120.Slices ![0, 9, 0] S8x7x5120
  slices_S8x7x5120_o0_0_0_S8x1x5120 : S8x7x5120.Slices ![0, 0, 0] S8x1x5120
  slices_S8x9x5120_o0_8_0_S8x1x5120 : S8x9x5120.Slices ![0, 8, 0] S8x1x5120
  slices_S8x9x5120_o0_7_0_S8x1x5120 : S8x9x5120.Slices ![0, 7, 0] S8x1x5120
  slices_S8x9x5120_o0_6_0_S8x1x5120 : S8x9x5120.Slices ![0, 6, 0] S8x1x5120
  slices_S8x9x5120_o0_5_0_S8x1x5120 : S8x9x5120.Slices ![0, 5, 0] S8x1x5120
  slices_S8x9x5120_o0_4_0_S8x1x5120 : S8x9x5120.Slices ![0, 4, 0] S8x1x5120
  slices_S8x9x5120_o0_3_0_S8x1x5120 : S8x9x5120.Slices ![0, 3, 0] S8x1x5120
  slices_S8x9x5120_o0_2_0_S8x1x5120 : S8x9x5120.Slices ![0, 2, 0] S8x1x5120
  slices_S8x9x5120_o0_1_0_S8x1x5120 : S8x9x5120.Slices ![0, 1, 0] S8x1x5120
  slices_S8x9x5120_o0_0_0_S8x1x5120 : S8x9x5120.Slices ![0, 0, 0] S8x1x5120
  concatenates_S8x1x5120_S8x1x5120_S8x1x5120_S8x1x5120_S8x1x5120_S8x1x5120_S8x1x5120_S8x1x5120_S8x1x5120_S8x9x5120_d1 : Shape.Concatenates [S8x1x5120, S8x1x5120, S8x1x5120, S8x1x5120, S8x1x5120, S8x1x5120, S8x1x5120, S8x1x5120, S8x1x5120] S8x9x5120 1
  broadcasts_S8x1x5120_S8x9x5120 : S8x1x5120.Broadcasts S8x9x5120
  concatenates_S8x9x5120_S8x7x5120_S8x16x5120_d1 : Shape.Concatenates [S8x9x5120, S8x7x5120] S8x16x5120 1
  slices_S8x16x5120_o0_0_0_S8x8x5120 : S8x16x5120.Slices ![0, 0, 0] S8x8x5120
  slices_S8x16x5120_o0_8_0_S8x8x5120 : S8x16x5120.Slices ![0, 8, 0] S8x8x5120
  slices_S8x8x5120_o0_0_0_S8x1x5120 : S8x8x5120.Slices ![0, 0, 0] S8x1x5120
  slices_S8x8x5120_o0_7_0_S8x1x5120 : S8x8x5120.Slices ![0, 7, 0] S8x1x5120
  slices_S8x8x5120_o0_6_0_S8x1x5120 : S8x8x5120.Slices ![0, 6, 0] S8x1x5120
  slices_S8x8x5120_o0_5_0_S8x1x5120 : S8x8x5120.Slices ![0, 5, 0] S8x1x5120
  slices_S8x8x5120_o0_4_0_S8x1x5120 : S8x8x5120.Slices ![0, 4, 0] S8x1x5120
  slices_S8x8x5120_o0_3_0_S8x1x5120 : S8x8x5120.Slices ![0, 3, 0] S8x1x5120
  slices_S8x8x5120_o0_2_0_S8x1x5120 : S8x8x5120.Slices ![0, 2, 0] S8x1x5120
  slices_S8x8x5120_o0_1_0_S8x1x5120 : S8x8x5120.Slices ![0, 1, 0] S8x1x5120
  concatenates_S8x1x5120_S8x1x5120_S8x1x5120_S8x1x5120_S8x1x5120_S8x1x5120_S8x1x5120_S8x1x5120_S8x8x5120_d1 : Shape.Concatenates [S8x1x5120, S8x1x5120, S8x1x5120, S8x1x5120, S8x1x5120, S8x1x5120, S8x1x5120, S8x1x5120] S8x8x5120 1
  broadcasts_S8x1x5120_S8x8x5120 : S8x1x5120.Broadcasts S8x8x5120
  concatenates_S8x8x5120_S8x8x5120_S8x16x5120_d1 : Shape.Concatenates [S8x8x5120, S8x8x5120] S8x16x5120 1
  slices_S8x16x5120_o0_0_0_S8x7x5120 : S8x16x5120.Slices ![0, 0, 0] S8x7x5120
  slices_S8x16x5120_o0_7_0_S8x9x5120 : S8x16x5120.Slices ![0, 7, 0] S8x9x5120
  slices_S8x7x5120_o0_6_0_S8x1x5120 : S8x7x5120.Slices ![0, 6, 0] S8x1x5120
  slices_S8x7x5120_o0_5_0_S8x1x5120 : S8x7x5120.Slices ![0, 5, 0] S8x1x5120
  slices_S8x7x5120_o0_4_0_S8x1x5120 : S8x7x5120.Slices ![0, 4, 0] S8x1x5120
  slices_S8x7x5120_o0_3_0_S8x1x5120 : S8x7x5120.Slices ![0, 3, 0] S8x1x5120
  slices_S8x7x5120_o0_2_0_S8x1x5120 : S8x7x5120.Slices ![0, 2, 0] S8x1x5120
  slices_S8x7x5120_o0_1_0_S8x1x5120 : S8x7x5120.Slices ![0, 1, 0] S8x1x5120
  concatenates_S8x1x5120_S8x1x5120_S8x1x5120_S8x1x5120_S8x1x5120_S8x1x5120_S8x1x5120_S8x7x5120_d1 : Shape.Concatenates [S8x1x5120, S8x1x5120, S8x1x5120, S8x1x5120, S8x1x5120, S8x1x5120, S8x1x5120] S8x7x5120 1
  broadcasts_S8x1x5120_S8x7x5120 : S8x1x5120.Broadcasts S8x7x5120
  concatenates_S8x7x5120_S8x9x5120_S8x16x5120_d1 : Shape.Concatenates [S8x7x5120, S8x9x5120] S8x16x5120 1
  slices_S8x16x5120_o0_0_0_S8x6x5120 : S8x16x5120.Slices ![0, 0, 0] S8x6x5120
  slices_S8x16x5120_o0_6_0_S8x10x5120 : S8x16x5120.Slices ![0, 6, 0] S8x10x5120
  slices_S8x6x5120_o0_5_0_S8x1x5120 : S8x6x5120.Slices ![0, 5, 0] S8x1x5120
  slices_S8x6x5120_o0_4_0_S8x1x5120 : S8x6x5120.Slices ![0, 4, 0] S8x1x5120
  slices_S8x6x5120_o0_3_0_S8x1x5120 : S8x6x5120.Slices ![0, 3, 0] S8x1x5120
  slices_S8x6x5120_o0_2_0_S8x1x5120 : S8x6x5120.Slices ![0, 2, 0] S8x1x5120
  slices_S8x6x5120_o0_1_0_S8x1x5120 : S8x6x5120.Slices ![0, 1, 0] S8x1x5120
  concatenates_S8x1x5120_S8x1x5120_S8x1x5120_S8x1x5120_S8x1x5120_S8x1x5120_S8x6x5120_d1 : Shape.Concatenates [S8x1x5120, S8x1x5120, S8x1x5120, S8x1x5120, S8x1x5120, S8x1x5120] S8x6x5120 1
  broadcasts_S8x1x5120_S8x6x5120 : S8x1x5120.Broadcasts S8x6x5120
  concatenates_S8x6x5120_S8x10x5120_S8x16x5120_d1 : Shape.Concatenates [S8x6x5120, S8x10x5120] S8x16x5120 1
  slices_S8x16x5120_o0_0_0_S8x5x5120 : S8x16x5120.Slices ![0, 0, 0] S8x5x5120
  slices_S8x16x5120_o0_5_0_S8x11x5120 : S8x16x5120.Slices ![0, 5, 0] S8x11x5120
  slices_S8x5x5120_o0_4_0_S8x1x5120 : S8x5x5120.Slices ![0, 4, 0] S8x1x5120
  slices_S8x5x5120_o0_3_0_S8x1x5120 : S8x5x5120.Slices ![0, 3, 0] S8x1x5120
  slices_S8x5x5120_o0_2_0_S8x1x5120 : S8x5x5120.Slices ![0, 2, 0] S8x1x5120
  slices_S8x5x5120_o0_1_0_S8x1x5120 : S8x5x5120.Slices ![0, 1, 0] S8x1x5120
  concatenates_S8x1x5120_S8x1x5120_S8x1x5120_S8x1x5120_S8x1x5120_S8x5x5120_d1 : Shape.Concatenates [S8x1x5120, S8x1x5120, S8x1x5120, S8x1x5120, S8x1x5120] S8x5x5120 1
  broadcasts_S8x1x5120_S8x5x5120 : S8x1x5120.Broadcasts S8x5x5120
  concatenates_S8x5x5120_S8x11x5120_S8x16x5120_d1 : Shape.Concatenates [S8x5x5120, S8x11x5120] S8x16x5120 1
  slices_S8x16x5120_o0_0_0_S8x4x5120 : S8x16x5120.Slices ![0, 0, 0] S8x4x5120
  slices_S8x16x5120_o0_4_0_S8x12x5120 : S8x16x5120.Slices ![0, 4, 0] S8x12x5120
  slices_S8x4x5120_o0_3_0_S8x1x5120 : S8x4x5120.Slices ![0, 3, 0] S8x1x5120
  slices_S8x4x5120_o0_2_0_S8x1x5120 : S8x4x5120.Slices ![0, 2, 0] S8x1x5120
  slices_S8x4x5120_o0_1_0_S8x1x5120 : S8x4x5120.Slices ![0, 1, 0] S8x1x5120
  concatenates_S8x1x5120_S8x1x5120_S8x1x5120_S8x1x5120_S8x4x5120_d1 : Shape.Concatenates [S8x1x5120, S8x1x5120, S8x1x5120, S8x1x5120] S8x4x5120 1
  broadcasts_S8x1x5120_S8x4x5120 : S8x1x5120.Broadcasts S8x4x5120
  concatenates_S8x4x5120_S8x12x5120_S8x16x5120_d1 : Shape.Concatenates [S8x4x5120, S8x12x5120] S8x16x5120 1
  slices_S8x16x5120_o0_0_0_S8x3x5120 : S8x16x5120.Slices ![0, 0, 0] S8x3x5120
  slices_S8x16x5120_o0_3_0_S8x13x5120 : S8x16x5120.Slices ![0, 3, 0] S8x13x5120
  slices_S8x3x5120_o0_2_0_S8x1x5120 : S8x3x5120.Slices ![0, 2, 0] S8x1x5120
  slices_S8x3x5120_o0_1_0_S8x1x5120 : S8x3x5120.Slices ![0, 1, 0] S8x1x5120
  concatenates_S8x1x5120_S8x1x5120_S8x1x5120_S8x3x5120_d1 : Shape.Concatenates [S8x1x5120, S8x1x5120, S8x1x5120] S8x3x5120 1
  broadcasts_S8x1x5120_S8x3x5120 : S8x1x5120.Broadcasts S8x3x5120
  concatenates_S8x3x5120_S8x13x5120_S8x16x5120_d1 : Shape.Concatenates [S8x3x5120, S8x13x5120] S8x16x5120 1
  slices_S8x16x5120_o0_0_0_S8x2x5120 : S8x16x5120.Slices ![0, 0, 0] S8x2x5120
  slices_S8x16x5120_o0_2_0_S8x14x5120 : S8x16x5120.Slices ![0, 2, 0] S8x14x5120
  slices_S8x2x5120_o0_1_0_S8x1x5120 : S8x2x5120.Slices ![0, 1, 0] S8x1x5120
  concatenates_S8x1x5120_S8x1x5120_S8x2x5120_d1 : Shape.Concatenates [S8x1x5120, S8x1x5120] S8x2x5120 1
  broadcasts_S8x1x5120_S8x2x5120 : S8x1x5120.Broadcasts S8x2x5120
  concatenates_S8x2x5120_S8x14x5120_S8x16x5120_d1 : Shape.Concatenates [S8x2x5120, S8x14x5120] S8x16x5120 1
  slices_S8x16x5120_o0_0_0_S8x1x5120 : S8x16x5120.Slices ![0, 0, 0] S8x1x5120
  slices_S8x16x5120_o0_1_0_S8x15x5120 : S8x16x5120.Slices ![0, 1, 0] S8x15x5120
  concatenates_S8x1x5120_S8x15x5120_S8x16x5120_d1 : Shape.Concatenates [S8x1x5120, S8x15x5120] S8x16x5120 1
  shapeCasts_S8x16x5120_S128x5120 : S8x16x5120.ShapeCasts S128x5120
  transposes_S128x5120_p1_0_S5120x128 : S128x5120.Transposes [1, 0] S5120x128
  shapeCasts_S256000x128_S2048000x16 : S256000x128.ShapeCasts S2048000x16
  shapeCasts_S2048000x16_S256x8000x16 : S2048000x16.ShapeCasts S256x8000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S256000x128.size a
  hwx0_0 : ∀ i : grid0.Coords, EltTy.bits .f32 = 32 ∨ (Rect.block (s := S256000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S256000x128.size a
  hwx0_1 : ∀ i : grid0.Coords, EltTy.bits .f32 = 32 ∨ (Rect.block (s := S256000x128) S5120x128.size (cc0_transform_1 i) (hinb0_1 i)).WholeWords (EltTy.packing .f32)

variable [Facts₀]

abbrev win0_0 : Pipeline.Window sig grid0 :=
  Pipeline.Window.ofSpec (Memref.whole main_v1) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5120x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x8000x16 : Shape := ⟨3, ![256, 8000, 16]⟩
abbrev S256x8000x15 : Shape := ⟨3, ![256, 8000, 15]⟩
abbrev S256x8000x1 : Shape := ⟨3, ![256, 8000, 1]⟩
abbrev S_ : Shape := ⟨0, ![]⟩
abbrev S256x8000x14 : Shape := ⟨3, ![256, 8000, 14]⟩
abbrev S256x8000x2 : Shape := ⟨3, ![256, 8000, 2]⟩
abbrev S256x8000x13 : Shape := ⟨3, ![256, 8000, 13]⟩
abbrev S256x8000x3 : Shape := ⟨3, ![256, 8000, 3]⟩
abbrev S256x8000x12 : Shape := ⟨3, ![256, 8000, 12]⟩
abbrev S256x8000x4 : Shape := ⟨3, ![256, 8000, 4]⟩
abbrev S256x8000x11 : Shape := ⟨3, ![256, 8000, 11]⟩
abbrev S256x8000x5 : Shape := ⟨3, ![256, 8000, 5]⟩
abbrev S256x8000x10 : Shape := ⟨3, ![256, 8000, 10]⟩
abbrev S256x8000x6 : Shape := ⟨3, ![256, 8000, 6]⟩
abbrev S256x8000x9 : Shape := ⟨3, ![256, 8000, 9]⟩
abbrev S256x8000x7 : Shape := ⟨3, ![256, 8000, 7]⟩
abbrev S256x8000x8 : Shape := ⟨3, ![256, 8000, 8]⟩

abbrev nBuf : Space → Nat
  | .hbm => 208
  | .vmem => 0
  | .smem => 0
  | _ => 0

abbrev hbmTy0_0 (i : Nat) : BufTy := match i % 128 with
  | 0 => ⟨S256x8000x16, .f32⟩
  | 1 => ⟨S256x8000x15, .f32⟩
  | 2 => ⟨S256x8000x1, .f32⟩
  | 3 => ⟨S256x8000x15, .f32⟩
  | 4 => ⟨S256x8000x15, .f32⟩
  | 5 => ⟨S256x8000x15, .f32⟩
  | 6 => ⟨S256x8000x15, .f32⟩
  | 7 => ⟨S256x8000x1, .f32⟩
  | 8 => ⟨S_, .f32⟩
  | 9 => ⟨S256x8000x1, .f32⟩
  | 10 => ⟨S256x8000x1, .f32⟩
  | 11 => ⟨S256x8000x15, .f32⟩
  | 12 => ⟨S256x8000x15, .f32⟩
  | 13 => ⟨S256x8000x16, .f32⟩
  | 14 => ⟨S256x8000x14, .f32⟩
  | 15 => ⟨S256x8000x2, .f32⟩
  | 16 => ⟨S256x8000x1, .f32⟩
  | 17 => ⟨S256x8000x14, .f32⟩
  | 18 => ⟨S256x8000x14, .f32⟩
  | 19 => ⟨S256x8000x14, .f32⟩
  | 20 => ⟨S256x8000x14, .f32⟩
  | 21 => ⟨S256x8000x1, .f32⟩
  | 22 => ⟨S_, .f32⟩
  | 23 => ⟨S256x8000x1, .f32⟩
  | 24 => ⟨S256x8000x1, .f32⟩
  | 25 => ⟨S256x8000x14, .f32⟩
  | 26 => ⟨S256x8000x14, .f32⟩
  | 27 => ⟨S256x8000x16, .f32⟩
  | 28 => ⟨S256x8000x13, .f32⟩
  | 29 => ⟨S256x8000x3, .f32⟩
  | 30 => ⟨S256x8000x1, .f32⟩
  | 31 => ⟨S256x8000x13, .f32⟩
  | 32 => ⟨S256x8000x13, .f32⟩
  | 33 => ⟨S256x8000x13, .f32⟩
  | 34 => ⟨S256x8000x13, .f32⟩
  | 35 => ⟨S256x8000x1, .f32⟩
  | 36 => ⟨S_, .f32⟩
  | 37 => ⟨S256x8000x1, .f32⟩
  | 38 => ⟨S256x8000x1, .f32⟩
  | 39 => ⟨S256x8000x13, .f32⟩
  | 40 => ⟨S256x8000x13, .f32⟩
  | 41 => ⟨S256x8000x16, .f32⟩
  | 42 => ⟨S256x8000x12, .f32⟩
  | 43 => ⟨S256x8000x4, .f32⟩
  | 44 => ⟨S256x8000x1, .f32⟩
  | 45 => ⟨S256x8000x12, .f32⟩
  | 46 => ⟨S256x8000x12, .f32⟩
  | 47 => ⟨S256x8000x12, .f32⟩
  | 48 => ⟨S256x8000x12, .f32⟩
  | 49 => ⟨S256x8000x1, .f32⟩
  | 50 => ⟨S_, .f32⟩
  | 51 => ⟨S256x8000x1, .f32⟩
  | 52 => ⟨S256x8000x1, .f32⟩
  | 53 => ⟨S256x8000x12, .f32⟩
  | 54 => ⟨S256x8000x12, .f32⟩
  | 55 => ⟨S256x8000x16, .f32⟩
  | 56 => ⟨S256x8000x11, .f32⟩
  | 57 => ⟨S256x8000x5, .f32⟩
  | 58 => ⟨S256x8000x1, .f32⟩
  | 59 => ⟨S256x8000x11, .f32⟩
  | 60 => ⟨S256x8000x11, .f32⟩
  | 61 => ⟨S256x8000x11, .f32⟩
  | 62 => ⟨S256x8000x11, .f32⟩
  | 63 => ⟨S256x8000x1, .f32⟩
  | 64 => ⟨S_, .f32⟩
  | 65 => ⟨S256x8000x1, .f32⟩
  | 66 => ⟨S256x8000x1, .f32⟩
  | 67 => ⟨S256x8000x11, .f32⟩
  | 68 => ⟨S256x8000x11, .f32⟩
  | 69 => ⟨S256x8000x16, .f32⟩
  | 70 => ⟨S256x8000x10, .f32⟩
  | 71 => ⟨S256x8000x6, .f32⟩
  | 72 => ⟨S256x8000x1, .f32⟩
  | 73 => ⟨S256x8000x10, .f32⟩
  | 74 => ⟨S256x8000x10, .f32⟩
  | 75 => ⟨S256x8000x10, .f32⟩
  | 76 => ⟨S256x8000x10, .f32⟩
  | 77 => ⟨S256x8000x1, .f32⟩
  | 78 => ⟨S_, .f32⟩
  | 79 => ⟨S256x8000x1, .f32⟩
  | 80 => ⟨S256x8000x1, .f32⟩
  | 81 => ⟨S256x8000x10, .f32⟩
  | 82 => ⟨S256x8000x10, .f32⟩
  | 83 => ⟨S256x8000x16, .f32⟩
  | 84 => ⟨S256x8000x9, .f32⟩
  | 85 => ⟨S256x8000x7, .f32⟩
  | 86 => ⟨S256x8000x1, .f32⟩
  | 87 => ⟨S256x8000x9, .f32⟩
  | 88 => ⟨S256x8000x9, .f32⟩
  | 89 => ⟨S256x8000x9, .f32⟩
  | 90 => ⟨S256x8000x9, .f32⟩
  | 91 => ⟨S256x8000x1, .f32⟩
  | 92 => ⟨S_, .f32⟩
  | 93 => ⟨S256x8000x1, .f32⟩
  | 94 => ⟨S256x8000x1, .f32⟩
  | 95 => ⟨S256x8000x9, .f32⟩
  | 96 => ⟨S256x8000x9, .f32⟩
  | 97 => ⟨S256x8000x16, .f32⟩
  | 98 => ⟨S256x8000x8, .f32⟩
  | 99 => ⟨S256x8000x8, .f32⟩
  | 100 => ⟨S256x8000x1, .f32⟩
  | 101 => ⟨S256x8000x8, .f32⟩
  | 102 => ⟨S256x8000x8, .f32⟩
  | 103 => ⟨S256x8000x8, .f32⟩
  | 104 => ⟨S256x8000x8, .f32⟩
  | 105 => ⟨S256x8000x1, .f32⟩
  | 106 => ⟨S_, .f32⟩
  | 107 => ⟨S256x8000x1, .f32⟩
  | 108 => ⟨S256x8000x1, .f32⟩
  | 109 => ⟨S256x8000x8, .f32⟩
  | 110 => ⟨S256x8000x8, .f32⟩
  | 111 => ⟨S256x8000x16, .f32⟩
  | 112 => ⟨S256x8000x7, .f32⟩
  | 113 => ⟨S256x8000x9, .f32⟩
  | 114 => ⟨S256x8000x1, .f32⟩
  | 115 => ⟨S256x8000x7, .f32⟩
  | 116 => ⟨S256x8000x7, .f32⟩
  | 117 => ⟨S256x8000x7, .f32⟩
  | 118 => ⟨S256x8000x7, .f32⟩
  | 119 => ⟨S256x8000x1, .f32⟩
  | 120 => ⟨S_, .f32⟩
  | 121 => ⟨S256x8000x1, .f32⟩
  | 122 => ⟨S256x8000x1, .f32⟩
  | 123 => ⟨S256x8000x7, .f32⟩
  | 124 => ⟨S256x8000x7, .f32⟩
  | 125 => ⟨S256x8000x16, .f32⟩
  | 126 => ⟨S256x8000x6, .f32⟩
  | 127 => ⟨S256x8000x10, .f32⟩
  | _ => ⟨S256x8000x16, .f32⟩

abbrev hbmTy0_1 (i : Nat) : BufTy := match i % 128 with
  | 0 => ⟨S256x8000x1, .f32⟩
  | 1 => ⟨S256x8000x6, .f32⟩
  | 2 => ⟨S256x8000x6, .f32⟩
  | 3 => ⟨S256x8000x6, .f32⟩
  | 4 => ⟨S256x8000x6, .f32⟩
  | 5 => ⟨S256x8000x1, .f32⟩
  | 6 => ⟨S_, .f32⟩
  | 7 => ⟨S256x8000x1, .f32⟩
  | 8 => ⟨S256x8000x1, .f32⟩
  | 9 => ⟨S256x8000x6, .f32⟩
  | 10 => ⟨S256x8000x6, .f32⟩
  | 11 => ⟨S256x8000x16, .f32⟩
  | 12 => ⟨S256x8000x5, .f32⟩
  | 13 => ⟨S256x8000x11, .f32⟩
  | 14 => ⟨S256x8000x1, .f32⟩
  | 15 => ⟨S256x8000x5, .f32⟩
  | 16 => ⟨S256x8000x5, .f32⟩
  | 17 => ⟨S256x8000x5, .f32⟩
  | 18 => ⟨S256x8000x5, .f32⟩
  | 19 => ⟨S256x8000x1, .f32⟩
  | 20 => ⟨S_, .f32⟩
  | 21 => ⟨S256x8000x1, .f32⟩
  | 22 => ⟨S256x8000x1, .f32⟩
  | 23 => ⟨S256x8000x5, .f32⟩
  | 24 => ⟨S256x8000x5, .f32⟩
  | 25 => ⟨S256x8000x16, .f32⟩
  | 26 => ⟨S256x8000x4, .f32⟩
  | 27 => ⟨S256x8000x12, .f32⟩
  | 28 => ⟨S256x8000x1, .f32⟩
  | 29 => ⟨S256x8000x4, .f32⟩
  | 30 => ⟨S256x8000x4, .f32⟩
  | 31 => ⟨S256x8000x4, .f32⟩
  | 32 => ⟨S256x8000x4, .f32⟩
  | 33 => ⟨S256x8000x1, .f32⟩
  | 34 => ⟨S_, .f32⟩
  | 35 => ⟨S256x8000x1, .f32⟩
  | 36 => ⟨S256x8000x1, .f32⟩
  | 37 => ⟨S256x8000x4, .f32⟩
  | 38 => ⟨S256x8000x4, .f32⟩
  | 39 => ⟨S256x8000x16, .f32⟩
  | 40 => ⟨S256x8000x3, .f32⟩
  | 41 => ⟨S256x8000x13, .f32⟩
  | 42 => ⟨S256x8000x1, .f32⟩
  | 43 => ⟨S256x8000x3, .f32⟩
  | 44 => ⟨S256x8000x3, .f32⟩
  | 45 => ⟨S256x8000x3, .f32⟩
  | 46 => ⟨S256x8000x3, .f32⟩
  | 47 => ⟨S256x8000x1, .f32⟩
  | 48 => ⟨S_, .f32⟩
  | 49 => ⟨S256x8000x1, .f32⟩
  | 50 => ⟨S256x8000x1, .f32⟩
  | 51 => ⟨S256x8000x3, .f32⟩
  | 52 => ⟨S256x8000x3, .f32⟩
  | 53 => ⟨S256x8000x16, .f32⟩
  | 54 => ⟨S256x8000x2, .f32⟩
  | 55 => ⟨S256x8000x14, .f32⟩
  | 56 => ⟨S256x8000x1, .f32⟩
  | 57 => ⟨S256x8000x2, .f32⟩
  | 58 => ⟨S256x8000x2, .f32⟩
  | 59 => ⟨S256x8000x2, .f32⟩
  | 60 => ⟨S256x8000x2, .f32⟩
  | 61 => ⟨S256x8000x1, .f32⟩
  | 62 => ⟨S_, .f32⟩
  | 63 => ⟨S256x8000x1, .f32⟩
  | 64 => ⟨S256x8000x1, .f32⟩
  | 65 => ⟨S256x8000x2, .f32⟩
  | 66 => ⟨S256x8000x2, .f32⟩
  | 67 => ⟨S256x8000x16, .f32⟩
  | 68 => ⟨S256x8000x1, .f32⟩
  | 69 => ⟨S256x8000x15, .f32⟩
  | 70 => ⟨S256x8000x1, .f32⟩
  | 71 => ⟨S256x8000x1, .f32⟩
  | 72 => ⟨S256x8000x1, .f32⟩
  | 73 => ⟨S256x8000x1, .f32⟩
  | 74 => ⟨S256x8000x1, .f32⟩
  | 75 => ⟨S_, .f32⟩
  | 76 => ⟨S256x8000x1, .f32⟩
  | 77 => ⟨S256x8000x1, .f32⟩
  | 78 => ⟨S256x8000x1, .f32⟩
  | 79 => ⟨S256x8000x16, .f32⟩
  | _ => ⟨S256x8000x16, .f32⟩

abbrev hbmTy (i : Nat) : BufTy := match i / 128 with
  | 0 => hbmTy0_0 i
  | 1 => hbmTy0_1 i
  | _ => ⟨S256x8000x16, .f32⟩

abbrev bufTy : (tb : Table) → Fin (tcTables nBuf tb) → BufTy
  | .hbm, ⟨i, _⟩ => hbmTy i
  | _, _ => ⟨S256x8000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_cst_7 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_cst_8 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_cst_9 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_cst_10 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_cst_11 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_cst_12 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_cst_13 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩

abbrev nD : Nat := 1
abbrev τ : Topo := Topo.v7x

variable {F : FTy → Type} [FloatOps F]

class Facts₀ : Prop where
  slices_S256x8000x16_S256x8000x15_0_0_0 : S256x8000x16.Slices ![0, 0, 0] S256x8000x15
  slices_S256x8000x16_S256x8000x1_0_0_15 : S256x8000x16.Slices ![0, 0, 15] S256x8000x1
  bcast_S256x8000x1_S256x8000x15_0_1_2 : S256x8000x1.BroadcastsInDim S256x8000x15 (![0, 1, 2] : Fin 3 → Fin S256x8000x15.rank)
  bcast_S_S256x8000x1 : S_.BroadcastsInDim S256x8000x1 (![] : Fin 0 → Fin S256x8000x1.rank)
  concatenates_S256x8000x15_S256x8000x1_S256x8000x16_d2 : Shape.Concatenates [S256x8000x15, S256x8000x1] S256x8000x16 2
  slices_S256x8000x16_S256x8000x14_0_0_0 : S256x8000x16.Slices ![0, 0, 0] S256x8000x14
  slices_S256x8000x16_S256x8000x2_0_0_14 : S256x8000x16.Slices ![0, 0, 14] S256x8000x2
  slices_S256x8000x2_S256x8000x1_0_0_0 : S256x8000x2.Slices ![0, 0, 0] S256x8000x1
  bcast_S256x8000x1_S256x8000x14_0_1_2 : S256x8000x1.BroadcastsInDim S256x8000x14 (![0, 1, 2] : Fin 3 → Fin S256x8000x14.rank)
  concatenates_S256x8000x14_S256x8000x2_S256x8000x16_d2 : Shape.Concatenates [S256x8000x14, S256x8000x2] S256x8000x16 2
  slices_S256x8000x16_S256x8000x13_0_0_0 : S256x8000x16.Slices ![0, 0, 0] S256x8000x13
  slices_S256x8000x16_S256x8000x3_0_0_13 : S256x8000x16.Slices ![0, 0, 13] S256x8000x3
  slices_S256x8000x3_S256x8000x1_0_0_0 : S256x8000x3.Slices ![0, 0, 0] S256x8000x1
  bcast_S256x8000x1_S256x8000x13_0_1_2 : S256x8000x1.BroadcastsInDim S256x8000x13 (![0, 1, 2] : Fin 3 → Fin S256x8000x13.rank)
  concatenates_S256x8000x13_S256x8000x3_S256x8000x16_d2 : Shape.Concatenates [S256x8000x13, S256x8000x3] S256x8000x16 2
  slices_S256x8000x16_S256x8000x12_0_0_0 : S256x8000x16.Slices ![0, 0, 0] S256x8000x12
  slices_S256x8000x16_S256x8000x4_0_0_12 : S256x8000x16.Slices ![0, 0, 12] S256x8000x4
  slices_S256x8000x4_S256x8000x1_0_0_0 : S256x8000x4.Slices ![0, 0, 0] S256x8000x1
  bcast_S256x8000x1_S256x8000x12_0_1_2 : S256x8000x1.BroadcastsInDim S256x8000x12 (![0, 1, 2] : Fin 3 → Fin S256x8000x12.rank)
  concatenates_S256x8000x12_S256x8000x4_S256x8000x16_d2 : Shape.Concatenates [S256x8000x12, S256x8000x4] S256x8000x16 2
  slices_S256x8000x16_S256x8000x11_0_0_0 : S256x8000x16.Slices ![0, 0, 0] S256x8000x11
  slices_S256x8000x16_S256x8000x5_0_0_11 : S256x8000x16.Slices ![0, 0, 11] S256x8000x5
  slices_S256x8000x5_S256x8000x1_0_0_0 : S256x8000x5.Slices ![0, 0, 0] S256x8000x1
  bcast_S256x8000x1_S256x8000x11_0_1_2 : S256x8000x1.BroadcastsInDim S256x8000x11 (![0, 1, 2] : Fin 3 → Fin S256x8000x11.rank)
  concatenates_S256x8000x11_S256x8000x5_S256x8000x16_d2 : Shape.Concatenates [S256x8000x11, S256x8000x5] S256x8000x16 2
  slices_S256x8000x16_S256x8000x10_0_0_0 : S256x8000x16.Slices ![0, 0, 0] S256x8000x10
  slices_S256x8000x16_S256x8000x6_0_0_10 : S256x8000x16.Slices ![0, 0, 10] S256x8000x6
  slices_S256x8000x6_S256x8000x1_0_0_0 : S256x8000x6.Slices ![0, 0, 0] S256x8000x1
  bcast_S256x8000x1_S256x8000x10_0_1_2 : S256x8000x1.BroadcastsInDim S256x8000x10 (![0, 1, 2] : Fin 3 → Fin S256x8000x10.rank)
  concatenates_S256x8000x10_S256x8000x6_S256x8000x16_d2 : Shape.Concatenates [S256x8000x10, S256x8000x6] S256x8000x16 2
  slices_S256x8000x16_S256x8000x9_0_0_0 : S256x8000x16.Slices ![0, 0, 0] S256x8000x9
  slices_S256x8000x16_S256x8000x7_0_0_9 : S256x8000x16.Slices ![0, 0, 9] S256x8000x7
  slices_S256x8000x7_S256x8000x1_0_0_0 : S256x8000x7.Slices ![0, 0, 0] S256x8000x1
  bcast_S256x8000x1_S256x8000x9_0_1_2 : S256x8000x1.BroadcastsInDim S256x8000x9 (![0, 1, 2] : Fin 3 → Fin S256x8000x9.rank)
  concatenates_S256x8000x9_S256x8000x7_S256x8000x16_d2 : Shape.Concatenates [S256x8000x9, S256x8000x7] S256x8000x16 2
  slices_S256x8000x16_S256x8000x8_0_0_0 : S256x8000x16.Slices ![0, 0, 0] S256x8000x8
  slices_S256x8000x16_S256x8000x8_0_0_8 : S256x8000x16.Slices ![0, 0, 8] S256x8000x8
  slices_S256x8000x8_S256x8000x1_0_0_0 : S256x8000x8.Slices ![0, 0, 0] S256x8000x1
  bcast_S256x8000x1_S256x8000x8_0_1_2 : S256x8000x1.BroadcastsInDim S256x8000x8 (![0, 1, 2] : Fin 3 → Fin S256x8000x8.rank)
  concatenates_S256x8000x8_S256x8000x8_S256x8000x16_d2 : Shape.Concatenates [S256x8000x8, S256x8000x8] S256x8000x16 2
  slices_S256x8000x16_S256x8000x7_0_0_0 : S256x8000x16.Slices ![0, 0, 0] S256x8000x7
  slices_S256x8000x16_S256x8000x9_0_0_7 : S256x8000x16.Slices ![0, 0, 7] S256x8000x9
  slices_S256x8000x9_S256x8000x1_0_0_0 : S256x8000x9.Slices ![0, 0, 0] S256x8000x1
  bcast_S256x8000x1_S256x8000x7_0_1_2 : S256x8000x1.BroadcastsInDim S256x8000x7 (![0, 1, 2] : Fin 3 → Fin S256x8000x7.rank)
  concatenates_S256x8000x7_S256x8000x9_S256x8000x16_d2 : Shape.Concatenates [S256x8000x7, S256x8000x9] S256x8000x16 2
  slices_S256x8000x16_S256x8000x6_0_0_0 : S256x8000x16.Slices ![0, 0, 0] S256x8000x6
  slices_S256x8000x16_S256x8000x10_0_0_6 : S256x8000x16.Slices ![0, 0, 6] S256x8000x10
  slices_S256x8000x10_S256x8000x1_0_0_0 : S256x8000x10.Slices ![0, 0, 0] S256x8000x1
  bcast_S256x8000x1_S256x8000x6_0_1_2 : S256x8000x1.BroadcastsInDim S256x8000x6 (![0, 1, 2] : Fin 3 → Fin S256x8000x6.rank)
  concatenates_S256x8000x6_S256x8000x10_S256x8000x16_d2 : Shape.Concatenates [S256x8000x6, S256x8000x10] S256x8000x16 2
  slices_S256x8000x16_S256x8000x5_0_0_0 : S256x8000x16.Slices ![0, 0, 0] S256x8000x5
  slices_S256x8000x16_S256x8000x11_0_0_5 : S256x8000x16.Slices ![0, 0, 5] S256x8000x11
  slices_S256x8000x11_S256x8000x1_0_0_0 : S256x8000x11.Slices ![0, 0, 0] S256x8000x1
  bcast_S256x8000x1_S256x8000x5_0_1_2 : S256x8000x1.BroadcastsInDim S256x8000x5 (![0, 1, 2] : Fin 3 → Fin S256x8000x5.rank)
  concatenates_S256x8000x5_S256x8000x11_S256x8000x16_d2 : Shape.Concatenates [S256x8000x5, S256x8000x11] S256x8000x16 2
  slices_S256x8000x16_S256x8000x4_0_0_0 : S256x8000x16.Slices ![0, 0, 0] S256x8000x4
  slices_S256x8000x16_S256x8000x12_0_0_4 : S256x8000x16.Slices ![0, 0, 4] S256x8000x12
  slices_S256x8000x12_S256x8000x1_0_0_0 : S256x8000x12.Slices ![0, 0, 0] S256x8000x1
  bcast_S256x8000x1_S256x8000x4_0_1_2 : S256x8000x1.BroadcastsInDim S256x8000x4 (![0, 1, 2] : Fin 3 → Fin S256x8000x4.rank)
  concatenates_S256x8000x4_S256x8000x12_S256x8000x16_d2 : Shape.Concatenates [S256x8000x4, S256x8000x12] S256x8000x16 2
  slices_S256x8000x16_S256x8000x3_0_0_0 : S256x8000x16.Slices ![0, 0, 0] S256x8000x3
  slices_S256x8000x16_S256x8000x13_0_0_3 : S256x8000x16.Slices ![0, 0, 3] S256x8000x13
  slices_S256x8000x13_S256x8000x1_0_0_0 : S256x8000x13.Slices ![0, 0, 0] S256x8000x1
  bcast_S256x8000x1_S256x8000x3_0_1_2 : S256x8000x1.BroadcastsInDim S256x8000x3 (![0, 1, 2] : Fin 3 → Fin S256x8000x3.rank)
  concatenates_S256x8000x3_S256x8000x13_S256x8000x16_d2 : Shape.Concatenates [S256x8000x3, S256x8000x13] S256x8000x16 2
  slices_S256x8000x16_S256x8000x2_0_0_0 : S256x8000x16.Slices ![0, 0, 0] S256x8000x2
  slices_S256x8000x16_S256x8000x14_0_0_2 : S256x8000x16.Slices ![0, 0, 2] S256x8000x14
  slices_S256x8000x14_S256x8000x1_0_0_0 : S256x8000x14.Slices ![0, 0, 0] S256x8000x1
  bcast_S256x8000x1_S256x8000x2_0_1_2 : S256x8000x1.BroadcastsInDim S256x8000x2 (![0, 1, 2] : Fin 3 → Fin S256x8000x2.rank)
  concatenates_S256x8000x2_S256x8000x14_S256x8000x16_d2 : Shape.Concatenates [S256x8000x2, S256x8000x14] S256x8000x16 2
  slices_S256x8000x16_S256x8000x1_0_0_0 : S256x8000x16.Slices ![0, 0, 0] S256x8000x1
  slices_S256x8000x16_S256x8000x15_0_0_1 : S256x8000x16.Slices ![0, 0, 1] S256x8000x15
  slices_S256x8000x15_S256x8000x1_0_0_0 : S256x8000x15.Slices ![0, 0, 0] S256x8000x1
  concatenates_S256x8000x1_S256x8000x15_S256x8000x16_d2 : Shape.Concatenates [S256x8000x1, S256x8000x15] S256x8000x16 2

variable [Facts₀]

class Facts : Prop extends Facts₀ where

variable [Facts]
-- ==== Proof.LibLevinson.lean ====
/-
  The reverse Levinson recursion on one row, as a function of sequences of extended reals.

  A row of sixteen coefficients is read as a sequence `r : ℕ → EReal` (only the entries 0 … 15 matter).
  Step `k` (for `k = 15, 14, …, 1`) takes the reflection coefficient `r k`, replaces every entry `c < k` by
  `(r c - r k · r (k - 1 - c)) / (1 - r k · r k)` and keeps the entries `c ≥ k`.  The quotient is written in two ways:
  `stepQ` divides directly, `stepR` multiplies by the reciprocal `1 / (1 - r k · r k)` taken once.  On the extended
  reals the two agree whenever the denominator is not zero (`x · (1 · d⁻¹) = x · d⁻¹`); at a zero denominator they
  differ (`0 / 0` against `0 · (1 / 0)`).  A quotient by zero is an infinity, and the recursion never touches
  entry `k - 1` again after step `k`; so if the result of the fifteen `stepQ` steps is finite at the entries
  0 … 14, no step met a zero denominator, and the fifteen `stepR` steps give the same result.
-/
import Idealize.ShloMosaic.PureOps.Ideal
import Idealize.ShloMosaic.Lib.ValueIdx

namespace Levinson

open Idealize.ShloMosaic

/-- Step `k` with the quotient taken directly. -/
noncomputable def stepQ (k : ℕ) (r : ℕ → EReal) : ℕ → EReal := fun c =>
  if c < k then Ideal.div (r c - r k * r (k - 1 - c)) (1 - r k * r k) else r c

/-- Step `k` with the reciprocal of the denominator taken once and multiplied in. -/
noncomputable def stepR (k : ℕ) (r : ℕ → EReal) : ℕ → EReal := fun c =>
  if c < k then (r c - r k * r (k - 1 - c)) * Ideal.div 1 (1 - r k * r k) else r c

/-- The first `n` steps (`k = 15, 14, …, 16 - n`), direct quotient. -/
noncomputable def recQ : ℕ → (ℕ → EReal) → ℕ → EReal
  | 0, r => r
  | n + 1, r => stepQ (15 - n) (recQ n r)

/-- The first `n` steps, hoisted reciprocal. -/
noncomputable def recR : ℕ → (ℕ → EReal) → ℕ → EReal
  | 0, r => r
  | n + 1, r => stepR (15 - n) (recR n r)

/-- Off a zero denominator the product with the reciprocal is the quotient. -/
theorem mul_div_one {d : EReal} (hd : d ≠ 0) (x : EReal) : x * Ideal.div 1 d = Ideal.div x d := by
  unfold Ideal.div
  rw [if_neg hd, if_neg hd, one_mul]

/-- A quotient by zero is an infinity. -/
theorem div_zero_inf (x : EReal) : Ideal.div x 0 = ⊤ ∨ Ideal.div x 0 = ⊥ := by
  unfold Ideal.div
  rw [if_pos rfl]
  by_cases h : 0 < x
  · left; rw [if_pos h]
  · right; rw [if_neg h]

theorem stepR_eq_stepQ {k : ℕ} {r : ℕ → EReal} (hd : 1 - r k * r k ≠ 0) : stepR k r = stepQ k r := by
  funext c
  unfold stepR stepQ
  by_cases hc : c < k
  · rw [if_pos hc, if_pos hc, mul_div_one hd]
  · rw [if_neg hc, if_neg hc]

/-- An entry at or past `15 - n` is final after `n` steps. -/
theorem recQ_keep (r : ℕ → EReal) (n : ℕ) (c : ℕ) (hc : 15 - n ≤ c) :
    ∀ m, n ≤ m → recQ m r c = recQ n r c := by
  intro m hm
  induction m, hm using Nat.le_induction with
  | base => rfl
  | succ m hm ih =>
    show stepQ (15 - m) (recQ m r) c = _
    unfold stepQ
    rw [if_neg (by omega), ih]

/-- If the fifteen direct-quotient steps end finite at the entries 0 … 14, no step divided by zero. -/
theorem den_ne_zero (r : ℕ → EReal) (hfin : ∀ c, c < 15 → recQ 15 r c ≠ ⊤ ∧ recQ 15 r c ≠ ⊥) (n : ℕ) (hn : n < 15) :
    1 - recQ n r (15 - n) * recQ n r (15 - n) ≠ 0 := by
  intro h0
  have hk : recQ 15 r (14 - n) = recQ (n + 1) r (14 - n) := recQ_keep r (n + 1) (14 - n) (by omega) 15 (by omega)
  have hstep : recQ (n + 1) r (14 - n) = Ideal.div (recQ n r (14 - n) - recQ n r (15 - n) * recQ n r (15 - n - 1 - (14 - n))) 0 := by
    show stepQ (15 - n) (recQ n r) (14 - n) = _
    unfold stepQ
    rw [if_pos (by omega), h0]
  have hf := hfin (14 - n) (by omega)
  rw [hk, hstep] at hf
  rcases div_zero_inf (recQ n r (14 - n) - recQ n r (15 - n) * recQ n r (15 - n - 1 - (14 - n))) with h | h
  · exact hf.1 h
  · exact hf.2 h

/-- Under that finiteness the hoisted-reciprocal recursion is the direct one. -/
theorem recR_eq_recQ (r : ℕ → EReal) (hfin : ∀ c, c < 15 → recQ 15 r c ≠ ⊤ ∧ recQ 15 r c ≠ ⊥) :
    ∀ n, n ≤ 15 → recR n r = recQ n r := by
  intro n
  induction n with
  | zero => intro _; rfl
  | succ n ih =>
    intro hn
    show stepR (15 - n) (recR n r) = stepQ (15 - n) (recQ n r)
    rw [ih (by omega)]
    exact stepR_eq_stepQ (den_ne_zero r hfin n (by omega))

/-- Row `(b, t)` of a `[B, T, 16]` array as a sequence (zero past its sixteen entries). -/
noncomputable def rowH {B T : ℕ} (X : (⟨3, ![B, T, 16]⟩ : Shape).Idx → EReal) (b : Fin B) (t : Fin T) : ℕ → EReal :=
  fun j => if h : j < 16 then X (ValueIdx.ix3 b t ⟨j, h⟩) else 0

/-- Fibre `(f, n)` of an `[A, 16, N]` array along its middle axis, as a sequence (zero past its sixteen entries). -/
noncomputable def rowK {A N : ℕ} (V : (⟨3, ![A, 16, N]⟩ : Shape).Idx → EReal) (f : Fin A) (n : Fin N) : ℕ → EReal :=
  fun j => if h : j < 16 then V (ValueIdx.ix3 f ⟨j, h⟩ n) else 0

theorem rowH_apply {B T : ℕ} (X : (⟨3, ![B, T, 16]⟩ : Shape).Idx → EReal) (b : Fin B) (t : Fin T) (c : Fin 16) :
    rowH X b t c.val = X (ValueIdx.ix3 b t c) := by
  unfold rowH; rw [dif_pos c.isLt]

theorem rowK_apply {A N : ℕ} (V : (⟨3, ![A, 16, N]⟩ : Shape).Idx → EReal) (f : Fin A) (n : Fin N) (c : Fin 16) :
    rowK V f n c.val = V (ValueIdx.ix3 f c n) := by
  unfold rowK; rw [dif_pos c.isLt]

/-- Two arrays with the same entries along row `(b, t)` have the same row sequence there. -/
theorem rowH_congr {B T : ℕ} (X : (⟨3, ![B, T, 16]⟩ : Shape).Idx → EReal) (b : Fin B) (t : Fin T) (s : ℕ → EReal)
    (hs : ∀ j, 16 ≤ j → s j = 0) (h : ∀ c : Fin 16, X (ValueIdx.ix3 b t c) = s c.val) : rowH X b t = s := by
  funext j; unfold rowH
  by_cases hj : j < 16
  · rw [dif_pos hj]; exact h ⟨j, hj⟩
  · rw [dif_neg hj, hs j (by omega)]

theorem rowK_congr {A N : ℕ} (V : (⟨3, ![A, 16, N]⟩ : Shape).Idx → EReal) (f : Fin A) (n : Fin N) (s : ℕ → EReal)
    (hs : ∀ j, 16 ≤ j → s j = 0) (h : ∀ c : Fin 16, V (ValueIdx.ix3 f c n) = s c.val) : rowK V f n = s := by
  funext j; unfold rowK
  by_cases hj : j < 16
  · rw [dif_pos hj]; exact h ⟨j, hj⟩
  · rw [dif_neg hj, hs j (by omega)]

/-- A step of index at most 16 keeps a sequence zero past its sixteen entries. -/
theorem stepQ_tail {k : ℕ} (hk : k ≤ 16) {r : ℕ → EReal} (hr : ∀ j, 16 ≤ j → r j = 0) : ∀ j, 16 ≤ j → stepQ k r j = 0 := by
  intro j hj; unfold stepQ; rw [if_neg (by omega)]; exact hr j hj
theorem stepR_tail {k : ℕ} (hk : k ≤ 16) {r : ℕ → EReal} (hr : ∀ j, 16 ≤ j → r j = 0) : ∀ j, 16 ≤ j → stepR k r j = 0 := by
  intro j hj; unfold stepR; rw [if_neg (by omega)]; exact hr j hj
theorem rowH_tail {B T : ℕ} (X : (⟨3, ![B, T, 16]⟩ : Shape).Idx → EReal) (b : Fin B) (t : Fin T) : ∀ j, 16 ≤ j → rowH X b t j = 0 := by
  intro j hj; unfold rowH; rw [dif_neg (by omega)]
theorem rowK_tail {A N : ℕ} (V : (⟨3, ![A, 16, N]⟩ : Shape).Idx → EReal) (f : Fin A) (n : Fin N) : ∀ j, 16 ≤ j → rowK V f n j = 0 := by
  intro j hj; unfold rowK; rw [dif_neg (by omega)]

/-- The three arrays from which step `k` is finished, for a family `S` of row sequences indexed by the two outer
    coordinates of an `[A, ·, N]` array: the kept entries `k … 15` (extent `kb = 16 - k`), the reciprocal of the
    denominator, and the numerators `S c - S k · S (k - 1 - c)` of the entries below `k`. -/
def Pieces {A N : ℕ} (k kb : ℕ) (S : Fin A → Fin N → ℕ → EReal)
    (vb : (⟨3, ![A, kb, N]⟩ : Shape).Idx → EReal) (vinv : (⟨3, ![A, 1, N]⟩ : Shape).Idx → EReal)
    (vn : (⟨3, ![A, k, N]⟩ : Shape).Idx → EReal) : Prop :=
  (∀ (f : Fin A) (c : Fin kb) (n : Fin N), vb (ValueIdx.ix3 f c n) = S f n (k + c.val)) ∧
  (∀ (f : Fin A) (n : Fin N), vinv (ValueIdx.ix3 f (0 : Fin 1) n) = Ideal.div 1 (1 - S f n k * S f n k)) ∧
  (∀ (f : Fin A) (c : Fin k) (n : Fin N), vn (ValueIdx.ix3 f c n) = S f n c.val - S f n k * S f n (k - 1 - c.val))

/-- The steps `k, k - 1, …, 1` in that order (hoisted reciprocal). -/
noncomputable def downR : ℕ → (ℕ → EReal) → ℕ → EReal
  | 0, r => r
  | k + 1, r => downR k (stepR (k + 1) r)

/-- The fifteen steps are the first `n` of them followed by the steps `15 - n, …, 1`. -/
theorem recR_split' (r : ℕ → EReal) : ∀ m, m ≤ 15 → recR 15 r = downR m (recR (15 - m) r) := by
  intro m
  induction m with
  | zero => intro _; rfl
  | succ m ih =>
    intro hm
    rw [ih (by omega)]
    have h1 : 15 - m = (15 - (m + 1)) + 1 := by omega
    have h2 : 15 - (15 - (m + 1)) = m + 1 := by omega
    rw [h1]
    show downR m (stepR (15 - (15 - (m + 1))) (recR (15 - (m + 1)) r)) = downR (m + 1) (recR (15 - (m + 1)) r)
    rw [h2]
    rfl

theorem recR_split (r : ℕ → EReal) (n : ℕ) (hn : n ≤ 15) : recR 15 r = downR (15 - n) (recR n r) := by
  have h := recR_split' r (15 - n) (by omega)
  rwa [show 15 - (15 - n) = n by omega] at h

end Levinson
-- ==== Proof.LibLevStep.lean ====
/-
  One step of the reverse Levinson recursion carried out on an [A, 16, N] array along its middle axis, read fibre by fibre.

  Step k cuts the array W into its entries below k (a, extent k) and from k on (b, extent 16 - k), takes the
  reflection coefficient ki = b's first entry, the reversed copy rev of a (a concatenation of a's k unit slices, last
  first), the reciprocal inv = 1 / (1 - ki · ki), and writes back the concatenation of (a - ki · rev) · inv and b.
  Fixing the two outer coordinates (f, n) and writing r for W's fibre there (Levinson.rowK), the new array's fibre is
  Levinson.stepR k r.  The lemmas here read each array of the step at (f, c, n) in terms of r: the layout operations
  at rank 3 along axis 1 first, then the parts of a step, then the assembled step.
-/
import Idealize.ShloMosaic.Lib.ValueLayout
import Idealize.ShloMosaic.Lib.IdealHost
import proofs.«154280_j86260123174591_2_alg».proof.Proof.LibLevinson

namespace LevStep

open Idealize.ShloMosaic Idealize.ShloMosaic.ValueIdx

section Layout
variable {α : Type}

/-- A two-piece concatenation of rank-3 arrays along axis 1, read at (a, j, e) with j below the first piece's extent:
    the first piece at (a, j, e). -/
theorem cat3_left {A N m1 m2 m : ℕ} (x1 : (⟨3, ![A, m1, N]⟩ : Shape).Idx → α) (x2 : (⟨3, ![A, m2, N]⟩ : Shape).Idx → α)
    (h : Shape.Concatenates [⟨3, ![A, m1, N]⟩, ⟨3, ![A, m2, N]⟩] ⟨3, ![A, m, N]⟩ (1 : Fin 3))
    (a : Fin A) (j : Fin m) (e : Fin N) (i : Fin m1) (hi : i.val = j.val) :
    concatenate ⟨3, ![A, m, N]⟩ (1 : Fin 3) [⟨⟨3, ![A, m1, N]⟩, x1⟩, ⟨⟨3, ![A, m2, N]⟩, x2⟩] h (ix3 a j e) = x1 (ix3 a i e) :=
  concatenate_pair_apply_left (t := ⟨3, ![A, m, N]⟩) (s₁ := ⟨3, ![A, m1, N]⟩) (s₂ := ⟨3, ![A, m2, N]⟩) (1 : Fin 3) x1 x2 h _ rfl _
    (fun b => by
      match b with
      | ⟨0, _⟩ => rfl
      | ⟨1, _⟩ => exact hi
      | ⟨2, _⟩ => rfl)

/-- The same concatenation read at (a, j, e) with j from the first piece's extent on: the second piece at
    (a, j - m1, e). -/
theorem cat3_right {A N m1 m2 m : ℕ} (x1 : (⟨3, ![A, m1, N]⟩ : Shape).Idx → α) (x2 : (⟨3, ![A, m2, N]⟩ : Shape).Idx → α)
    (h : Shape.Concatenates [⟨3, ![A, m1, N]⟩, ⟨3, ![A, m2, N]⟩] ⟨3, ![A, m, N]⟩ (1 : Fin 3))
    (a : Fin A) (j : Fin m) (e : Fin N) (i : Fin m2) (hi : i.val + m1 = j.val) :
    concatenate ⟨3, ![A, m, N]⟩ (1 : Fin 3) [⟨⟨3, ![A, m1, N]⟩, x1⟩, ⟨⟨3, ![A, m2, N]⟩, x2⟩] h (ix3 a j e) = x2 (ix3 a i e) :=
  concatenate_pair_apply_right (t := ⟨3, ![A, m, N]⟩) (s₁ := ⟨3, ![A, m1, N]⟩) (s₂ := ⟨3, ![A, m2, N]⟩) (1 : Fin 3) x1 x2 h _ rfl rfl _
    (fun b hb => by
      match b with
      | ⟨0, _⟩ => rfl
      | ⟨1, _⟩ => exact absurd rfl hb
      | ⟨2, _⟩ => rfl)
    hi

/-- An [A, 1, N] array broadcast to [A, m, N] reads, at (a, j, e), its one middle entry at (a, 0, e). -/
theorem bcast3 {A N m : ℕ} (v : (⟨3, ![A, 1, N]⟩ : Shape).Idx → α) (h : (⟨3, ![A, 1, N]⟩ : Shape).Broadcasts ⟨3, ![A, m, N]⟩)
    (a : Fin A) (j : Fin m) (e : Fin N) : broadcastTo ⟨3, ![A, m, N]⟩ v h (ix3 a j e) = v (ix3 a (0 : Fin 1) e) := by
  refine broadcastTo_apply v h (ix3 a j e) (ix3 a (0 : Fin 1) e) fun ax => ?_
  match ax with
  | ⟨0, _⟩ =>
    show a.val = if A = 1 then 0 else a.val
    split
    · have := a.isLt; omega
    · rfl
  | ⟨1, _⟩ => rfl
  | ⟨2, _⟩ =>
    show e.val = if N = 1 then 0 else e.val
    split
    · have := e.isLt; omega
    · rfl

/-- A concatenation along axis 1 of k arrays of shape [A, 1, N] reads, at (a, c, e), the c-th of them at (a, 0, e). -/
theorem unitcat3 {A N k : ℕ} (g : Fin k → ((⟨3, ![A, 1, N]⟩ : Shape).Idx → α))
    (h : Shape.Concatenates ((List.ofFn fun i : Fin k => (⟨⟨3, ![A, 1, N]⟩, g i⟩ : (s : Shape) × (s.Idx → α))).map (·.1))
      ⟨3, ![A, k, N]⟩ (1 : Fin 3))
    (a : Fin A) (c : Fin k) (e : Fin N) :
    concatenate ⟨3, ![A, k, N]⟩ (1 : Fin 3) (List.ofFn fun i : Fin k => (⟨⟨3, ![A, 1, N]⟩, g i⟩ : (s : Shape) × (s.Idx → α))) h
      (ix3 a c e) = g c (ix3 a (0 : Fin 1) e) :=
  concatenate_ofFn_unit_apply (t := ⟨3, ![A, k, N]⟩) (s₁ := ⟨3, ![A, 1, N]⟩) (1 : Fin 3) g h rfl rfl (ix3 a c e) c rfl
    (ix3 a (0 : Fin 1) e)
    (fun b hb => by
      match b with
      | ⟨0, _⟩ => rfl
      | ⟨1, _⟩ => exact absurd rfl hb
      | ⟨2, _⟩ => rfl)

/-- The unit slice at middle offset o of an [A, k, N] array is in range when o < k. -/
theorem slices_unit {A N k : ℕ} (o : ℕ) (ho : o < k) :
    (⟨3, ![A, k, N]⟩ : Shape).Slices ![0, o, 0] ⟨3, ![A, 1, N]⟩ :=
  ⟨rfl, fun a => by
    match a with
    | ⟨0, _⟩ => show 0 + A ≤ A; omega
    | ⟨1, _⟩ => show o + 1 ≤ k; omega
    | ⟨2, _⟩ => show 0 + N ≤ N; omega⟩

end Layout

section Parts
variable {A N : ℕ}

/-- A slice along the middle axis of a 16-row array, read at (f, c, n), is the fibre's entry o + c. -/
theorem slice_row {m : ℕ} (o : ℕ) (W : (⟨3, ![A, 16, N]⟩ : Shape).Idx → EReal)
    (h : (⟨3, ![A, 16, N]⟩ : Shape).Slices ![0, o, 0] ⟨3, ![A, m, N]⟩) (f : Fin A) (n : Fin N) (c : Fin m) :
    extractStridedSlice ⟨3, ![A, m, N]⟩ ![0, o, 0] W h (ix3 f c n) = Levinson.rowK W f n (o + c.val) :=
  (slice3_axis1_eq o W h f c n).trans (Levinson.rowK_apply W f n ⟨o + c.val, _⟩).symm

/-- The entries below k: the slice from 0 read at (f, c, n) is the fibre's entry c. -/
theorem lo_row {k : ℕ} (W : (⟨3, ![A, 16, N]⟩ : Shape).Idx → EReal)
    (h : (⟨3, ![A, 16, N]⟩ : Shape).Slices ![0, 0, 0] ⟨3, ![A, k, N]⟩) (f : Fin A) (n : Fin N) (r : ℕ → EReal)
    (hW : Levinson.rowK W f n = r) (c : Fin k) :
    extractStridedSlice ⟨3, ![A, k, N]⟩ ![0, 0, 0] W h (ix3 f c n) = r c.val := by
  rw [slice_row 0 W h f n c, hW, Nat.zero_add]

/-- The entries from k on: the slice from k read at (f, c, n) is the fibre's entry k + c. -/
theorem hi_row {kb : ℕ} (k : ℕ) (W : (⟨3, ![A, 16, N]⟩ : Shape).Idx → EReal)
    (h : (⟨3, ![A, 16, N]⟩ : Shape).Slices ![0, k, 0] ⟨3, ![A, kb, N]⟩) (f : Fin A) (n : Fin N) (r : ℕ → EReal)
    (hW : Levinson.rowK W f n = r) (c : Fin kb) :
    extractStridedSlice ⟨3, ![A, kb, N]⟩ ![0, k, 0] W h (ix3 f c n) = r (k + c.val) := by
  rw [slice_row k W h f n c, hW]

/-- A slice of a slice: the entries from o on of an array whose entry c is r (p + c) have entry c equal to r (p + o + c). -/
theorem sub_row {m m' : ℕ} (o p : ℕ) (b : (⟨3, ![A, m, N]⟩ : Shape).Idx → EReal)
    (h : (⟨3, ![A, m, N]⟩ : Shape).Slices ![0, o, 0] ⟨3, ![A, m', N]⟩) (f : Fin A) (n : Fin N) (r : ℕ → EReal)
    (hb : ∀ c : Fin m, b (ix3 f c n) = r (p + c.val)) (c : Fin m') :
    extractStridedSlice ⟨3, ![A, m', N]⟩ ![0, o, 0] b h (ix3 f c n) = r (p + o + c.val) := by
  rw [slice3_axis1_eq o b h f c n, hb, Nat.add_assoc]

/-- The reversed copy: the concatenation of the k unit slices of a, the one at offset k - 1 - i in place i, read at
    (f, c, n) is a's entry k - 1 - c. -/
theorem rev_row {k : ℕ} (a : (⟨3, ![A, k, N]⟩ : Shape).Idx → EReal)
    (hs : ∀ i : Fin k, (⟨3, ![A, k, N]⟩ : Shape).Slices ![0, k - 1 - i.val, 0] ⟨3, ![A, 1, N]⟩)
    (hcat : Shape.Concatenates ((List.ofFn fun i : Fin k => (⟨⟨3, ![A, 1, N]⟩,
        extractStridedSlice ⟨3, ![A, 1, N]⟩ ![0, k - 1 - i.val, 0] a (hs i)⟩ : (s : Shape) × (s.Idx → EReal))).map (·.1))
      ⟨3, ![A, k, N]⟩ (1 : Fin 3))
    (f : Fin A) (n : Fin N) (r : ℕ → EReal) (ha : ∀ c : Fin k, a (ix3 f c n) = r c.val) (c : Fin k) :
    concatenate ⟨3, ![A, k, N]⟩ (1 : Fin 3) (List.ofFn fun i : Fin k => (⟨⟨3, ![A, 1, N]⟩,
        extractStridedSlice ⟨3, ![A, 1, N]⟩ ![0, k - 1 - i.val, 0] a (hs i)⟩ : (s : Shape) × (s.Idx → EReal))) hcat (ix3 f c n)
      = r (k - 1 - c.val) := by
  refine (unitcat3 _ hcat f c n).trans ?_
  refine (slice3_axis1_eq (k - 1 - c.val) a (hs c) f (0 : Fin 1) n).trans ?_
  exact ha ⟨k - 1 - c.val + (0 : Fin 1).val, _⟩

/-- The reciprocal of the denominator: 1 / (1 - ki · ki) at (f, 0, n), the two ones constant arrays. -/
theorem inv_row (ki : FVec Ideal ⟨3, ![A, 1, N]⟩ .f32) (one one' : EReal) (h1 : one = 1) (h1' : one' = 1) (f : Fin A) (n : Fin N)
    (x : EReal) (hki : ki (ix3 f (0 : Fin 1) n) = x) :
    divf (broadcast ⟨3, ![A, 1, N]⟩ one') (subf (broadcast ⟨3, ![A, 1, N]⟩ one) (mulf ki ki)) (ix3 f (0 : Fin 1) n)
      = Ideal.div 1 (1 - x * x) := by
  show Ideal.div one' (one - ki (ix3 f (0 : Fin 1) n) * ki (ix3 f (0 : Fin 1) n)) = _
  rw [hki, h1, h1']

/-- The denominator 1 - ki · ki at (f, 0, n), the one a constant array. -/
theorem den_row (ki : FVec Ideal ⟨3, ![A, 1, N]⟩ .f32) (one : EReal) (h1 : one = 1) (f : Fin A) (n : Fin N)
    (x : EReal) (hki : ki (ix3 f (0 : Fin 1) n) = x) :
    subf (broadcast ⟨3, ![A, 1, N]⟩ one) (mulf ki ki) (ix3 f (0 : Fin 1) n) = 1 - x * x := by
  show one - ki (ix3 f (0 : Fin 1) n) * ki (ix3 f (0 : Fin 1) n) = _
  rw [hki, h1]

/-- The reciprocal 1 / den at (f, 0, n), the one a constant array. -/
theorem recip_row (den : FVec Ideal ⟨3, ![A, 1, N]⟩ .f32) (one : EReal) (h1 : one = 1) (f : Fin A) (n : Fin N)
    (x : EReal) (hden : den (ix3 f (0 : Fin 1) n) = x) :
    divf (broadcast ⟨3, ![A, 1, N]⟩ one) den (ix3 f (0 : Fin 1) n) = Ideal.div 1 x := by
  show Ideal.div one (den (ix3 f (0 : Fin 1) n)) = _
  rw [hden, h1]

/-- The numerators: a - ki · rev at (f, c, n). -/
theorem num_row {k : ℕ} (a rev : FVec Ideal ⟨3, ![A, k, N]⟩ .f32) (ki : FVec Ideal ⟨3, ![A, 1, N]⟩ .f32)
    (hb1 : (⟨3, ![A, 1, N]⟩ : Shape).Broadcasts ⟨3, ![A, k, N]⟩) (f : Fin A) (n : Fin N) (r : ℕ → EReal)
    (ha : ∀ c : Fin k, a (ix3 f c n) = r c.val) (hki : ki (ix3 f (0 : Fin 1) n) = r k)
    (hrev : ∀ c : Fin k, rev (ix3 f c n) = r (k - 1 - c.val)) (c : Fin k) :
    subf a (mulf (broadcastTo ⟨3, ![A, k, N]⟩ ki hb1) rev) (ix3 f c n) = r c.val - r k * r (k - 1 - c.val) := by
  show a (ix3 f c n) - broadcastTo ⟨3, ![A, k, N]⟩ ki hb1 (ix3 f c n) * rev (ix3 f c n) = _
  rw [bcast3 ki hb1 f c n, ha, hki, hrev]

/-- The step assembled from its numerators, its reciprocal and the kept entries: the new array's fibre is stepR k r. -/
theorem finish {k kb : ℕ} (num : FVec Ideal ⟨3, ![A, k, N]⟩ .f32) (b : FVec Ideal ⟨3, ![A, kb, N]⟩ .f32)
    (inv : FVec Ideal ⟨3, ![A, 1, N]⟩ .f32)
    (hb2 : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3))
    (hk : k + kb = 16) (f : Fin A) (n : Fin N) (r : ℕ → EReal) (hr : ∀ j, 16 ≤ j → r j = 0)
    (hnum : ∀ c : Fin k, num (ix3 f c n) = r c.val - r k * r (k - 1 - c.val))
    (hb : ∀ c : Fin kb, b (ix3 f c n) = r (k + c.val))
    (hinv : inv (ix3 f (0 : Fin 1) n) = Ideal.div 1 (1 - r k * r k)) :
    Levinson.rowK (concatenate ⟨3, ![A, 16, N]⟩ (1 : Fin 3)
      [⟨⟨3, ![A, k, N]⟩, mulf num (broadcastTo ⟨3, ![A, k, N]⟩ inv hb2)⟩, ⟨⟨3, ![A, kb, N]⟩, b⟩] hcat) f n
      = Levinson.stepR k r := by
  refine Levinson.rowK_congr _ f n _ (Levinson.stepR_tail (by omega) hr) fun c => ?_
  unfold Levinson.stepR
  by_cases hc : c.val < k
  · rw [if_pos hc]
    refine (cat3_left _ _ hcat f c n ⟨c.val, hc⟩ rfl).trans ?_
    show num (ix3 f ⟨c.val, hc⟩ n) * broadcastTo ⟨3, ![A, k, N]⟩ inv hb2 (ix3 f ⟨c.val, hc⟩ n) = _
    rw [bcast3 inv hb2 f ⟨c.val, hc⟩ n, hnum, hinv]
  · rw [if_neg hc]
    have hc16 := c.isLt
    refine (cat3_right _ _ hcat f c n ⟨c.val - k, by omega⟩ (by show c.val - k + k = c.val; omega)).trans ?_
    rw [hb]
    show r (k + (c.val - k)) = r c.val
    congr 1
    omega

/-- The five arrays a step is resumed from when it is interrupted before its reciprocal is taken, for the fibre r at
    (f, n): the entries below k, the entries from k on, the reflection coefficient, the reversed copy of the entries
    below k, and the denominator 1 - ki · ki. -/
def Mid (k kb : ℕ) (r : ℕ → EReal) (f : Fin A) (n : Fin N)
    (a : FVec Ideal ⟨3, ![A, k, N]⟩ .f32) (b : FVec Ideal ⟨3, ![A, kb, N]⟩ .f32) (ki : FVec Ideal ⟨3, ![A, 1, N]⟩ .f32)
    (rev : FVec Ideal ⟨3, ![A, k, N]⟩ .f32) (den : FVec Ideal ⟨3, ![A, 1, N]⟩ .f32) : Prop :=
  (∀ j, 16 ≤ j → r j = 0) ∧ (∀ c : Fin k, a (ix3 f c n) = r c.val) ∧ (∀ c : Fin kb, b (ix3 f c n) = r (k + c.val)) ∧
  ki (ix3 f (0 : Fin 1) n) = r k ∧ (∀ c : Fin k, rev (ix3 f c n) = r (k - 1 - c.val)) ∧
  den (ix3 f (0 : Fin 1) n) = 1 - r k * r k

/-- A step resumed from those five arrays: the new array's fibre is stepR k r. -/
theorem finish_mid {k kb : ℕ} (a : FVec Ideal ⟨3, ![A, k, N]⟩ .f32) (b : FVec Ideal ⟨3, ![A, kb, N]⟩ .f32)
    (ki : FVec Ideal ⟨3, ![A, 1, N]⟩ .f32) (rev : FVec Ideal ⟨3, ![A, k, N]⟩ .f32) (den : FVec Ideal ⟨3, ![A, 1, N]⟩ .f32)
    (one : EReal) (h1 : one = 1)
    (hb1 hb2 : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3))
    (hk : k + kb = 16) (f : Fin A) (n : Fin N) (r : ℕ → EReal) (h : Mid k kb r f n a b ki rev den) :
    Levinson.rowK (concatenate ⟨3, ![A, 16, N]⟩ (1 : Fin 3)
      [⟨⟨3, ![A, k, N]⟩, mulf (subf a (mulf (broadcastTo ⟨3, ![A, k, N]⟩ ki hb1) rev))
          (broadcastTo ⟨3, ![A, k, N]⟩ (divf (broadcast ⟨3, ![A, 1, N]⟩ one) den) hb2)⟩, ⟨⟨3, ![A, kb, N]⟩, b⟩] hcat) f n
      = Levinson.stepR k r := by
  obtain ⟨hr, ha, hb, hki, hrev, hden⟩ := h
  exact finish _ b _ hb2 hcat hk f n r hr (num_row a rev ki hb1 f n r ha hki hrev) hb (recip_row den one h1 f n _ hden)

end Parts

end LevStep
-- ==== Proof.KerHead.lean ====
/-
  The kernel body's first part, read fibre by fibre along the middle axis of the [8, 16, 5120] array.

  The loaded [5120, 128] block is transposed and cast to [8, 16, 5120]: entry (f, c, n) is the block's entry
  (n, 16 f + c), so the fibre at (f, n) is row n, frame f of the block (R).  The body then performs step k = 15 of the
  hoisted-reciprocal recursion (Levinson.stepR) on every fibre and prepares step 14: the entries below 14, the kept
  entries 14 and 15, the reflection coefficient ki, the entries below 14 in reverse order, and the denominator 1 - ki · ki.
-/
import proofs.«154280_j86260123174591_2_alg».proof.Proof.Gen.KernelIdeal.Skeleton
import proofs.«154280_j86260123174591_2_alg».proof.Proof.LibLevStep

noncomputable section

namespace Cert.KernelIdeal.KerHead

open Idealize.ShloMosaic Idealize.ShloMosaic.ValueIdx Cert.KernelIdeal Cert.KernelIdeal.Gen
open Levinson LevStep

/-- Row n, frame f of the loaded block as a sequence (zero past its sixteen entries). -/
def R (v0 : Vec Ideal S5120x128 .f32) (f : Fin 8) (n : Fin 5120) : ℕ → EReal :=
  fun j => if h : j < 16 then v0 (ix2 n ⟨16 * f.val + j, by have := f.isLt; omega⟩) else 0

theorem R_tail (v0 : Vec Ideal S5120x128 .f32) (f : Fin 8) (n : Fin 5120) : ∀ j, 16 ≤ j → R v0 f n j = 0 := by
  intro j hj; unfold R; rw [dif_neg (by omega)]

/-- The constant one of the body is the extended real 1. -/
theorem one_eq : (Scalar.ofBits (F := Ideal) .f32 0x3F800000#32 : EReal) = 1 := Ideal.ofBits_one_f32

/-- The block transposed and cast to [8, 16, 5120] has, at (f, n), the fibre R. -/
theorem inp_row (v0 : Vec Ideal S5120x128 .f32) (f : Fin 8) (n : Fin 5120) :
    rowK (shapeCast S8x16x5120 (transpose S128x5120 [1, 0] (shapeCast S5120x128 v0 Facts₀.shapeCasts_S5120x128_S5120x128)
      Facts₀.transposes_S5120x128_p1_0_S128x5120) Facts₀.shapeCasts_S128x5120_S8x16x5120) f n = R v0 f n := by
  refine rowK_congr _ f n _ (R_tail v0 f n) fun c => ?_
  have hf := f.isLt
  have hc := c.isLt
  refine (shapeCast_apply _ _ (ix3 f c n) (ix2 (⟨16 * f.val + c.val, by omega⟩ : Fin 128) n) (by
    rw [Shape.rowMajor_val_two, Shape.rowMajor_val_three]
    show (16 * f.val + c.val) * 5120 + n.val = (f.val * 16 + c.val) * 5120 + n.val
    omega)).trans ?_
  refine (transpose_ix2_apply _ _ _ _).trans ?_
  rw [shapeCast_self]
  unfold R
  rw [dif_pos c.isLt]

/-- After step 15. -/
theorem pay2_row (v0 : Vec Ideal S5120x128 .f32) (f : Fin 8) (n : Fin 5120) :
    rowK (k0_pay2 (F := Ideal) v0) f n = stepR 15 (R v0 f n) := by
  have hW := inp_row v0 f n
  unfold k0_pay2
  refine finish (k := 15) (kb := 1) _ _ _ _ _ rfl f n (R v0 f n) (R_tail v0 f n) ?_ ?_ ?_
  · exact num_row _ _ _ _ f n _ (lo_row _ _ f n _ hW) (hi_row 15 _ _ f n _ hW (0 : Fin 1))
      (rev_row _ (fun i => slices_unit _ (by have := i.isLt; omega)) _ f n _ (lo_row _ _ f n _ hW))
  · exact hi_row 15 _ _ f n _ hW
  · exact (recip_row _ _ one_eq f n _ (den_row _ _ one_eq f n _ (hi_row 15 _ _ f n _ hW (0 : Fin 1))))

/-- The entries below 14 after step 15. -/
theorem pay3_row (v0 : Vec Ideal S5120x128 .f32) (f : Fin 8) (n : Fin 5120) (c : Fin 14) :
    k0_pay3 (F := Ideal) v0 (ix3 f c n) = stepR 15 (R v0 f n) c.val := by
  unfold k0_pay3
  exact lo_row _ _ f n _ (pay2_row v0 f n) c

/-- The entries 14 and 15 after step 15. -/
theorem pay4_row (v0 : Vec Ideal S5120x128 .f32) (f : Fin 8) (n : Fin 5120) (c : Fin 2) :
    k0_pay4 (F := Ideal) v0 (ix3 f c n) = stepR 15 (R v0 f n) (14 + c.val) := by
  unfold k0_pay4
  exact hi_row 14 _ _ f n _ (pay2_row v0 f n) c

/-- The reflection coefficient of step 14. -/
theorem pay5_row (v0 : Vec Ideal S5120x128 .f32) (f : Fin 8) (n : Fin 5120) :
    k0_pay5 (F := Ideal) v0 (ix3 f (0 : Fin 1) n) = stepR 15 (R v0 f n) 14 := by
  unfold k0_pay5
  exact sub_row 0 14 _ _ f n _ (pay4_row v0 f n) (0 : Fin 1)

/-- The reversed copy of the entries below 14. -/
theorem pay6_row (v0 : Vec Ideal S5120x128 .f32) (f : Fin 8) (n : Fin 5120) (c : Fin 14) :
    k0_pay6 (F := Ideal) v0 (ix3 f c n) = stepR 15 (R v0 f n) (14 - 1 - c.val) := by
  unfold k0_pay6
  exact rev_row _ (fun i => slices_unit _ (by have := i.isLt; omega)) _ f n _ (pay3_row v0 f n) c

/-- The denominator of step 14. -/
theorem pay7_row (v0 : Vec Ideal S5120x128 .f32) (f : Fin 8) (n : Fin 5120) :
    k0_pay7 (F := Ideal) v0 (ix3 f (0 : Fin 1) n) = 1 - stepR 15 (R v0 f n) 14 * stepR 15 (R v0 f n) 14 := by
  unfold k0_pay7
  exact den_row _ _ one_eq f n _ (pay5_row v0 f n)

/-- The five arrays the first part hands on, in the middle of step 14, over the fibres after step 15. -/
theorem head_five (v0 : Vec Ideal S5120x128 .f32) :
    (∀ (f : Fin 8) (c : Fin 14) (n : Fin 5120),
      (k0_pay3 v0) (ix3 f c n) = (fun f n => Levinson.stepR 15 (R v0 f n)) f n c.val) ∧
    (∀ (f : Fin 8) (c : Fin 2) (n : Fin 5120),
      (k0_pay4 v0) (ix3 f c n) = (fun f n => Levinson.stepR 15 (R v0 f n)) f n (14 + c.val)) ∧
    (∀ (f : Fin 8) (n : Fin 5120),
      (k0_pay5 v0) (ix3 f (0 : Fin 1) n) = (fun f n => Levinson.stepR 15 (R v0 f n)) f n 14) ∧
    (∀ (f : Fin 8) (c : Fin 14) (n : Fin 5120),
      (k0_pay6 v0) (ix3 f c n) = (fun f n => Levinson.stepR 15 (R v0 f n)) f n (14 - 1 - c.val)) ∧
    (∀ (f : Fin 8) (n : Fin 5120),
      (k0_pay7 v0) (ix3 f (0 : Fin 1) n)
        = 1 - (fun f n => Levinson.stepR 15 (R v0 f n)) f n 14 * (fun f n => Levinson.stepR 15 (R v0 f n)) f n 14) :=
  ⟨fun f c n => pay3_row v0 f n c, fun f c n => pay4_row v0 f n c, fun f n => pay5_row v0 f n,
    fun f c n => pay6_row v0 f n c, fun f n => pay7_row v0 f n⟩

end Cert.KernelIdeal.KerHead
-- ==== Proof.KerHeadPieces.lean ====
/-
  Parts two and three of the kernel body, and the head assembled: from the five arrays that step 14 starts from (the entries
  below 14, the kept entries, the reflection coefficient, the reversed entries, the denominator) the body finishes step 14,
  runs steps 13, 12 and 11, and hands on the three arrays that step 10 is finished from; with the first part
  (KerHead.lean) that is the first five steps of the recursion on every row and frame of the loaded block.
-/
import proofs.«154280_j86260123174591_2_alg».proof.Proof.KerHead

noncomputable section

namespace Cert.KernelIdeal.KerHeadPieces

open Idealize.ShloMosaic Idealize.ShloMosaic.ValueIdx Cert.KernelIdeal Cert.KernelIdeal.Gen
open Levinson LevStep Cert.KernelIdeal.KerHead

section Part2
variable (v33 : FVec Ideal S8x14x5120 .f32) (v34 : FVec Ideal S8x2x5120 .f32) (v35 : FVec Ideal S8x1x5120 .f32)
  (v50 : FVec Ideal S8x14x5120 .f32) (v53 : FVec Ideal S8x1x5120 .f32) (f : Fin 8) (n : Fin 5120) (r : ℕ → EReal)

/-- After steps 14 and 13. -/
theorem pay8_row (h : Mid 14 2 r f n v33 v34 v35 v50 v53) :
    rowK (k0_pay8 v33 v34 v35 v50 v53) f n = stepR 13 (stepR 14 r) := by
  have hW := finish_mid v33 v34 v35 v50 v53 (Scalar.ofBits (F := Ideal) .f32 0x3F800000#32) one_eq
    Facts₀.broadcasts_S8x1x5120_S8x14x5120 Facts₀.broadcasts_S8x1x5120_S8x14x5120
    Facts₀.concatenates_S8x14x5120_S8x2x5120_S8x16x5120_d1 rfl f n r h
  have hr' := stepR_tail (k := 14) (by omega) h.1
  have hki := sub_row 0 13 _ Facts₀.slices_S8x3x5120_o0_0_0_S8x1x5120 f n _
    (hi_row 13 _ Facts₀.slices_S8x16x5120_o0_13_0_S8x3x5120 f n _ hW) (0 : Fin 1)
  unfold k0_pay8
  refine finish (k := 13) (kb := 3) _ _ _ _ _ rfl f n (stepR 14 r) hr' ?_ ?_ ?_
  · exact num_row _ _ _ _ f n _ (lo_row _ _ f n _ hW) hki
      (rev_row _ (fun i => slices_unit _ (by have := i.isLt; omega)) _ f n _ (lo_row _ _ f n _ hW))
  · exact hi_row 13 _ _ f n _ hW
  · exact recip_row _ _ one_eq f n _ (den_row _ _ one_eq f n _ hki)

/-- The five arrays part 2 hands on, in the middle of step 12. -/
theorem mid12 (h : Mid 14 2 r f n v33 v34 v35 v50 v53) :
    Mid 12 4 (stepR 13 (stepR 14 r)) f n (k0_pay9 v33 v34 v35 v50 v53) (k0_pay10 v33 v34 v35 v50 v53)
      (k0_pay11 v33 v34 v35 v50 v53) (k0_pay12 v33 v34 v35 v50 v53) (k0_pay13 v33 v34 v35 v50 v53) := by
  have hW := pay8_row v33 v34 v35 v50 v53 f n r h
  have h9 : ∀ c : Fin 12, k0_pay9 v33 v34 v35 v50 v53 (ix3 f c n) = stepR 13 (stepR 14 r) c.val := by
    intro c; unfold k0_pay9; exact lo_row _ _ f n _ hW c
  have h10 : ∀ c : Fin 4, k0_pay10 v33 v34 v35 v50 v53 (ix3 f c n) = stepR 13 (stepR 14 r) (12 + c.val) := by
    intro c; unfold k0_pay10; exact hi_row 12 _ _ f n _ hW c
  have h11 : k0_pay11 v33 v34 v35 v50 v53 (ix3 f (0 : Fin 1) n) = stepR 13 (stepR 14 r) 12 := by
    unfold k0_pay11; exact sub_row 0 12 _ _ f n _ h10 (0 : Fin 1)
  refine ⟨stepR_tail (k := 13) (by omega) (stepR_tail (k := 14) (by omega) h.1), h9, h10, h11, ?_, ?_⟩
  · intro c; unfold k0_pay12
    exact rev_row _ (fun i => slices_unit _ (by have := i.isLt; omega)) _ f n _ h9 c
  · unfold k0_pay13; exact den_row _ _ one_eq f n _ h11

end Part2

section Part3
variable (v90 : FVec Ideal S8x12x5120 .f32) (v91 : FVec Ideal S8x4x5120 .f32) (v92 : FVec Ideal S8x1x5120 .f32)
  (v105 : FVec Ideal S8x12x5120 .f32) (v108 : FVec Ideal S8x1x5120 .f32) (one : EReal) (f : Fin 8) (n : Fin 5120) (r : ℕ → EReal)

/-- After steps 12 and 11. -/
theorem pay14_row (h1 : one = 1) (h : Mid 12 4 r f n v90 v91 v92 v105 v108) :
    rowK (k0_pay14 (F := Ideal) v90 v91 v92 v105 v108 one) f n = stepR 11 (stepR 12 r) := by
  have hW := finish_mid v90 v91 v92 v105 v108 one h1
    Facts₀.broadcasts_S8x1x5120_S8x12x5120 Facts₀.broadcasts_S8x1x5120_S8x12x5120
    Facts₀.concatenates_S8x12x5120_S8x4x5120_S8x16x5120_d1 rfl f n r h
  have hr' := stepR_tail (k := 12) (by omega) h.1
  have hki := sub_row 0 11 _ Facts₀.slices_S8x5x5120_o0_0_0_S8x1x5120 f n _
    (hi_row 11 _ Facts₀.slices_S8x16x5120_o0_11_0_S8x5x5120 f n _ hW) (0 : Fin 1)
  unfold k0_pay14
  refine finish (k := 11) (kb := 5) _ _ _ _ _ rfl f n (stepR 12 r) hr' ?_ ?_ ?_
  · exact num_row _ _ _ _ f n _ (lo_row _ _ f n _ hW) hki
      (rev_row _ (fun i => slices_unit _ (by have := i.isLt; omega)) _ f n _ (lo_row _ _ f n _ hW))
  · exact hi_row 11 _ _ f n _ hW
  · exact recip_row _ _ one_eq f n _ (den_row _ _ one_eq f n _ hki)

/-- The three arrays part 3 hands on, from which step 10 is finished. -/
theorem pieces10 (h1 : one = 1) (h : Mid 12 4 r f n v90 v91 v92 v105 v108) :
    (∀ c : Fin 6, k0_pay15 (F := Ideal) v90 v91 v92 v105 v108 one (ix3 f c n) = stepR 11 (stepR 12 r) (10 + c.val)) ∧
    k0_pay17 (F := Ideal) v90 v91 v92 v105 v108 one (ix3 f (0 : Fin 1) n)
      = Ideal.div 1 (1 - stepR 11 (stepR 12 r) 10 * stepR 11 (stepR 12 r) 10) ∧
    (∀ c : Fin 10, k0_pay18 (F := Ideal) v90 v91 v92 v105 v108 one (ix3 f c n)
      = stepR 11 (stepR 12 r) c.val - stepR 11 (stepR 12 r) 10 * stepR 11 (stepR 12 r) (10 - 1 - c.val)) := by
  have hW := pay14_row v90 v91 v92 v105 v108 one f n r h1 h
  have h15 : ∀ c : Fin 6, k0_pay15 (F := Ideal) v90 v91 v92 v105 v108 one (ix3 f c n) = stepR 11 (stepR 12 r) (10 + c.val) := by
    intro c; unfold k0_pay15; exact hi_row 10 _ _ f n _ hW c
  have h16 : k0_pay16 (F := Ideal) v90 v91 v92 v105 v108 one (ix3 f (0 : Fin 1) n) = stepR 11 (stepR 12 r) 10 := by
    unfold k0_pay16; exact sub_row 0 10 _ _ f n _ h15 (0 : Fin 1)
  refine ⟨h15, ?_, ?_⟩
  · unfold k0_pay17
    exact recip_row _ _ one_eq f n _ (den_row _ _ one_eq f n _ h16)
  · intro c
    unfold k0_pay18
    exact num_row _ _ _ _ f n _ (lo_row _ _ f n _ hW) h16
      (rev_row _ (fun i => slices_unit _ (by have := i.isLt; omega)) _ f n _ (lo_row _ _ f n _ hW)) c

end Part3

/-- Parts 1 to 3 together: the three arrays from which step 10 is finished, over the fibres after five steps. -/
theorem head_pieces (v0 : Vec Ideal S5120x128 .f32) :
    Levinson.Pieces 10 6 (fun f n => Levinson.recR 5 (R v0 f n))
      (k0_pay15 (k0_pay9 (k0_pay3 v0) (k0_pay4 v0) (k0_pay5 v0) (k0_pay6 v0) (k0_pay7 v0))
        (k0_pay10 (k0_pay3 v0) (k0_pay4 v0) (k0_pay5 v0) (k0_pay6 v0) (k0_pay7 v0))
        (k0_pay11 (k0_pay3 v0) (k0_pay4 v0) (k0_pay5 v0) (k0_pay6 v0) (k0_pay7 v0))
        (k0_pay12 (k0_pay3 v0) (k0_pay4 v0) (k0_pay5 v0) (k0_pay6 v0) (k0_pay7 v0))
        (k0_pay13 (k0_pay3 v0) (k0_pay4 v0) (k0_pay5 v0) (k0_pay6 v0) (k0_pay7 v0))
        (Scalar.ofBits (F := Ideal) .f32 0x3F800000#32))
      (k0_pay17 (k0_pay9 (k0_pay3 v0) (k0_pay4 v0) (k0_pay5 v0) (k0_pay6 v0) (k0_pay7 v0))
        (k0_pay10 (k0_pay3 v0) (k0_pay4 v0) (k0_pay5 v0) (k0_pay6 v0) (k0_pay7 v0))
        (k0_pay11 (k0_pay3 v0) (k0_pay4 v0) (k0_pay5 v0) (k0_pay6 v0) (k0_pay7 v0))
        (k0_pay12 (k0_pay3 v0) (k0_pay4 v0) (k0_pay5 v0) (k0_pay6 v0) (k0_pay7 v0))
        (k0_pay13 (k0_pay3 v0) (k0_pay4 v0) (k0_pay5 v0) (k0_pay6 v0) (k0_pay7 v0))
        (Scalar.ofBits (F := Ideal) .f32 0x3F800000#32))
      (k0_pay18 (k0_pay9 (k0_pay3 v0) (k0_pay4 v0) (k0_pay5 v0) (k0_pay6 v0) (k0_pay7 v0))
        (k0_pay10 (k0_pay3 v0) (k0_pay4 v0) (k0_pay5 v0) (k0_pay6 v0) (k0_pay7 v0))
        (k0_pay11 (k0_pay3 v0) (k0_pay4 v0) (k0_pay5 v0) (k0_pay6 v0) (k0_pay7 v0))
        (k0_pay12 (k0_pay3 v0) (k0_pay4 v0) (k0_pay5 v0) (k0_pay6 v0) (k0_pay7 v0))
        (k0_pay13 (k0_pay3 v0) (k0_pay4 v0) (k0_pay5 v0) (k0_pay6 v0) (k0_pay7 v0))
        (Scalar.ofBits (F := Ideal) .f32 0x3F800000#32)) := by
  have hm14 : ∀ f n, Mid 14 2 (stepR 15 (R v0 f n)) f n (k0_pay3 v0) (k0_pay4 v0) (k0_pay5 v0) (k0_pay6 v0) (k0_pay7 v0) :=
    fun f n => ⟨stepR_tail (k := 15) (by omega) (R_tail v0 f n), pay3_row v0 f n, pay4_row v0 f n, pay5_row v0 f n,
      pay6_row v0 f n, pay7_row v0 f n⟩
  have hp := fun f n => pieces10 _ _ _ _ _ _ f n _ one_eq (mid12 _ _ _ _ _ f n _ (hm14 f n))
  exact ⟨fun f c n => (hp f n).1 c, fun f n => (hp f n).2.1, fun f c n => (hp f n).2.2 c⟩

end Cert.KernelIdeal.KerHeadPieces
-- ==== Proof.LibStepRead.lean ====
/-
  One step of the reverse Levinson recursion carried out on an [A, 16, N] array along its middle axis, as array
  operations (slices, a concatenation of one-row slices in reverse order, a stretched row, pointwise arithmetic),
  and what each of these reads at an index.
-/
import proofs.«154280_j86260123174591_2_alg».proof.Proof.LibLevinson
import Idealize.ShloMosaic.Lib.ValueLayout
import Idealize.ShloMosaic.Lib.IdealHost

namespace Levinson.ArrayStep

open Idealize.ShloMosaic Idealize.ShloMosaic.ValueIdx

variable {A N : ℕ}

/-- A one-row array stretched over k rows reads its one row at every row. -/
theorem bcastRow_apply {α : Type} (k : ℕ) (x : (⟨3, ![A, 1, N]⟩ : Shape).Idx → α)
    (h : (⟨3, ![A, 1, N]⟩ : Shape).Broadcasts ⟨3, ![A, k, N]⟩) (f : Fin A) (c : Fin k) (n : Fin N) :
    broadcastTo ⟨3, ![A, k, N]⟩ x h (ix3 f c n) = x (ix3 f (0 : Fin 1) n) := by
  refine broadcastTo_apply x h (ix3 f c n) (ix3 f (0 : Fin 1) n) (fun a => ?_)
  match a with
  | ⟨0, _⟩ =>
    show f.val = if A = 1 then 0 else f.val
    have := f.isLt
    split <;> omega
  | ⟨1, _⟩ =>
    show (0 : Fin 1).val = if (1 : ℕ) = 1 then 0 else c.val
    simp
  | ⟨2, _⟩ =>
    show n.val = if N = 1 then 0 else n.val
    have := n.isLt
    split <;> omega

/-- The rows of a in reverse order: the concatenation of its one-row slices k-1, …, 0. -/
noncomputable def revArr {α : Type} (k : ℕ) (a : (⟨3, ![A, k, N]⟩ : Shape).Idx → α)
    (hs : ∀ i : Fin k, (⟨3, ![A, k, N]⟩ : Shape).Slices ![0, k - 1 - i.val, 0] ⟨3, ![A, 1, N]⟩)
    (hc : Shape.Concatenates ((List.ofFn fun i : Fin k => (⟨⟨3, ![A, 1, N]⟩,
      extractStridedSlice ⟨3, ![A, 1, N]⟩ ![0, k - 1 - i.val, 0] a (hs i)⟩ : (s : Shape) × (s.Idx → α))).map (·.1))
      ⟨3, ![A, k, N]⟩ (1 : Fin 3)) :
    (⟨3, ![A, k, N]⟩ : Shape).Idx → α :=
  concatenate ⟨3, ![A, k, N]⟩ (1 : Fin 3) (List.ofFn fun i : Fin k => (⟨⟨3, ![A, 1, N]⟩,
      extractStridedSlice ⟨3, ![A, 1, N]⟩ ![0, k - 1 - i.val, 0] a (hs i)⟩ : (s : Shape) × (s.Idx → α))) hc

/-- The reversed array reads, at row c, row k - 1 - c of the array. -/
theorem revArr_apply {α : Type} (k : ℕ) (a : (⟨3, ![A, k, N]⟩ : Shape).Idx → α)
    (hs : ∀ i : Fin k, (⟨3, ![A, k, N]⟩ : Shape).Slices ![0, k - 1 - i.val, 0] ⟨3, ![A, 1, N]⟩)
    (hc : Shape.Concatenates ((List.ofFn fun i : Fin k => (⟨⟨3, ![A, 1, N]⟩,
      extractStridedSlice ⟨3, ![A, 1, N]⟩ ![0, k - 1 - i.val, 0] a (hs i)⟩ : (s : Shape) × (s.Idx → α))).map (·.1))
      ⟨3, ![A, k, N]⟩ (1 : Fin 3))
    (f : Fin A) (c : Fin k) (n : Fin N) :
    revArr k a hs hc (ix3 f c n) = a (ix3 f ⟨k - 1 - c.val, by have := c.isLt; omega⟩ n) := by
  unfold revArr
  refine (concatenate_ofFn_unit_apply (t := ⟨3, ![A, k, N]⟩) (s₁ := ⟨3, ![A, 1, N]⟩) (1 : Fin 3)
    (fun i : Fin k => extractStridedSlice ⟨3, ![A, 1, N]⟩ ![0, k - 1 - i.val, 0] a (hs i)) hc rfl rfl
    (ix3 f c n) c rfl (ix3 f (0 : Fin 1) n) ?_).trans ?_
  · intro b hb
    match b with
    | ⟨0, _⟩ => rfl
    | ⟨1, _⟩ => exact absurd rfl hb
    | ⟨2, _⟩ => rfl
  · exact slice3_axis1_apply _ a (hs c) f (0 : Fin 1) n _ (by simp)

/-- The reciprocal 1 / (1 - ki · ki) of a one-row array, the one being the f32 word of 1. -/
noncomputable def invArr (ki : FVec Ideal ⟨3, ![A, 1, N]⟩ .f32) : FVec Ideal ⟨3, ![A, 1, N]⟩ .f32 :=
  divf (broadcast ⟨3, ![A, 1, N]⟩ (Scalar.ofBits (F := Ideal) .f32 0x3F800000#32))
    (subf (broadcast ⟨3, ![A, 1, N]⟩ (Scalar.ofBits (F := Ideal) .f32 0x3F800000#32)) (mulf ki ki))

/-- The reciprocal array at an index. -/
theorem invArr_apply (ki : FVec Ideal ⟨3, ![A, 1, N]⟩ .f32) (j : (⟨3, ![A, 1, N]⟩ : Shape).Idx) :
    invArr ki j = Ideal.div 1 (1 - ki j * ki j) := by
  show Ideal.div (Ideal.ofBits .f32 0x3F800000#32) (Ideal.ofBits .f32 0x3F800000#32 - ki j * ki j) = _
  rw [Ideal.ofBits_one_f32]

/-- The numerators a - ki · rev, the row ki stretched over the k rows. -/
noncomputable def numArr (k : ℕ) (a rev : FVec Ideal ⟨3, ![A, k, N]⟩ .f32) (ki : FVec Ideal ⟨3, ![A, 1, N]⟩ .f32)
    (hb : (⟨3, ![A, 1, N]⟩ : Shape).Broadcasts ⟨3, ![A, k, N]⟩) : FVec Ideal ⟨3, ![A, k, N]⟩ .f32 :=
  subf a (mulf (broadcastTo ⟨3, ![A, k, N]⟩ ki hb) rev)

/-- The numerators at an index. -/
theorem numArr_apply (k : ℕ) (a rev : FVec Ideal ⟨3, ![A, k, N]⟩ .f32) (ki : FVec Ideal ⟨3, ![A, 1, N]⟩ .f32)
    (hb : (⟨3, ![A, 1, N]⟩ : Shape).Broadcasts ⟨3, ![A, k, N]⟩) (f : Fin A) (c : Fin k) (n : Fin N) :
    numArr k a rev ki hb (ix3 f c n) = a (ix3 f c n) - ki (ix3 f (0 : Fin 1) n) * rev (ix3 f c n) := by
  show a (ix3 f c n) - broadcastTo ⟨3, ![A, k, N]⟩ ki hb (ix3 f c n) * rev (ix3 f c n) = _
  rw [bcastRow_apply]

/-- The end of step k: the numerators times the stretched reciprocal, laid before the kept rows. -/
noncomputable def finishArr (k kb : ℕ) (vb : FVec Ideal ⟨3, ![A, kb, N]⟩ .f32) (vinv : FVec Ideal ⟨3, ![A, 1, N]⟩ .f32)
    (vn : FVec Ideal ⟨3, ![A, k, N]⟩ .f32) (hb : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3)) :
    FVec Ideal ⟨3, ![A, 16, N]⟩ .f32 :=
  concatenate ⟨3, ![A, 16, N]⟩ (1 : Fin 3)
    [⟨⟨3, ![A, k, N]⟩, mulf vn (broadcastTo ⟨3, ![A, k, N]⟩ vinv hb)⟩, ⟨⟨3, ![A, kb, N]⟩, vb⟩] hcat

/-- Finished from the three pieces of step k of the row family S, every fibre of the array is step k of S. -/
theorem finishArr_row (k kb : ℕ) (hk : k + kb = 16) (S : Fin A → Fin N → ℕ → EReal)
    (hS : ∀ f n j, 16 ≤ j → S f n j = 0)
    (vb : FVec Ideal ⟨3, ![A, kb, N]⟩ .f32) (vinv : FVec Ideal ⟨3, ![A, 1, N]⟩ .f32)
    (vn : FVec Ideal ⟨3, ![A, k, N]⟩ .f32) (hb : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3))
    (h : Pieces k kb S vb vinv vn) (f : Fin A) (n : Fin N) :
    rowK (finishArr k kb vb vinv vn hb hcat) f n = stepR k (S f n) := by
  refine rowK_congr _ f n _ (stepR_tail (by omega) (hS f n)) (fun c => ?_)
  unfold finishArr stepR
  by_cases hc : c.val < k
  · rw [if_pos hc]
    refine (concatenate_pair_apply_left (t := ⟨3, ![A, 16, N]⟩) (s₁ := ⟨3, ![A, k, N]⟩) (s₂ := ⟨3, ![A, kb, N]⟩) (1 : Fin 3) _ _ hcat (ix3 f c n) rfl (ix3 f ⟨c.val, hc⟩ n) (fun b => ?_)).trans ?_
    · match b with
      | ⟨0, _⟩ => rfl
      | ⟨1, _⟩ => rfl
      | ⟨2, _⟩ => rfl
    · show vn (ix3 f ⟨c.val, hc⟩ n) * broadcastTo ⟨3, ![A, k, N]⟩ vinv hb (ix3 f ⟨c.val, hc⟩ n) = _
      rw [bcastRow_apply, h.2.1 f n, h.2.2 f ⟨c.val, hc⟩ n]
  · rw [if_neg hc]
    have hlt : c.val - k < kb := by have := c.isLt; omega
    refine (concatenate_pair_apply_right (t := ⟨3, ![A, 16, N]⟩) (s₁ := ⟨3, ![A, k, N]⟩) (s₂ := ⟨3, ![A, kb, N]⟩) (1 : Fin 3) _ _ hcat (ix3 f c n) rfl rfl (ix3 f ⟨c.val - k, hlt⟩ n) (fun b hb' => ?_) ?_).trans ?_
    · match b with
      | ⟨0, _⟩ => rfl
      | ⟨1, _⟩ => exact absurd rfl hb'
      | ⟨2, _⟩ => rfl
    · show (c.val - k) + k = c.val
      omega
    · rw [h.1 f ⟨c.val - k, hlt⟩ n]
      show S f n (k + (c.val - k)) = S f n c.val
      congr 1
      omega

/-- The three pieces of step k cut from an array whose fibres are the row family R. -/
theorem pieces_of_state (k kb : ℕ) (hk : k + kb = 16) (hkb : 0 < kb) (W : FVec Ideal ⟨3, ![A, 16, N]⟩ .f32)
    (R : Fin A → Fin N → ℕ → EReal) (hR : ∀ f n, rowK W f n = R f n)
    (hsa : (⟨3, ![A, 16, N]⟩ : Shape).Slices ![0, 0, 0] ⟨3, ![A, k, N]⟩)
    (hsb : (⟨3, ![A, 16, N]⟩ : Shape).Slices ![0, k, 0] ⟨3, ![A, kb, N]⟩)
    (hski : (⟨3, ![A, kb, N]⟩ : Shape).Slices ![0, 0, 0] ⟨3, ![A, 1, N]⟩)
    (rev : FVec Ideal ⟨3, ![A, k, N]⟩ .f32)
    (hrev : ∀ (f : Fin A) (c : Fin k) (n : Fin N), rev (ix3 f c n)
      = extractStridedSlice ⟨3, ![A, k, N]⟩ ![0, 0, 0] W hsa (ix3 f ⟨k - 1 - c.val, by have := c.isLt; omega⟩ n))
    (hb : (⟨3, ![A, 1, N]⟩ : Shape).Broadcasts ⟨3, ![A, k, N]⟩) :
    Pieces k kb R (extractStridedSlice ⟨3, ![A, kb, N]⟩ ![0, k, 0] W hsb)
      (invArr (extractStridedSlice ⟨3, ![A, 1, N]⟩ ![0, 0, 0] (extractStridedSlice ⟨3, ![A, kb, N]⟩ ![0, k, 0] W hsb) hski))
      (numArr k (extractStridedSlice ⟨3, ![A, k, N]⟩ ![0, 0, 0] W hsa) rev
        (extractStridedSlice ⟨3, ![A, 1, N]⟩ ![0, 0, 0] (extractStridedSlice ⟨3, ![A, kb, N]⟩ ![0, k, 0] W hsb) hski) hb) := by
  have hW : ∀ (f : Fin A) (n : Fin N) (j : ℕ) (hj : j < 16), W (ix3 f ⟨j, hj⟩ n) = R f n j := by
    intro f n j hj
    rw [← hR f n]
    exact (rowK_apply W f n ⟨j, hj⟩).symm
  have hbk : ∀ (f : Fin A) (c : Fin kb) (n : Fin N),
      extractStridedSlice ⟨3, ![A, kb, N]⟩ ![0, k, 0] W hsb (ix3 f c n) = R f n (k + c.val) := by
    intro f c n
    have hlt : k + c.val < 16 := by have := c.isLt; omega
    rw [slice3_axis1_apply k W hsb f c n ⟨k + c.val, hlt⟩ rfl]
    exact hW f n _ hlt
  have hak : ∀ (f : Fin A) (c : Fin k) (n : Fin N),
      extractStridedSlice ⟨3, ![A, k, N]⟩ ![0, 0, 0] W hsa (ix3 f c n) = R f n c.val := by
    intro f c n
    have hlt : c.val < 16 := by have := c.isLt; omega
    rw [slice3_axis1_apply 0 W hsa f c n ⟨c.val, hlt⟩ (by simp)]
    exact hW f n _ hlt
  have hki : ∀ (f : Fin A) (n : Fin N),
      extractStridedSlice ⟨3, ![A, 1, N]⟩ ![0, 0, 0] (extractStridedSlice ⟨3, ![A, kb, N]⟩ ![0, k, 0] W hsb) hski
        (ix3 f (0 : Fin 1) n) = R f n k := by
    intro f n
    rw [slice3_axis1_apply 0 _ hski f (0 : Fin 1) n ⟨0, hkb⟩ (by simp), hbk f ⟨0, hkb⟩ n]
    rfl
  refine ⟨hbk, fun f n => ?_, fun f c n => ?_⟩
  · rw [invArr_apply, hki]
  · rw [numArr_apply, hak, hki, hrev, hak]

/-- One whole step k on the array. -/
noncomputable def stepArr (k kb : ℕ) (W : FVec Ideal ⟨3, ![A, 16, N]⟩ .f32)
    (hsa : (⟨3, ![A, 16, N]⟩ : Shape).Slices ![0, 0, 0] ⟨3, ![A, k, N]⟩)
    (hsb : (⟨3, ![A, 16, N]⟩ : Shape).Slices ![0, k, 0] ⟨3, ![A, kb, N]⟩)
    (hski : (⟨3, ![A, kb, N]⟩ : Shape).Slices ![0, 0, 0] ⟨3, ![A, 1, N]⟩)
    (hs : ∀ i : Fin k, (⟨3, ![A, k, N]⟩ : Shape).Slices ![0, k - 1 - i.val, 0] ⟨3, ![A, 1, N]⟩)
    (hc : Shape.Concatenates ((List.ofFn fun i : Fin k => (⟨⟨3, ![A, 1, N]⟩,
      extractStridedSlice ⟨3, ![A, 1, N]⟩ ![0, k - 1 - i.val, 0] (extractStridedSlice ⟨3, ![A, k, N]⟩ ![0, 0, 0] W hsa) (hs i)⟩ :
        (s : Shape) × (s.Idx → Ideal .f32))).map (·.1)) ⟨3, ![A, k, N]⟩ (1 : Fin 3))
    (hb : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3)) :
    FVec Ideal ⟨3, ![A, 16, N]⟩ .f32 :=
  finishArr k kb (extractStridedSlice ⟨3, ![A, kb, N]⟩ ![0, k, 0] W hsb)
    (invArr (extractStridedSlice ⟨3, ![A, 1, N]⟩ ![0, 0, 0] (extractStridedSlice ⟨3, ![A, kb, N]⟩ ![0, k, 0] W hsb) hski))
    (numArr k (extractStridedSlice ⟨3, ![A, k, N]⟩ ![0, 0, 0] W hsa)
      (revArr k (extractStridedSlice ⟨3, ![A, k, N]⟩ ![0, 0, 0] W hsa) hs hc)
      (extractStridedSlice ⟨3, ![A, 1, N]⟩ ![0, 0, 0] (extractStridedSlice ⟨3, ![A, kb, N]⟩ ![0, k, 0] W hsb) hski) hb)
    hb hcat

/-- Every fibre of the array after step k is step k of the fibre before. -/
theorem stepArr_row (k kb : ℕ) (hk : k + kb = 16) (hkb : 0 < kb) (W : FVec Ideal ⟨3, ![A, 16, N]⟩ .f32)
    (R : Fin A → Fin N → ℕ → EReal) (hR : ∀ f n, rowK W f n = R f n) (hRt : ∀ f n j, 16 ≤ j → R f n j = 0)
    (hsa : (⟨3, ![A, 16, N]⟩ : Shape).Slices ![0, 0, 0] ⟨3, ![A, k, N]⟩)
    (hsb : (⟨3, ![A, 16, N]⟩ : Shape).Slices ![0, k, 0] ⟨3, ![A, kb, N]⟩)
    (hski : (⟨3, ![A, kb, N]⟩ : Shape).Slices ![0, 0, 0] ⟨3, ![A, 1, N]⟩)
    (hs : ∀ i : Fin k, (⟨3, ![A, k, N]⟩ : Shape).Slices ![0, k - 1 - i.val, 0] ⟨3, ![A, 1, N]⟩)
    (hc : Shape.Concatenates ((List.ofFn fun i : Fin k => (⟨⟨3, ![A, 1, N]⟩,
      extractStridedSlice ⟨3, ![A, 1, N]⟩ ![0, k - 1 - i.val, 0] (extractStridedSlice ⟨3, ![A, k, N]⟩ ![0, 0, 0] W hsa) (hs i)⟩ :
        (s : Shape) × (s.Idx → Ideal .f32))).map (·.1)) ⟨3, ![A, k, N]⟩ (1 : Fin 3))
    (hb : (⟨3, ![A, 1, N]⟩ : Shape).Broadcasts ⟨3, ![A, k, N]⟩)
    (hcat : Shape.Concatenates [⟨3, ![A, k, N]⟩, ⟨3, ![A, kb, N]⟩] ⟨3, ![A, 16, N]⟩ (1 : Fin 3))
    (f : Fin A) (n : Fin N) :
    rowK (stepArr k kb W hsa hsb hski hs hc hb hcat) f n = stepR k (R f n) := by
  unfold stepArr
  exact finishArr_row k kb hk R hRt _ _ _ hb hcat
    (pieces_of_state k kb hk hkb W R hR hsa hsb hski _ (fun f c n => revArr_apply k _ hs hc f c n) hb) f n

end Levinson.ArrayStep
-- ==== Proof.KerMidEq.lean ====
/-
  The array after steps 10, 9, 8 of the recursion, and after steps 7, 6, written with the one-step array operations.
-/
import proofs.«154280_j86260123174591_2_alg».proof.Proof.Gen.KernelIdeal.Skeleton
import proofs.«154280_j86260123174591_2_alg».proof.Proof.LibStepRead

set_option maxRecDepth 4096

noncomputable section

namespace Cert.KernelIdeal.KerMid

open Idealize.ShloMosaic Idealize.ShloMosaic.ValueIdx Levinson Levinson.ArrayStep Cert.KernelIdeal.Gen

/-- The array after step 10, finished from its three pieces. -/
def W10 (v144 : FVec Ideal S8x6x5120 .f32) (v161 : FVec Ideal S8x1x5120 .f32) (v164 : FVec Ideal S8x10x5120 .f32) :
    FVec Ideal S8x16x5120 .f32 :=
  finishArr (A := 8) (N := 5120) 10 6 v144 v161 v164 (by decide) (by decide)

/-- The array after step 9. -/
def W9 (v144 : FVec Ideal S8x6x5120 .f32) (v161 : FVec Ideal S8x1x5120 .f32) (v164 : FVec Ideal S8x10x5120 .f32) :
    FVec Ideal S8x16x5120 .f32 :=
  stepArr (A := 8) (N := 5120) 9 7 (W10 v144 v161 v164) (by decide) (by decide) (by decide) (by decide) concatenates_S8x1x5120_S8x1x5120_S8x1x5120_S8x1x5120_S8x1x5120_S8x1x5120_S8x1x5120_S8x1x5120_S8x1x5120_S8x9x5120_d1 (by decide) (by decide)

/-- The array after step 8. -/
def W8 (v144 : FVec Ideal S8x6x5120 .f32) (v161 : FVec Ideal S8x1x5120 .f32) (v164 : FVec Ideal S8x10x5120 .f32) :
    FVec Ideal S8x16x5120 .f32 :=
  stepArr (A := 8) (N := 5120) 8 8 (W9 v144 v161 v164) (by decide) (by decide) (by decide) (by decide) concatenates_S8x1x5120_S8x1x5120_S8x1x5120_S8x1x5120_S8x1x5120_S8x1x5120_S8x1x5120_S8x1x5120_S8x8x5120_d1 (by decide) (by decide)

theorem pay19_eq (v144 : FVec Ideal S8x6x5120 .f32) (v161 : FVec Ideal S8x1x5120 .f32) (v164 : FVec Ideal S8x10x5120 .f32) :
    k0_pay19 (F := Ideal) v144 v161 v164 = W8 v144 v161 v164 := by
  unfold k0_pay19 W8 W9 W10
  rfl

/-- The array after step 7 of an array W. -/
def W7 (W : FVec Ideal S8x16x5120 .f32) : FVec Ideal S8x16x5120 .f32 :=
  stepArr (A := 8) (N := 5120) 7 9 W (by decide) (by decide) (by decide) (by decide) concatenates_S8x1x5120_S8x1x5120_S8x1x5120_S8x1x5120_S8x1x5120_S8x1x5120_S8x1x5120_S8x7x5120_d1 (by decide) (by decide)

/-- The array after steps 7 and 6 of an array W. -/
def W6 (W : FVec Ideal S8x16x5120 .f32) : FVec Ideal S8x16x5120 .f32 :=
  stepArr (A := 8) (N := 5120) 6 10 (W7 W) (by decide) (by decide) (by decide) (by decide) concatenates_S8x1x5120_S8x1x5120_S8x1x5120_S8x1x5120_S8x1x5120_S8x1x5120_S8x6x5120_d1 (by decide) (by decide)

theorem pay26_eq (v144 : FVec Ideal S8x6x5120 .f32) (v161 : FVec Ideal S8x1x5120 .f32) (v164 : FVec Ideal S8x10x5120 .f32) :
    k0_pay26 (F := Ideal) (k0_pay20 v144 v161 v164) (k0_pay21 v144 v161 v164) (k0_pay22 v144 v161 v164) (k0_pay23 v144 v161 v164) (k0_pay24 v144 v161 v164) (k0_pay25 v144 v161 v164) = W6 (k0_pay19 v144 v161 v164) := by
  unfold k0_pay26 k0_pay20 k0_pay21 k0_pay22 k0_pay23 k0_pay24 k0_pay25 W6 W7
  rfl

theorem pay27_eq (v215 : FVec Ideal S8x7x5120 .f32) (v216 : FVec Ideal S8x9x5120 .f32) (v217 v218 v219 v220 : FVec Ideal S8x1x5120 .f32) :
    k0_pay27 (F := Ideal) v215 v216 v217 v218 v219 v220
      = extractStridedSlice S8x11x5120 ![0, 5, 0] (k0_pay26 v215 v216 v217 v218 v219 v220) (by decide) := rfl

theorem pay29_eq (v215 : FVec Ideal S8x7x5120 .f32) (v216 : FVec Ideal S8x9x5120 .f32) (v217 v218 v219 v220 : FVec Ideal S8x1x5120 .f32) :
    k0_pay29 (F := Ideal) v215 v216 v217 v218 v219 v220
      = invArr (A := 8) (N := 5120) (extractStridedSlice S8x1x5120 ![0, 0, 0]
          (extractStridedSlice S8x11x5120 ![0, 5, 0] (k0_pay26 v215 v216 v217 v218 v219 v220) (by decide)) (by decide)) := by
  unfold k0_pay29 k0_pay28 k0_pay27
  rfl

theorem pay30_eq (v215 : FVec Ideal S8x7x5120 .f32) (v216 : FVec Ideal S8x9x5120 .f32) (v217 v218 v219 v220 : FVec Ideal S8x1x5120 .f32) :
    k0_pay30 (F := Ideal) v215 v216 v217 v218 v219 v220
      = numArr (A := 8) (N := 5120) 5 (extractStridedSlice S8x5x5120 ![0, 0, 0] (k0_pay26 v215 v216 v217 v218 v219 v220) (by decide))
          (revArr (A := 8) (N := 5120) 5 (extractStridedSlice S8x5x5120 ![0, 0, 0] (k0_pay26 v215 v216 v217 v218 v219 v220) (by decide)) (by decide)
            concatenates_S8x1x5120_S8x1x5120_S8x1x5120_S8x1x5120_S8x1x5120_S8x5x5120_d1)
          (extractStridedSlice S8x1x5120 ![0, 0, 0]
            (extractStridedSlice S8x11x5120 ![0, 5, 0] (k0_pay26 v215 v216 v217 v218 v219 v220) (by decide)) (by decide)) (by decide) := by
  unfold k0_pay30 k0_pay28 k0_pay27
  rfl

end Cert.KernelIdeal.KerMid
-- ==== Proof.KerMid.lean ====
/-
  From the three pieces of step 10 of a family of rows: the end of step 10, the steps 9, 8, 7, 6 on the array,
  and the three pieces of step 5 cut from the result.
-/
import proofs.«154280_j86260123174591_2_alg».proof.Proof.KerMidEq

namespace Cert.KernelIdeal.KerMid

open Idealize.ShloMosaic Idealize.ShloMosaic.ValueIdx Levinson Levinson.ArrayStep Cert.KernelIdeal.Gen

/-- Every fibre of the array after steps 10 … 6 is those five steps of the row it started from. -/
theorem mid_rows (S : Fin 8 → Fin 5120 → ℕ → EReal) (hS : ∀ f n j, 16 ≤ j → S f n j = 0)
    (v144 : FVec Ideal S8x6x5120 .f32) (v161 : FVec Ideal S8x1x5120 .f32) (v164 : FVec Ideal S8x10x5120 .f32) (h : Levinson.Pieces 10 6 S v144 v161 v164) (f : Fin 8) (n : Fin 5120) :
    rowK (W6 (W8 v144 v161 v164)) f n = stepR 6 (stepR 7 (stepR 8 (stepR 9 (stepR 10 (S f n))))) := by
  have t10 : ∀ f n j, 16 ≤ j → stepR 10 (S f n) j = 0 := fun f n => stepR_tail (by omega) (hS f n)
  have t9 : ∀ f n j, 16 ≤ j → stepR 9 (stepR 10 (S f n)) j = 0 := fun f n => stepR_tail (by omega) (t10 f n)
  have t8 : ∀ f n j, 16 ≤ j → stepR 8 (stepR 9 (stepR 10 (S f n))) j = 0 := fun f n => stepR_tail (by omega) (t9 f n)
  have t7 : ∀ f n j, 16 ≤ j → stepR 7 (stepR 8 (stepR 9 (stepR 10 (S f n)))) j = 0 :=
    fun f n => stepR_tail (by omega) (t8 f n)
  have h10 : ∀ f n, rowK (W10 v144 v161 v164) f n = stepR 10 (S f n) :=
    fun f n => finishArr_row 10 6 (by norm_num) S hS v144 v161 v164 _ _ h f n
  have h9 : ∀ f n, rowK (W9 v144 v161 v164) f n = stepR 9 (stepR 10 (S f n)) :=
    fun f n => stepArr_row 9 7 (by norm_num) (by norm_num) (W10 v144 v161 v164) (fun f n => stepR 10 (S f n)) h10 t10
      _ _ _ _ _ _ _ f n
  have h8 : ∀ f n, rowK (W8 v144 v161 v164) f n = stepR 8 (stepR 9 (stepR 10 (S f n))) :=
    fun f n => stepArr_row 8 8 (by norm_num) (by norm_num) (W9 v144 v161 v164) (fun f n => stepR 9 (stepR 10 (S f n))) h9 t9
      _ _ _ _ _ _ _ f n
  have h7 : ∀ f n, rowK (W7 (W8 v144 v161 v164)) f n = stepR 7 (stepR 8 (stepR 9 (stepR 10 (S f n)))) :=
    fun f n => stepArr_row 7 9 (by norm_num) (by norm_num) (W8 v144 v161 v164)
      (fun f n => stepR 8 (stepR 9 (stepR 10 (S f n)))) h8 t8 _ _ _ _ _ _ _ f n
  exact stepArr_row 6 10 (by norm_num) (by norm_num) (W7 (W8 v144 v161 v164))
      (fun f n => stepR 7 (stepR 8 (stepR 9 (stepR 10 (S f n))))) h7 t7 _ _ _ _ _ _ _ f n

/-- The three arrays handed on after steps 10 … 6 are the three pieces of step 5 of the rows after those steps. -/
theorem mid_pieces (S : Fin 8 → Fin 5120 → ℕ → EReal) (hS : ∀ f n j, 16 ≤ j → S f n j = 0)
    (v144 : FVec Ideal S8x6x5120 .f32) (v161 : FVec Ideal S8x1x5120 .f32) (v164 : FVec Ideal S8x10x5120 .f32) (h : Levinson.Pieces 10 6 S v144 v161 v164) :
    Levinson.Pieces 5 11 (fun f n => stepR 6 (stepR 7 (stepR 8 (stepR 9 (stepR 10 (S f n))))))
      (k0_pay27 (k0_pay20 v144 v161 v164) (k0_pay21 v144 v161 v164) (k0_pay22 v144 v161 v164) (k0_pay23 v144 v161 v164) (k0_pay24 v144 v161 v164) (k0_pay25 v144 v161 v164))
      (k0_pay29 (k0_pay20 v144 v161 v164) (k0_pay21 v144 v161 v164) (k0_pay22 v144 v161 v164) (k0_pay23 v144 v161 v164) (k0_pay24 v144 v161 v164) (k0_pay25 v144 v161 v164))
      (k0_pay30 (k0_pay20 v144 v161 v164) (k0_pay21 v144 v161 v164) (k0_pay22 v144 v161 v164) (k0_pay23 v144 v161 v164) (k0_pay24 v144 v161 v164) (k0_pay25 v144 v161 v164)) := by
  have hW : k0_pay26 (F := Ideal) (k0_pay20 v144 v161 v164) (k0_pay21 v144 v161 v164) (k0_pay22 v144 v161 v164) (k0_pay23 v144 v161 v164) (k0_pay24 v144 v161 v164) (k0_pay25 v144 v161 v164) = W6 (W8 v144 v161 v164) :=
    (pay26_eq v144 v161 v164).trans (congrArg W6 (pay19_eq v144 v161 v164))
  rw [pay27_eq, pay29_eq, pay30_eq, hW]
  exact pieces_of_state 5 11 (by norm_num) (by norm_num) (W6 (W8 v144 v161 v164)) _ (mid_rows S hS v144 v161 v164 h)
    _ _ _ _ (fun f c n => revArr_apply 5 _ _ _ f c n) _

end Cert.KernelIdeal.KerMid
-- ==== Proof.LibKerTailOps.lean ====
/-
  One step of the reverse Levinson recursion on an [A, 16, N] array of extended reals (the recursion runs along the
  middle axis), read at an index: the array operations a step is made of (a cut along the middle axis, a two-piece and
  a many-piece concatenation along it, a one-row broadcast along it, the constant one) and the two halves of a step —
  the three pieces taken from a state array, and the state array finished from the three pieces.
-/
import Idealize.ShloMosaic.Lib.ValueLayout
import Idealize.ShloMosaic.Lib.IdealHost
import proofs.«154280_j86260123174591_2_alg».proof.Proof.LibLevinson

namespace KerTailOps

open Idealize.ShloMosaic Idealize.ShloMosaic.ValueIdx Levinson

section Read
variable {α : Type} {A N : ℕ}

/-- A two-piece concatenation along the middle axis of a rank-3 array, at a middle coordinate in the first piece. -/
theorem cat3_left {m₁ m₂ m : ℕ} (x₁ : (⟨3, ![A, m₁, N]⟩ : Shape).Idx → α) (x₂ : (⟨3, ![A, m₂, N]⟩ : Shape).Idx → α)
    (h : Shape.Concatenates [⟨3, ![A, m₁, N]⟩, ⟨3, ![A, m₂, N]⟩] ⟨3, ![A, m, N]⟩ 1)
    (f : Fin A) (c : Fin m) (n : Fin N) (c₁ : Fin m₁) (hc : c₁.val = c.val) :
    concatenate ⟨3, ![A, m, N]⟩ 1 [⟨⟨3, ![A, m₁, N]⟩, x₁⟩, ⟨⟨3, ![A, m₂, N]⟩, x₂⟩] h (ix3 f c n) = x₁ (ix3 f c₁ n) :=
  concatenate_pair_apply_left (t := ⟨3, ![A, m, N]⟩) (s₁ := ⟨3, ![A, m₁, N]⟩) (s₂ := ⟨3, ![A, m₂, N]⟩) (1 : Fin 3) x₁ x₂ h (ix3 f c n) rfl (ix3 f c₁ n) (fun b => by
    match b with
    | ⟨0, _⟩ => rfl
    | ⟨1, _⟩ => exact hc
    | ⟨2, _⟩ => rfl)

/-- A two-piece concatenation along the middle axis of a rank-3 array, at a middle coordinate in the second piece. -/
theorem cat3_right {m₁ m₂ m : ℕ} (x₁ : (⟨3, ![A, m₁, N]⟩ : Shape).Idx → α) (x₂ : (⟨3, ![A, m₂, N]⟩ : Shape).Idx → α)
    (h : Shape.Concatenates [⟨3, ![A, m₁, N]⟩, ⟨3, ![A, m₂, N]⟩] ⟨3, ![A, m, N]⟩ 1)
    (f : Fin A) (c : Fin m) (n : Fin N) (c₂ : Fin m₂) (hc : c₂.val + m₁ = c.val) :
    concatenate ⟨3, ![A, m, N]⟩ 1 [⟨⟨3, ![A, m₁, N]⟩, x₁⟩, ⟨⟨3, ![A, m₂, N]⟩, x₂⟩] h (ix3 f c n) = x₂ (ix3 f c₂ n) :=
  concatenate_pair_apply_right (t := ⟨3, ![A, m, N]⟩) (s₁ := ⟨3, ![A, m₁, N]⟩) (s₂ := ⟨3, ![A, m₂, N]⟩) (1 : Fin 3) x₁ x₂ h (ix3 f c n) rfl rfl (ix3 f c₂ n)
    (fun b hb => by
      match b with
      | ⟨0, _⟩ => rfl
      | ⟨1, _⟩ => exact absurd rfl hb
      | ⟨2, _⟩ => rfl)
    hc

/-- A concatenation of k one-row arrays along the middle axis reads, at middle coordinate c, the c-th of them. -/
theorem catUnits3_apply {k : ℕ} (g : Fin k → ((⟨3, ![A, 1, N]⟩ : Shape).Idx → α))
    (h : Shape.Concatenates ((List.ofFn fun i : Fin k => (⟨⟨3, ![A, 1, N]⟩, g i⟩ : (s : Shape) × (s.Idx → α))).map (·.1)) ⟨3, ![A, k, N]⟩ 1)
    (f : Fin A) (c : Fin k) (n : Fin N) :
    concatenate ⟨3, ![A, k, N]⟩ 1 (List.ofFn fun i : Fin k => (⟨⟨3, ![A, 1, N]⟩, g i⟩ : (s : Shape) × (s.Idx → α))) h (ix3 f c n)
      = g c (ix3 f (0 : Fin 1) n) :=
  concatenate_ofFn_unit_apply (t := ⟨3, ![A, k, N]⟩) (s₁ := ⟨3, ![A, 1, N]⟩) (1 : Fin 3) g h rfl rfl (ix3 f c n) c rfl (ix3 f (0 : Fin 1) n) (fun b hb => by
    match b with
    | ⟨0, _⟩ => rfl
    | ⟨1, _⟩ => exact absurd rfl hb
    | ⟨2, _⟩ => rfl)

/-- An [A, 1, N] array broadcast to [A, m, N] reads, at (f, c, n), the operand's one row at (f, n). -/
theorem bcast3_mid_apply {m : ℕ} (v : (⟨3, ![A, 1, N]⟩ : Shape).Idx → α)
    (h : (⟨3, ![A, 1, N]⟩ : Shape).Broadcasts ⟨3, ![A, m, N]⟩) (f : Fin A) (c : Fin m) (n : Fin N) :
    broadcastTo ⟨3, ![A, m, N]⟩ v h (ix3 f c n) = v (ix3 f (0 : Fin 1) n) := by
  refine broadcastTo_apply v h (ix3 f c n) (ix3 f (0 : Fin 1) n) fun ax => ?_
  match ax with
  | ⟨0, _⟩ =>
    show f.val = if A = 1 then 0 else f.val
    split
    · have := f.isLt; omega
    · rfl
  | ⟨1, _⟩ => rfl
  | ⟨2, _⟩ =>
    show n.val = if N = 1 then 0 else n.val
    split
    · have := n.isLt; omega
    · rfl

end Read

section Step
variable {A N : ℕ}

/-- The constant one spread over an array reads one everywhere. -/
theorem one_apply {s : Shape} (i : s.Idx) :
    broadcast s (Scalar.ofBits (F := Ideal) .f32 0x3F800000#32) i = (1 : EReal) := by
  show Ideal.ofBits .f32 0x3F800000#32 = 1
  exact Ideal.ofBits_one_f32

/-- The first row of the kept block (the entries k … 15) of a state array is the reflection coefficient, entry k. -/
theorem ki_apply {k kb : ℕ} (S : Fin A → Fin N → ℕ → EReal) (W : FVec Ideal ⟨3, ![A, 16, N]⟩ .f32)
    (hW : ∀ (f : Fin A) (c : Fin 16) (n : Fin N), W (ix3 f c n) = S f n c.val)
    (hk : k + kb = 16) (hk1 : 1 ≤ kb)
    (hb : (⟨3, ![A, 16, N]⟩ : Shape).Slices ![0, k, 0] ⟨3, ![A, kb, N]⟩)
    (hki : (⟨3, ![A, kb, N]⟩ : Shape).Slices ![0, 0, 0] ⟨3, ![A, 1, N]⟩) (f : Fin A) (n : Fin N) :
    extractStridedSlice ⟨3, ![A, 1, N]⟩ ![0, 0, 0] (extractStridedSlice ⟨3, ![A, kb, N]⟩ ![0, k, 0] W hb) hki (ix3 f (0 : Fin 1) n)
      = S f n k := by
  refine (slice3_axis1_apply 0 _ hki f (0 : Fin 1) n ⟨0, by omega⟩ rfl).trans ?_
  refine (slice3_axis1_apply k W hb f ⟨0, by omega⟩ n ⟨k, by omega⟩ rfl).trans ?_
  exact hW f ⟨k, by omega⟩ n

/-- The three pieces of step k taken from a state array whose fibres are the sequences S: the kept block, the
    reciprocal of the denominator, the numerators (the reversed block is given by its entries). -/
theorem pieces_of_state {k kb : ℕ} (S : Fin A → Fin N → ℕ → EReal) (W : FVec Ideal ⟨3, ![A, 16, N]⟩ .f32)
    (hW : ∀ (f : Fin A) (c : Fin 16) (n : Fin N), W (ix3 f c n) = S f n c.val)
    (hk : k + kb = 16) (hk1 : 1 ≤ kb)
    (ha : (⟨3, ![A, 16, N]⟩ : Shape).Slices ![0, 0, 0] ⟨3, ![A, k, N]⟩)
    (hb : (⟨3, ![A, 16, N]⟩ : Shape).Slices ![0, k, 0] ⟨3, ![A, kb, N]⟩)
    (hki : (⟨3, ![A, kb, N]⟩ : Shape).Slices ![0, 0, 0] ⟨3, ![A, 1, N]⟩)
    (hB : (⟨3, ![A, 1, N]⟩ : Shape).Broadcasts ⟨3, ![A, k, N]⟩)
    (rev : FVec Ideal ⟨3, ![A, k, N]⟩ .f32)
    (hrev : ∀ (f : Fin A) (c : Fin k) (n : Fin N), rev (ix3 f c n) = S f n (k - 1 - c.val)) :
    Pieces k kb S
      (extractStridedSlice ⟨3, ![A, kb, N]⟩ ![0, k, 0] W hb)
      (divf (broadcast ⟨3, ![A, 1, N]⟩ (Scalar.ofBits (F := Ideal) .f32 0x3F800000#32))
        (subf (broadcast ⟨3, ![A, 1, N]⟩ (Scalar.ofBits (F := Ideal) .f32 0x3F800000#32))
          (mulf (extractStridedSlice ⟨3, ![A, 1, N]⟩ ![0, 0, 0] (extractStridedSlice ⟨3, ![A, kb, N]⟩ ![0, k, 0] W hb) hki)
            (extractStridedSlice ⟨3, ![A, 1, N]⟩ ![0, 0, 0] (extractStridedSlice ⟨3, ![A, kb, N]⟩ ![0, k, 0] W hb) hki))))
      (subf (extractStridedSlice ⟨3, ![A, k, N]⟩ ![0, 0, 0] W ha)
        (mulf (broadcastTo ⟨3, ![A, k, N]⟩
            (extractStridedSlice ⟨3, ![A, 1, N]⟩ ![0, 0, 0] (extractStridedSlice ⟨3, ![A, kb, N]⟩ ![0, k, 0] W hb) hki) hB) rev)) := by
  refine ⟨fun f c n => ?_, fun f n => ?_, fun f c n => ?_⟩
  · refine (slice3_axis1_apply k W hb f c n ⟨k + c.val, by omega⟩ rfl).trans ?_
    exact hW f ⟨k + c.val, by omega⟩ n
  · rw [divf_apply, subf_apply, mulf_apply, one_apply, ki_apply S W hW hk hk1 hb hki f n]
  · rw [subf_apply, mulf_apply, bcast3_mid_apply, ki_apply S W hW hk hk1 hb hki f n, hrev f c n]
    refine congrArg (· - S f n k * S f n (k - 1 - c.val)) ?_
    refine (slice3_axis1_apply 0 W ha f c n ⟨c.val, by omega⟩ (Nat.zero_add _).symm).trans ?_
    exact hW f ⟨c.val, by omega⟩ n

/-- The state array finished from the three pieces of step k: its fibres are one step further. -/
theorem finish_apply {k kb : ℕ} (S : Fin A → Fin N → ℕ → EReal)
    (vb : FVec Ideal ⟨3, ![A, kb, N]⟩ .f32) (vinv : FVec Ideal ⟨3, ![A, 1, N]⟩ .f32) (vn : FVec Ideal ⟨3, ![A, k, N]⟩ .f32)
    (hP : Pieces k kb S vb vinv vn) (hk : k + kb = 16)
    (hB : (⟨3, ![A, 1, N]⟩ : Shape).Broadcasts ⟨3, ![A, k, N]⟩)
    (hC : Shape.Concatenates [⟨3, ![A, k, N]⟩, ⟨3, ![A, kb, N]⟩] ⟨3, ![A, 16, N]⟩ 1)
    (f : Fin A) (c : Fin 16) (n : Fin N) :
    concatenate ⟨3, ![A, 16, N]⟩ 1
        [⟨⟨3, ![A, k, N]⟩, mulf vn (broadcastTo ⟨3, ![A, k, N]⟩ vinv hB)⟩, ⟨⟨3, ![A, kb, N]⟩, vb⟩] hC (ix3 f c n)
      = stepR k (S f n) c.val := by
  unfold stepR
  by_cases hc : c.val < k
  · rw [if_pos hc]
    refine (cat3_left _ _ hC f c n ⟨c.val, hc⟩ rfl).trans ?_
    rw [mulf_apply, bcast3_mid_apply, hP.2.2 f ⟨c.val, hc⟩ n, hP.2.1 f n]
  · rw [if_neg hc]
    refine (cat3_right _ _ hC f c n ⟨c.val - k, by omega⟩ (by show c.val - k + k = c.val; omega)).trans ?_
    rw [hP.1 f ⟨c.val - k, by omega⟩ n]
    exact congrArg (S f n) (by show k + (c.val - k) = c.val; omega)

/-- The last step (k = 1) from a state array: the block below the coefficient is one row, so it is its own reverse
    and the coefficient multiplies it directly. -/
theorem last_apply (S : Fin A → Fin N → ℕ → EReal) (W : FVec Ideal ⟨3, ![A, 16, N]⟩ .f32)
    (hW : ∀ (f : Fin A) (c : Fin 16) (n : Fin N), W (ix3 f c n) = S f n c.val)
    (ha : (⟨3, ![A, 16, N]⟩ : Shape).Slices ![0, 0, 0] ⟨3, ![A, 1, N]⟩)
    (hb : (⟨3, ![A, 16, N]⟩ : Shape).Slices ![0, 1, 0] ⟨3, ![A, 15, N]⟩)
    (hki : (⟨3, ![A, 15, N]⟩ : Shape).Slices ![0, 0, 0] ⟨3, ![A, 1, N]⟩)
    (hC : Shape.Concatenates [⟨3, ![A, 1, N]⟩, ⟨3, ![A, 15, N]⟩] ⟨3, ![A, 16, N]⟩ 1)
    (f : Fin A) (c : Fin 16) (n : Fin N) :
    concatenate ⟨3, ![A, 16, N]⟩ 1
        [⟨⟨3, ![A, 1, N]⟩,
          mulf (subf (extractStridedSlice ⟨3, ![A, 1, N]⟩ ![0, 0, 0] W ha)
              (mulf (extractStridedSlice ⟨3, ![A, 1, N]⟩ ![0, 0, 0] (extractStridedSlice ⟨3, ![A, 15, N]⟩ ![0, 1, 0] W hb) hki)
                (extractStridedSlice ⟨3, ![A, 1, N]⟩ ![0, 0, 0] W ha)))
            (divf (broadcast ⟨3, ![A, 1, N]⟩ (Scalar.ofBits (F := Ideal) .f32 0x3F800000#32))
              (subf (broadcast ⟨3, ![A, 1, N]⟩ (Scalar.ofBits (F := Ideal) .f32 0x3F800000#32))
                (mulf (extractStridedSlice ⟨3, ![A, 1, N]⟩ ![0, 0, 0] (extractStridedSlice ⟨3, ![A, 15, N]⟩ ![0, 1, 0] W hb) hki)
                  (extractStridedSlice ⟨3, ![A, 1, N]⟩ ![0, 0, 0] (extractStridedSlice ⟨3, ![A, 15, N]⟩ ![0, 1, 0] W hb) hki))))⟩,
         ⟨⟨3, ![A, 15, N]⟩, extractStridedSlice ⟨3, ![A, 15, N]⟩ ![0, 1, 0] W hb⟩] hC (ix3 f c n)
      = stepR 1 (S f n) c.val := by
  have hki0 := ki_apply (k := 1) (kb := 15) S W hW rfl (by omega) hb hki f n
  have ha0 : extractStridedSlice ⟨3, ![A, 1, N]⟩ ![0, 0, 0] W ha (ix3 f (0 : Fin 1) n) = S f n 0 :=
    (slice3_axis1_apply 0 W ha f (0 : Fin 1) n ⟨0, by omega⟩ rfl).trans (hW f ⟨0, by omega⟩ n)
  unfold stepR
  by_cases hc : c.val < 1
  · rw [if_pos hc]
    have hc0 : c.val = 0 := by omega
    refine (cat3_left _ _ hC f c n (0 : Fin 1) hc0.symm).trans ?_
    rw [mulf_apply, subf_apply, mulf_apply, divf_apply, subf_apply, mulf_apply, one_apply, hki0, ha0, hc0]
  · rw [if_neg hc]
    refine (cat3_right _ _ hC f c n ⟨c.val - 1, by omega⟩ (by show c.val - 1 + 1 = c.val; omega)).trans ?_
    refine (slice3_axis1_apply 1 W hb f ⟨c.val - 1, by omega⟩ n c (by show c.val = 1 + (c.val - 1); omega)).trans ?_
    exact hW f c n

/-- An [A, 16, N] array flattened to [M, N] (M = 16 · A) and transposed reads, at (n, 16 f + c), the array at (f, c, n). -/
theorem flatT_apply {α : Type} {M : ℕ} (X : (⟨3, ![A, 16, N]⟩ : Shape).Idx → α)
    (hS : (⟨3, ![A, 16, N]⟩ : Shape).ShapeCasts ⟨2, ![M, N]⟩)
    (hT : (⟨2, ![M, N]⟩ : Shape).Transposes [1, 0] ⟨2, ![N, M]⟩)
    (f : Fin A) (c : Fin 16) (n : Fin N) (r : Fin M) (hr : r.val = 16 * f.val + c.val) :
    transpose ⟨2, ![N, M]⟩ [1, 0] (shapeCast ⟨2, ![M, N]⟩ X hS) hT (ix2 n r) = X (ix3 f c n) := by
  refine (transpose_ix2_apply _ hT n r).trans ?_
  refine shapeCast_apply X hS (ix2 r n) (ix3 f c n) ?_
  rw [Shape.rowMajor_val_three, Shape.rowMajor_val_two]
  show (f.val * 16 + c.val) * N + n.val = r.val * N + n.val
  rw [hr, Nat.mul_comm 16]

end Step

section Rev
variable {A N : ℕ}

/-- The two rows of the block below the coefficient, taken one by one in reverse order and concatenated, read from a
    state array whose fibres are the sequences S: entry (2 - 1 - c) at c. -/
theorem rev2_state (S : Fin A → Fin N → ℕ → EReal) (W : FVec Ideal ⟨3, ![A, 16, N]⟩ .f32)
    (hW : ∀ (f : Fin A) (c : Fin 16) (n : Fin N), W (ix3 f c n) = S f n c.val)
    (ha : (⟨3, ![A, 16, N]⟩ : Shape).Slices ![0, 0, 0] ⟨3, ![A, 2, N]⟩)
    (h1 : (⟨3, ![A, 2, N]⟩ : Shape).Slices ![0, 1, 0] ⟨3, ![A, 1, N]⟩)
    (h0 : (⟨3, ![A, 2, N]⟩ : Shape).Slices ![0, 0, 0] ⟨3, ![A, 1, N]⟩)
    (hC : Shape.Concatenates [⟨3, ![A, 1, N]⟩, ⟨3, ![A, 1, N]⟩] ⟨3, ![A, 2, N]⟩ 1)
    (f : Fin A) (c : Fin 2) (n : Fin N) :
    concatenate ⟨3, ![A, 2, N]⟩ 1
        [⟨⟨3, ![A, 1, N]⟩, extractStridedSlice ⟨3, ![A, 1, N]⟩ ![0, 1, 0] (extractStridedSlice ⟨3, ![A, 2, N]⟩ ![0, 0, 0] W ha) h1⟩,
         ⟨⟨3, ![A, 1, N]⟩, extractStridedSlice ⟨3, ![A, 1, N]⟩ ![0, 0, 0] (extractStridedSlice ⟨3, ![A, 2, N]⟩ ![0, 0, 0] W ha) h0⟩] hC (ix3 f c n)
      = S f n (2 - 1 - c.val) := by
  refine (catUnits3_apply (k := 2)
    ![extractStridedSlice ⟨3, ![A, 1, N]⟩ ![0, 1, 0] (extractStridedSlice ⟨3, ![A, 2, N]⟩ ![0, 0, 0] W ha) h1,
      extractStridedSlice ⟨3, ![A, 1, N]⟩ ![0, 0, 0] (extractStridedSlice ⟨3, ![A, 2, N]⟩ ![0, 0, 0] W ha) h0] hC f c n).trans ?_
  have key : ∀ (o : ℕ) (ho : o < 2) (hs : (⟨3, ![A, 2, N]⟩ : Shape).Slices ![0, o, 0] ⟨3, ![A, 1, N]⟩),
      extractStridedSlice ⟨3, ![A, 1, N]⟩ ![0, o, 0] (extractStridedSlice ⟨3, ![A, 2, N]⟩ ![0, 0, 0] W ha) hs (ix3 f (0 : Fin 1) n)
        = S f n o := fun o ho hs =>
    ((slice3_axis1_apply o _ hs f (0 : Fin 1) n ⟨o, ho⟩ rfl).trans
      (slice3_axis1_apply 0 W ha f ⟨o, ho⟩ n ⟨o, by omega⟩ (Nat.zero_add _).symm)).trans (hW f ⟨o, by omega⟩ n)
  match c with
  | ⟨0, _⟩ => exact key 1 (by omega) h1
  | ⟨1, _⟩ => exact key 0 (by omega) h0

/-- The three rows below the coefficient in reverse order, read from a state array: entry (3 - 1 - c) at c. -/
theorem rev3_state (S : Fin A → Fin N → ℕ → EReal) (W : FVec Ideal ⟨3, ![A, 16, N]⟩ .f32)
    (hW : ∀ (f : Fin A) (c : Fin 16) (n : Fin N), W (ix3 f c n) = S f n c.val)
    (ha : (⟨3, ![A, 16, N]⟩ : Shape).Slices ![0, 0, 0] ⟨3, ![A, 3, N]⟩)
    (h2 : (⟨3, ![A, 3, N]⟩ : Shape).Slices ![0, 2, 0] ⟨3, ![A, 1, N]⟩)
    (h1 : (⟨3, ![A, 3, N]⟩ : Shape).Slices ![0, 1, 0] ⟨3, ![A, 1, N]⟩)
    (h0 : (⟨3, ![A, 3, N]⟩ : Shape).Slices ![0, 0, 0] ⟨3, ![A, 1, N]⟩)
    (hC : Shape.Concatenates [⟨3, ![A, 1, N]⟩, ⟨3, ![A, 1, N]⟩, ⟨3, ![A, 1, N]⟩] ⟨3, ![A, 3, N]⟩ 1)
    (f : Fin A) (c : Fin 3) (n : Fin N) :
    concatenate ⟨3, ![A, 3, N]⟩ 1
        [⟨⟨3, ![A, 1, N]⟩, extractStridedSlice ⟨3, ![A, 1, N]⟩ ![0, 2, 0] (extractStridedSlice ⟨3, ![A, 3, N]⟩ ![0, 0, 0] W ha) h2⟩,
         ⟨⟨3, ![A, 1, N]⟩, extractStridedSlice ⟨3, ![A, 1, N]⟩ ![0, 1, 0] (extractStridedSlice ⟨3, ![A, 3, N]⟩ ![0, 0, 0] W ha) h1⟩,
         ⟨⟨3, ![A, 1, N]⟩, extractStridedSlice ⟨3, ![A, 1, N]⟩ ![0, 0, 0] (extractStridedSlice ⟨3, ![A, 3, N]⟩ ![0, 0, 0] W ha) h0⟩] hC (ix3 f c n)
      = S f n (3 - 1 - c.val) := by
  refine (catUnits3_apply (k := 3)
    ![extractStridedSlice ⟨3, ![A, 1, N]⟩ ![0, 2, 0] (extractStridedSlice ⟨3, ![A, 3, N]⟩ ![0, 0, 0] W ha) h2,
      extractStridedSlice ⟨3, ![A, 1, N]⟩ ![0, 1, 0] (extractStridedSlice ⟨3, ![A, 3, N]⟩ ![0, 0, 0] W ha) h1,
      extractStridedSlice ⟨3, ![A, 1, N]⟩ ![0, 0, 0] (extractStridedSlice ⟨3, ![A, 3, N]⟩ ![0, 0, 0] W ha) h0] hC f c n).trans ?_
  have key : ∀ (o : ℕ) (ho : o < 3) (hs : (⟨3, ![A, 3, N]⟩ : Shape).Slices ![0, o, 0] ⟨3, ![A, 1, N]⟩),
      extractStridedSlice ⟨3, ![A, 1, N]⟩ ![0, o, 0] (extractStridedSlice ⟨3, ![A, 3, N]⟩ ![0, 0, 0] W ha) hs (ix3 f (0 : Fin 1) n)
        = S f n o := fun o ho hs =>
    ((slice3_axis1_apply o _ hs f (0 : Fin 1) n ⟨o, ho⟩ rfl).trans
      (slice3_axis1_apply 0 W ha f ⟨o, ho⟩ n ⟨o, by omega⟩ (Nat.zero_add _).symm)).trans (hW f ⟨o, by omega⟩ n)
  match c with
  | ⟨0, _⟩ => exact key 2 (by omega) h2
  | ⟨1, _⟩ => exact key 1 (by omega) h1
  | ⟨2, _⟩ => exact key 0 (by omega) h0

/-- The four rows below the coefficient in reverse order, read from a state array: entry (4 - 1 - c) at c. -/
theorem rev4_state (S : Fin A → Fin N → ℕ → EReal) (W : FVec Ideal ⟨3, ![A, 16, N]⟩ .f32)
    (hW : ∀ (f : Fin A) (c : Fin 16) (n : Fin N), W (ix3 f c n) = S f n c.val)
    (ha : (⟨3, ![A, 16, N]⟩ : Shape).Slices ![0, 0, 0] ⟨3, ![A, 4, N]⟩)
    (h3 : (⟨3, ![A, 4, N]⟩ : Shape).Slices ![0, 3, 0] ⟨3, ![A, 1, N]⟩)
    (h2 : (⟨3, ![A, 4, N]⟩ : Shape).Slices ![0, 2, 0] ⟨3, ![A, 1, N]⟩)
    (h1 : (⟨3, ![A, 4, N]⟩ : Shape).Slices ![0, 1, 0] ⟨3, ![A, 1, N]⟩)
    (h0 : (⟨3, ![A, 4, N]⟩ : Shape).Slices ![0, 0, 0] ⟨3, ![A, 1, N]⟩)
    (hC : Shape.Concatenates [⟨3, ![A, 1, N]⟩, ⟨3, ![A, 1, N]⟩, ⟨3, ![A, 1, N]⟩, ⟨3, ![A, 1, N]⟩] ⟨3, ![A, 4, N]⟩ 1)
    (f : Fin A) (c : Fin 4) (n : Fin N) :
    concatenate ⟨3, ![A, 4, N]⟩ 1
        [⟨⟨3, ![A, 1, N]⟩, extractStridedSlice ⟨3, ![A, 1, N]⟩ ![0, 3, 0] (extractStridedSlice ⟨3, ![A, 4, N]⟩ ![0, 0, 0] W ha) h3⟩,
         ⟨⟨3, ![A, 1, N]⟩, extractStridedSlice ⟨3, ![A, 1, N]⟩ ![0, 2, 0] (extractStridedSlice ⟨3, ![A, 4, N]⟩ ![0, 0, 0] W ha) h2⟩,
         ⟨⟨3, ![A, 1, N]⟩, extractStridedSlice ⟨3, ![A, 1, N]⟩ ![0, 1, 0] (extractStridedSlice ⟨3, ![A, 4, N]⟩ ![0, 0, 0] W ha) h1⟩,
         ⟨⟨3, ![A, 1, N]⟩, extractStridedSlice ⟨3, ![A, 1, N]⟩ ![0, 0, 0] (extractStridedSlice ⟨3, ![A, 4, N]⟩ ![0, 0, 0] W ha) h0⟩] hC (ix3 f c n)
      = S f n (4 - 1 - c.val) := by
  refine (catUnits3_apply (k := 4)
    ![extractStridedSlice ⟨3, ![A, 1, N]⟩ ![0, 3, 0] (extractStridedSlice ⟨3, ![A, 4, N]⟩ ![0, 0, 0] W ha) h3,
      extractStridedSlice ⟨3, ![A, 1, N]⟩ ![0, 2, 0] (extractStridedSlice ⟨3, ![A, 4, N]⟩ ![0, 0, 0] W ha) h2,
      extractStridedSlice ⟨3, ![A, 1, N]⟩ ![0, 1, 0] (extractStridedSlice ⟨3, ![A, 4, N]⟩ ![0, 0, 0] W ha) h1,
      extractStridedSlice ⟨3, ![A, 1, N]⟩ ![0, 0, 0] (extractStridedSlice ⟨3, ![A, 4, N]⟩ ![0, 0, 0] W ha) h0] hC f c n).trans ?_
  have key : ∀ (o : ℕ) (ho : o < 4) (hs : (⟨3, ![A, 4, N]⟩ : Shape).Slices ![0, o, 0] ⟨3, ![A, 1, N]⟩),
      extractStridedSlice ⟨3, ![A, 1, N]⟩ ![0, o, 0] (extractStridedSlice ⟨3, ![A, 4, N]⟩ ![0, 0, 0] W ha) hs (ix3 f (0 : Fin 1) n)
        = S f n o := fun o ho hs =>
    ((slice3_axis1_apply o _ hs f (0 : Fin 1) n ⟨o, ho⟩ rfl).trans
      (slice3_axis1_apply 0 W ha f ⟨o, ho⟩ n ⟨o, by omega⟩ (Nat.zero_add _).symm)).trans (hW f ⟨o, by omega⟩ n)
  match c with
  | ⟨0, _⟩ => exact key 3 (by omega) h3
  | ⟨1, _⟩ => exact key 2 (by omega) h2
  | ⟨2, _⟩ => exact key 1 (by omega) h1
  | ⟨3, _⟩ => exact key 0 (by omega) h0

end Rev

end KerTailOps
-- ==== Proof.KerTail.lean ====
/-
  The last five steps of the recursion on the kernel's [8, 16, 5120] array, from the three pieces of step 5: the state
  after step 3, the three pieces of step 2, and the stored [5120, 128] block, whose entry (n, 16 f + c) is entry c of
  the fibre (f, n) after the steps 5, 4, 3, 2, 1.
-/
import proofs.«154280_j86260123174591_2_alg».proof.Proof.Gen.KernelIdeal.Skeleton
import proofs.«154280_j86260123174591_2_alg».proof.Proof.LibKerTailOps

namespace Cert.KernelIdeal.KerTail

open Idealize.ShloMosaic Idealize.ShloMosaic.ValueIdx Levinson KerTailOps Cert.KernelIdeal.Gen

/-- The state array after step 3, from the three pieces of step 5. -/
theorem pay31_value (S : Fin 8 → Fin 5120 → ℕ → EReal)
    (v259 : FVec Ideal S8x11x5120 .f32) (v271 : FVec Ideal S8x1x5120 .f32) (v274 : FVec Ideal S8x5x5120 .f32)
    (h : Levinson.Pieces 5 11 S v259 v271 v274) (f : Fin 8) (c : Fin 16) (n : Fin 5120) :
    k0_pay31 v259 v271 v274 (ix3 f c n) = stepR 3 (stepR 4 (stepR 5 (S f n))) c.val := by
  have E5 := finish_apply (k := 5) (kb := 11) S v259 v271 v274 h rfl
    broadcasts_S8x1x5120_S8x5x5120 concatenates_S8x5x5120_S8x11x5120_S8x16x5120_d1
  have P4 := pieces_of_state (k := 4) (kb := 12) (fun f n => stepR 5 (S f n)) _ E5 rfl (by omega)
    slices_S8x16x5120_o0_0_0_S8x4x5120 slices_S8x16x5120_o0_4_0_S8x12x5120 slices_S8x12x5120_o0_0_0_S8x1x5120
    broadcasts_S8x1x5120_S8x4x5120 _
    (rev4_state (fun f n => stepR 5 (S f n)) _ E5 slices_S8x16x5120_o0_0_0_S8x4x5120
      slices_S8x4x5120_o0_3_0_S8x1x5120 slices_S8x4x5120_o0_2_0_S8x1x5120 slices_S8x4x5120_o0_1_0_S8x1x5120
      slices_S8x4x5120_o0_0_0_S8x1x5120 concatenates_S8x1x5120_S8x1x5120_S8x1x5120_S8x1x5120_S8x4x5120_d1)
  have E4 := finish_apply (k := 4) (kb := 12) (fun f n => stepR 5 (S f n)) _ _ _ P4 rfl
    broadcasts_S8x1x5120_S8x4x5120 concatenates_S8x4x5120_S8x12x5120_S8x16x5120_d1
  have P3 := pieces_of_state (k := 3) (kb := 13) (fun f n => stepR 4 (stepR 5 (S f n))) _ E4 rfl (by omega)
    slices_S8x16x5120_o0_0_0_S8x3x5120 slices_S8x16x5120_o0_3_0_S8x13x5120 slices_S8x13x5120_o0_0_0_S8x1x5120
    broadcasts_S8x1x5120_S8x3x5120 _
    (rev3_state (fun f n => stepR 4 (stepR 5 (S f n))) _ E4 slices_S8x16x5120_o0_0_0_S8x3x5120
      slices_S8x3x5120_o0_2_0_S8x1x5120 slices_S8x3x5120_o0_1_0_S8x1x5120
      slices_S8x3x5120_o0_0_0_S8x1x5120 concatenates_S8x1x5120_S8x1x5120_S8x1x5120_S8x3x5120_d1)
  exact finish_apply (k := 3) (kb := 13) (fun f n => stepR 4 (stepR 5 (S f n))) _ _ _ P3 rfl
    broadcasts_S8x1x5120_S8x3x5120 concatenates_S8x3x5120_S8x13x5120_S8x16x5120_d1 f c n

/-- The three pieces of step 2, from the three pieces of step 5. -/
theorem tail_pieces (S : Fin 8 → Fin 5120 → ℕ → EReal)
    (v259 : FVec Ideal S8x11x5120 .f32) (v271 : FVec Ideal S8x1x5120 .f32) (v274 : FVec Ideal S8x5x5120 .f32)
    (h : Levinson.Pieces 5 11 S v259 v271 v274) :
    Levinson.Pieces 2 14 (fun f n => stepR 3 (stepR 4 (stepR 5 (S f n))))
      (k0_pay32 v259 v271 v274) (k0_pay34 v259 v271 v274) (k0_pay35 v259 v271 v274) :=
  pieces_of_state (k := 2) (kb := 14) (fun f n => stepR 3 (stepR 4 (stepR 5 (S f n)))) (k0_pay31 v259 v271 v274)
    (pay31_value S v259 v271 v274 h) rfl (by omega)
    slices_S8x16x5120_o0_0_0_S8x2x5120 slices_S8x16x5120_o0_2_0_S8x14x5120 slices_S8x14x5120_o0_0_0_S8x1x5120
    broadcasts_S8x1x5120_S8x2x5120 _
    (rev2_state (fun f n => stepR 3 (stepR 4 (stepR 5 (S f n)))) (k0_pay31 v259 v271 v274)
      (pay31_value S v259 v271 v274 h) slices_S8x16x5120_o0_0_0_S8x2x5120
      slices_S8x2x5120_o0_1_0_S8x1x5120 slices_S8x2x5120_o0_0_0_S8x1x5120 concatenates_S8x1x5120_S8x1x5120_S8x2x5120_d1)

/-- The stored block, from the three pieces of step 5: entry (n, 16 f + c) is entry c of the fibre (f, n) after the
    steps 5, 4, 3, 2, 1. -/
theorem tail_value (S : Fin 8 → Fin 5120 → ℕ → EReal) (hS : ∀ f n j, 16 ≤ j → S f n j = 0)
    (v259 : FVec Ideal S8x11x5120 .f32) (v271 : FVec Ideal S8x1x5120 .f32) (v274 : FVec Ideal S8x5x5120 .f32)
    (h : Levinson.Pieces 5 11 S v259 v271 v274) (n : Fin 5120) (f : Fin 8) (c : Fin 16) :
    k0_pay1 (k0_pay32 v259 v271 v274) (k0_pay34 v259 v271 v274) (k0_pay35 v259 v271 v274)
        (ValueIdx.ix2 n ⟨16 * f.val + c.val, by omega⟩)
      = stepR 1 (stepR 2 (stepR 3 (stepR 4 (stepR 5 (S f n))))) c.val := by
  have P2 := tail_pieces S v259 v271 v274 h
  have E2 := finish_apply (k := 2) (kb := 14) (fun f n => stepR 3 (stepR 4 (stepR 5 (S f n)))) _ _ _ P2 rfl
    broadcasts_S8x1x5120_S8x2x5120 concatenates_S8x2x5120_S8x14x5120_S8x16x5120_d1
  refine (flatT_apply (M := 128) _ shapeCasts_S8x16x5120_S128x5120 transposes_S128x5120_p1_0_S5120x128 f c n
    ⟨16 * f.val + c.val, by omega⟩ rfl).trans ?_
  exact last_apply (fun f n => stepR 2 (stepR 3 (stepR 4 (stepR 5 (S f n))))) _ E2
    slices_S8x16x5120_o0_0_0_S8x1x5120 slices_S8x16x5120_o0_1_0_S8x15x5120 slices_S8x15x5120_o0_0_0_S8x1x5120
    concatenates_S8x1x5120_S8x15x5120_S8x16x5120_d1 f c n

end Cert.KernelIdeal.KerTail
-- ==== Proof.KerArray.lean ====
/-
  The kernel's result array.  The program re-lays the argument `[256, 8000, 16] → [2048000, 16] → [256000, 128]` (eight
  consecutive rows of sixteen coefficients packed into one row of 128), runs the kernel over blocks of 5120 packed rows,
  and re-lays the output back.  Point `t` of the grid reads and writes rows `5120 t … 5120 t + 5119`; the body applies the
  recursion to every packed row and frame (`out_eq`), so the output array is `G` of the packed array, and entry `(b, t, c)` of
  the result — row-major position `(8000 b + t) · 16 + c`, that is packed row `(8000 b + t) / 8`, frame `(8000 b + t) % 8` —
  is entry `c` of the recursion of the argument's row `(b, t)`.
-/
import proofs.«154280_j86260123174591_2_alg».proof.Proof.Gen.KernelIdeal.Frame
import proofs.«154280_j86260123174591_2_alg».proof.Proof.LibLevinson
import proofs.«154280_j86260123174591_2_alg».proof.Proof.KerHeadPieces
import proofs.«154280_j86260123174591_2_alg».proof.Proof.KerMid
import proofs.«154280_j86260123174591_2_alg».proof.Proof.KerTail
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerArray

open Cert.KernelIdeal Cert.KernelIdeal.Gen Levinson

variable (m : (ℓ : Loc nD τ sig) → Buf (Elt Ideal) ℓ) (ρ : Dev nD → PrngReg)

/-! ## The block and the array as packed rows -/

/-- Row `r`, frame `f` of a `[R, 128]` array — eight frames of sixteen coefficients per row — as a sequence (zero
    past the sixteen entries). -/
def packRow {R : ℕ} (A : (⟨2, ![R, 128]⟩ : Shape).Idx → EReal) (r : Fin R) (f : ℕ) : ℕ → EReal :=
  fun j => if h : j < 16 ∧ 16 * f + j < 128 then A (ix2 r ⟨16 * f + j, h.2⟩) else 0

/-- The recursion applied to every packed row: entry `(r, 16 f + c)` is entry `c` of the fifteen steps (reciprocal
    hoisted) of row `r`, frame `f`. -/
def G {R : ℕ} (A : (⟨2, ![R, 128]⟩ : Shape).Idx → EReal) : (⟨2, ![R, 128]⟩ : Shape).Idx → EReal :=
  fun i => recR 15 (packRow A (i 0) ((i 1).val / 16)) ((i 1).val % 16)

/-- `G` at an index depends only on the row of the array that the index lies in. -/
theorem G_congr {R R' : ℕ} (A : (⟨2, ![R, 128]⟩ : Shape).Idx → EReal) (A' : (⟨2, ![R', 128]⟩ : Shape).Idx → EReal)
    (i : (⟨2, ![R, 128]⟩ : Shape).Idx) (i' : (⟨2, ![R', 128]⟩ : Shape).Idx)
    (h1 : (i 1).val = (i' 1).val) (hrow : ∀ l : Fin 128, A (ix2 (i 0) l) = A' (ix2 (i' 0) l)) : G A i = G A' i' := by
  unfold G
  rw [h1]
  congr 1
  funext j
  unfold packRow
  by_cases h : j < 16 ∧ 16 * ((i' 1).val / 16) + j < 128
  · rw [dif_pos h, dif_pos h]; exact hrow _
  · rw [dif_neg h, dif_neg h]

/-! ## The body's value -/

theorem hz : (![0, 0] : Fin 2 → Nat) = fun _ => 0 := funext fun a => by fin_cases a <;> rfl

/-- The recursion keeps a sequence zero past its sixteen entries. -/
theorem recR_tail {r : ℕ → EReal} (hr : ∀ j, 16 ≤ j → r j = 0) : ∀ n, ∀ j, 16 ≤ j → recR n r j = 0 := by
  intro n
  induction n with
  | zero => exact hr
  | succ n ih => exact stepR_tail (k := 15 - n) (by omega) ih

/-- What the body stores, entry by entry: entry `(n, 16 f + c)` of the stored block is entry `c` of the fifteen steps of the
    loaded block's row `n`, frame `f`.  The body's value is read in three stretches — the first five steps down to the
    arrays step 10 is finished from, the next five down to those of step 5, and the rest with the final re-laying. -/
theorem out_apply (x0 : Vec Ideal S5120x128 .f32) (n : Fin 5120) (f : Fin 8) (c : Fin 16) (l : Fin 128)
    (hl : l.val = 16 * f.val + c.val) :
    out0_1 x0 (ix2 n l) = recR 15 (packRow (x0 : S5120x128.Idx → EReal) n f.val) c.val := by
  have hf := f.isLt
  have hc := c.isLt
  have hb : 16 * f.val + c.val < 128 := by clear hl; omega
  obtain rfl : l = ⟨16 * f.val + c.val, hb⟩ := Fin.ext hl
  unfold out0_1
  rw [View.canon_unit_zero hz]
  simp only [View.ld_unit_zero (S := S5120x128) hz]
  have t1 : ∀ (f : Fin 8) (n : Fin 5120) (j : ℕ), 16 ≤ j → recR 5 (KerHead.R x0 f n) j = 0 :=
    fun f n => recR_tail (KerHead.R_tail x0 f n) 5
  have h1 := KerHeadPieces.head_pieces x0
  have h2 := KerMid.mid_pieces _ t1 _ _ _ h1
  have t2 : ∀ (f : Fin 8) (n : Fin 5120) (j : ℕ), 16 ≤ j →
      stepR 6 (stepR 7 (stepR 8 (stepR 9 (stepR 10 (recR 5 (KerHead.R x0 f n)))))) j = 0 :=
    fun f n => stepR_tail (k := 6) (by omega) (stepR_tail (k := 7) (by omega) (stepR_tail (k := 8) (by omega)
      (stepR_tail (k := 9) (by omega) (stepR_tail (k := 10) (by omega) (t1 f n)))))
  have h3 := KerTail.tail_value _ t2 _ _ _ h2 n f c
  refine h3.trans ?_
  have hR : KerHead.R x0 f n = packRow (x0 : S5120x128.Idx → EReal) n f.val := by
    funext j
    unfold KerHead.R packRow
    by_cases hj : j < 16
    · rw [dif_pos hj, dif_pos ⟨hj, by omega⟩]
    · rw [dif_neg hj, dif_neg (fun h => hj h.1)]
  rw [hR]
  rfl

/-- The stored block is `G` of the loaded block. -/
theorem out_eq (x0 : Vec Ideal S5120x128 .f32) : out0_1 x0 = G (x0 : S5120x128.Idx → EReal) := by
  funext i
  have hi1 : (i 1).val < 128 := (i 1).isLt
  rw [eq_ix2 i]
  exact out_apply x0 (i 0) ⟨(i 1).val / 16, by omega⟩ ⟨(i 1).val % 16, by omega⟩ (i 1)
    (by show (i 1).val = 16 * ((i 1).val / 16) + (i 1).val % 16; omega)

/-! ## The region's arrays -/

/-- The packed array the region reads: the argument re-laid `[256, 8000, 16] → [2048000, 16] → [256000, 128]`. -/
theorem V_v1 (c : Dev nD) : (V m c main_v1 : S256000x128.Idx → EReal)
    = shapeCast S256000x128 (shapeCast S2048000x16 (m ((c : Thread nD τ).loc main_arg0) : S256x8000x16.Idx → EReal) shapeCasts_S256x8000x16_S2048000x16) shapeCasts_S2048000x16_S256000x128 := by
  show StableHlo.after hostOps0 (fun b => m (c, b)) (Proc.devRef .tc main_v1) = _
  after_results
  rfl

/-- The packed array read at `(r, l)` is the argument at the index with the same row-major position. -/
theorem V_v1_apply (c : Dev nD) (i : S256000x128.Idx) (k : S256x8000x16.Idx)
    (hk : ((k 0).val * 8000 + (k 1).val) * 16 + (k 2).val = (i 0).val * 128 + (i 1).val) :
    (V m c main_v1 : S256000x128.Idx → EReal) i = (m ((c : Thread nD τ).loc main_arg0) : S256x8000x16.Idx → EReal) k := by
  rw [V_v1]
  have hi1 : (i 1).val < 128 := (i 1).isLt
  have hk2 : (k 2).val < 16 := (k 2).isLt
  have hq : ((k 0).val * 8000 + (k 1).val) < 2048000 := by
    have := (k 0).isLt; have := (k 1).isLt
    show (k 0).val * 8000 + (k 1).val < 2048000
    have h0 : (k 0).val < 256 := (k 0).isLt
    have h1 : (k 1).val < 8000 := (k 1).isLt
    omega
  refine (shapeCast_apply _ _ i (ix2 (⟨(k 0).val * 8000 + (k 1).val, hq⟩ : Fin 2048000) (⟨(k 2).val, hk2⟩ : Fin 16)) ?_).trans ?_
  · rw [Shape.rowMajor_val_two, Shape.rowMajor_val_two]
    show ((k 0).val * 8000 + (k 1).val) * 16 + (k 2).val = (i 0).val * 128 + (i 1).val
    exact hk
  · refine shapeCast_apply _ _ _ k ?_
    rw [Shape.rowMajor_val_three, Shape.rowMajor_val_two]
    rfl

theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t` is rows `5120 t … 5120 t + 5119` of the packed array. -/
theorem iblk_apply (c : Dev nD) (t : Fin cfg0.N) (x : S5120x128.Idx) (k : S256000x128.Idx)
    (hk0 : (k 0).val = 5120 * t.val + (x 0).val) (hk1 : (k 1).val = (x 1).val) :
    (iblk m c 0 t : Vec Ideal S5120x128 .f32) x = (V m c main_v1 : S256000x128.Idx → EReal) k := by
  obtain ⟨e0, e1, -, -⟩ := idx_facts t
  unfold iblk
  rw [View.read_apply]
  show V m c main_v1 _ = V m c main_v1 _
  congr 1
  funext a
  apply Fin.ext
  match a with
  | ⟨0, _⟩ => show win0_0.index t 0 * 5120 + 1 * (x 0).val = (k 0).val; rw [e0, hk0]; omega
  | ⟨1, _⟩ => show win0_0.index t 1 * 128 + 1 * (x 1).val = (k 1).val; rw [e1, hk1]; omega

/-- What point `t` writes back is block `t` of `G` of the packed array. -/
theorem flushed_eq (c : Dev nD) (t : Fin cfg0.N) :
    (dats m 0 c).flushed 1 t = ((cfg0.win 1).blk t).view.read (Elt Ideal) (G (V m c main_v1 : S256000x128.Idx → EReal)) := by
  show (cfg0.win 1).cut (grid0.coords t) ((dats m 0 c).after 1 t) = _
  rw [after0_1, out_eq]
  obtain ⟨-, -, e2, e3⟩ := idx_facts t
  funext y
  show G (iblk m c 0 t : Vec Ideal S5120x128 .f32) y = G (V m c main_v1 : S256000x128.Idx → EReal) (((cfg0.win 1).blk t).view.emb y)
  have hk0 : ((((cfg0.win 1).blk t).view.emb y) 0).val = 5120 * t.val + (y 0).val := by
    show win0_1.index t 0 * 5120 + 1 * (y 0).val = _; rw [e2]; omega
  have hk1 : ((((cfg0.win 1).blk t).view.emb y) 1).val = (y 1).val := by
    show win0_1.index t 1 * 128 + 1 * (y 1).val = _; rw [e3]; omega
  refine G_congr _ _ _ _ hk1.symm (fun l => iblk_apply m c t _ _ ?_ ?_)
  · exact hk0
  · rfl

/-- The output array after the run: `G` of the packed array (every row lies in the block of the point `row / 5120`). -/
theorem final_out (c : Dev nD) : (dats m 0 c).arrAt 1 cfg0.N = G (V m c main_v1 : S256000x128.Idx → EReal) :=
  (dats m 0 c).arrAt_eq_of_cover 1 (G (V m c main_v1 : S256000x128.Idx → EReal)) (fun t _ => flushed_eq m c t) fun i => by
    have hi0 : (i 0 : Nat) < 256000 := (i 0).isLt
    have hi1 : (i 1 : Nat) < 128 := (i 1).isLt
    have hN : cfg0.N = 50 := N_0
    let t : Fin cfg0.N := ⟨(i 0).val / 5120, by rw [hN]; omega⟩
    obtain ⟨-, -, e2, e3⟩ := idx_facts t
    refine ⟨t, flush0_1 t, ?_⟩
    show i ∈ ((View.whole main_v2).slice (win0_1.rect t)).set
    rw [View.set_slice_whole, Rect.mem_set_unit]
    intro a
    match a with
    | ⟨0, _⟩ => show win0_1.index t 0 * 5120 ≤ (i 0 : Nat) ∧ (i 0 : Nat) < win0_1.index t 0 * 5120 + 5120
                rw [e2]; show (i 0).val / 5120 * 5120 ≤ (i 0).val ∧ (i 0).val < (i 0).val / 5120 * 5120 + 5120; omega
    | ⟨1, _⟩ => show win0_1.index t 1 * 128 ≤ (i 1 : Nat) ∧ (i 1 : Nat) < win0_1.index t 1 * 128 + 128
                rw [e3]; omega

/-! ## The result array -/

/-- The result array: the packed output re-laid `[256000, 128] → [2048000, 16] → [256, 8000, 16]`. -/
theorem tail_v4 (c : Dev nD) : (Pipeline.afterTail₀ cfgs (dats m) 0 (V0 m) [hostOps1] c main_v4 : S256x8000x16.Idx → EReal)
    = shapeCast S256x8000x16 (shapeCast S2048000x16 ((dats m 0 c).arrAt 1 cfg0.N : S256000x128.Idx → EReal) shapeCasts_S256000x128_S2048000x16) shapeCasts_S2048000x16_S256x8000x16 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 1
  show shapeCast S256x8000x16 (shapeCast S2048000x16 (Pipeline.withArrays spec0 c (V0 m c) (fun w => (dats m 0 c).arrAt w cfg0.N) (Proc.devRef .tc (Pipeline.arrRef spec0 1))) shapeCasts_S256000x128_S2048000x16) shapeCasts_S2048000x16_S256x8000x16 = _
  rw [e]

/-- Entry `(b, t, c)` of the result array is entry `c` of the fifteen steps (reciprocal hoisted) of the argument's row `(b, t)`:
    the row-major position `(8000 b + t) · 16 + c` is row `(8000 b + t) / 8`, frame `(8000 b + t) % 8` of the packed array. -/
theorem result_apply (c : Dev nD) (b : Fin 256) (t : Fin 8000) (cc : Fin 16) :
    (Pipeline.afterTail₀ cfgs (dats m) 0 (V0 m) [hostOps1] c main_v4 : S256x8000x16.Idx → EReal) (ix3 b t cc)
      = recR 15 (rowH (m ((c : Thread nD τ).loc main_arg0) : S256x8000x16.Idx → EReal) b t) cc.val := by
  rw [tail_v4, final_out]
  have hb := b.isLt
  have ht := t.isLt
  have hc := cc.isLt
  have hq : b.val * 8000 + t.val < 2048000 := by omega
  have hr : (b.val * 8000 + t.val) / 8 < 256000 := by omega
  have hl : (b.val * 8000 + t.val) % 8 * 16 + cc.val < 128 := by omega
  refine (shapeCast_apply _ _ (ix3 b t cc) (ix2 (⟨b.val * 8000 + t.val, hq⟩ : Fin 2048000) cc) ?_).trans ?_
  · rw [Shape.rowMajor_val_two, Shape.rowMajor_val_three]; rfl
  refine (shapeCast_apply _ _ _ (ix2 (⟨(b.val * 8000 + t.val) / 8, hr⟩ : Fin 256000) (⟨(b.val * 8000 + t.val) % 8 * 16 + cc.val, hl⟩ : Fin 128)) ?_).trans ?_
  · rw [Shape.rowMajor_val_two, Shape.rowMajor_val_two]
    show (b.val * 8000 + t.val) / 8 * 128 + ((b.val * 8000 + t.val) % 8 * 16 + cc.val) = (b.val * 8000 + t.val) * 16 + cc.val
    omega
  show recR 15 (packRow (V m c main_v1 : S256000x128.Idx → EReal) (⟨(b.val * 8000 + t.val) / 8, hr⟩ : Fin 256000) (((b.val * 8000 + t.val) % 8 * 16 + cc.val) / 16)) (((b.val * 8000 + t.val) % 8 * 16 + cc.val) % 16) = _
  have e1 : ((b.val * 8000 + t.val) % 8 * 16 + cc.val) / 16 = (b.val * 8000 + t.val) % 8 := by omega
  have e2 : ((b.val * 8000 + t.val) % 8 * 16 + cc.val) % 16 = cc.val := by omega
  rw [e1, e2]
  congr 1
  funext j
  unfold packRow rowH
  by_cases hj : j < 16
  · have h' : j < 16 ∧ 16 * ((b.val * 8000 + t.val) % 8) + j < 128 := ⟨hj, by omega⟩
    rw [dif_pos h', dif_pos hj]
    refine V_v1_apply m c _ (ix3 b t ⟨j, hj⟩) ?_
    show (b.val * 8000 + t.val) * 16 + j = (b.val * 8000 + t.val) / 8 * 128 + (16 * ((b.val * 8000 + t.val) % 8) + j)
    omega
  · rw [dif_neg (fun h => hj h.1), dif_neg hj]

/-- The kernel's run, read: the result array at the recursion of the argument's rows, the argument unchanged. -/
theorem run : θ_run defs (onTc (τ := τ) (main (F := Ideal))) ⟨m, fun _ => 0, ρ⟩ fun r => ∀ c : Dev nD,
      (∀ (b : Fin 256) (t : Fin 8000) (cc : Fin 16), (r.2.mem ((c : Thread nD τ).loc main_v4) : S256x8000x16.Idx → EReal) (ix3 b t cc)
          = recR 15 (rowH (m ((c : Thread nD τ).loc main_arg0) : S256x8000x16.Idx → EReal) b t) cc.val)
      ∧ r.2.mem ((c : Thread nD τ).loc main_arg0) = m ((c : Thread nD τ).loc main_arg0) :=
  (θ_run defs _ _).mono (fun r h c =>
      ⟨fun b t cc => by
          rw [(h c).2 main_v4 (Pipeline.mem_restRefs_of main_v4 (by decide) (by decide))]
          exact result_apply m c b t cc,
        ((h c).2 main_arg0 (Pipeline.mem_restRefs_of main_arg0 (by decide) (by decide))).trans (W_main_arg0 m (dats m) c)⟩)
    (run_main m ρ)

end Cert.KernelIdeal.KerArray
end
-- ==== Proof.LibHostStep.lean ====
/-
  One step of the reverse Levinson recursion as a host program writes it on a [256, 8000, 16] array of extended reals,
  read at an index.

  The host takes the columns below k (a slice), the columns from k on (a second slice), the reflection coefficient
  (the first column of the second slice), forms  (a - ki · reverse a) / (1 - ki · ki)  with the coefficient and the
  denominator broadcast along the last axis, and concatenates the kept columns back.  Read at (b, t, c) this is
  'Levinson.stepQ k' of row (b, t).  The shape evidence (slices, broadcasts, concatenation) is taken as hypotheses, so
  that the lemmas rewrite any copy of the composed term whatever its evidence is named.
-/
import Idealize.ShloMosaic.Lib.Pipeline.Value
import Idealize.ShloMosaic.Lib.ValueIdx
import Idealize.ShloMosaic.Lib.IdealHost
import proofs.«154280_j86260123174591_2_alg».proof.Proof.LibLevinson

namespace Levinson

open Idealize.ShloMosaic Idealize.ShloMosaic.ValueIdx

/-! ## Single operations on rank-3 arrays, read at coordinates -/

section Reads
variable {α : Type} {A B : ℕ}

/-- A slice along the last axis of a rank-3 array, at offset 'o', read at coordinates: the array at the last
    coordinate moved 'o' along. -/
theorem slice_last_apply {N M : ℕ} (o : ℕ) (X : (⟨3, ![A, B, N]⟩ : Shape).Idx → α)
    (h : (⟨3, ![A, B, N]⟩ : Shape).Slices ![0, 0, o] ⟨3, ![A, B, M]⟩) (a : Fin A) (b : Fin B) (c : Fin M)
    (hc : o + c.val < N) :
    extractStridedSlice ⟨3, ![A, B, M]⟩ ![0, 0, o] X h (ix3 a b c) = X (ix3 a b ⟨o + c.val, hc⟩) := by
  refine extractStridedSlice_apply _ _ _ _ _ ?_
  intro ax
  match ax with
  | ⟨0, _⟩ => simp
  | ⟨1, _⟩ => simp
  | ⟨2, _⟩ => simp

/-- An array with one column broadcast along the last axis reads that column everywhere. -/
theorem bcast_last_apply {M : ℕ} (x : (⟨3, ![A, B, 1]⟩ : Shape).Idx → α)
    (hA : A ≠ 1) (hB : B ≠ 1)
    (h : (⟨3, ![A, B, 1]⟩ : Shape).BroadcastsInDim ⟨3, ![A, B, M]⟩ ![0, 1, 2]) (a : Fin A) (b : Fin B) (c : Fin M) :
    broadcastInDim ⟨3, ![A, B, M]⟩ ![0, 1, 2] h x (ix3 a b c) = x (ix3 a b (0 : Fin 1)) := by
  refine broadcastInDim_apply _ _ _ _ _ ?_
  intro ax
  match ax with
  | ⟨0, _⟩ => simp [hA] <;> rfl
  | ⟨1, _⟩ => simp [hB] <;> rfl
  | ⟨2, _⟩ => simp

/-- A reversal along the last axis of a rank-3 array reads the mirrored last coordinate. -/
theorem reverse_last_apply {M : ℕ} (x : (⟨3, ![A, B, M]⟩ : Shape).Idx → α) (a : Fin A) (b : Fin B) (c : Fin M) :
    Host.reverse (s := ⟨3, ![A, B, M]⟩) [2] x (ix3 a b c) = x (ix3 a b c.rev) := by
  unfold Host.reverse
  refine congrArg x (funext fun ax => ?_)
  match ax with
  | ⟨0, _⟩ => simp
  | ⟨1, _⟩ => simp
  | ⟨2, _⟩ => simp <;> rfl

end Reads

/-! ## The step, read at an index -/

section Step

/-- An entry of an array, as an entry of its row sequence. -/
theorem rowH_val {B T : ℕ} (X : (⟨3, ![B, T, 16]⟩ : Shape).Idx → EReal) (b : Fin B) (t : Fin T) (j : ℕ) (hj : j < 16) :
    X (ix3 b t ⟨j, hj⟩) = rowH X b t j := (rowH_apply X b t ⟨j, hj⟩).symm

/-- The quotient the host forms for the columns below 'k', read at coordinates: the coefficient column 'ki' and the
    denominator '1 - ki · ki' are broadcast along the last axis, the columns 'a' are mirrored. -/
theorem quot_apply {k : ℕ}
    (a : FVec Ideal ⟨3, ![256, 8000, k]⟩ .f32) (ki : FVec Ideal ⟨3, ![256, 8000, 1]⟩ .f32)
    (hbk : (⟨3, ![256, 8000, 1]⟩ : Shape).BroadcastsInDim ⟨3, ![256, 8000, k]⟩ ![0, 1, 2])
    (hb1 : (⟨0, ![]⟩ : Shape).BroadcastsInDim ⟨3, ![256, 8000, 1]⟩ ![])
    (b : Fin 256) (t : Fin 8000) (c : Fin k) :
    Host.divf (subf a (mulf (broadcastInDim ⟨3, ![256, 8000, k]⟩ ![0, 1, 2] hbk ki) (Host.reverse [2] a)))
      (broadcastInDim ⟨3, ![256, 8000, k]⟩ ![0, 1, 2] hbk
        (subf (broadcastInDim ⟨3, ![256, 8000, 1]⟩ ![] hb1 (constant (F := Ideal) ⟨0, ![]⟩ .f32 0x3F800000#32))
          (mulf ki ki)))
      (ix3 b t c)
    = Ideal.div (a (ix3 b t c) - ki (ix3 b t (0 : Fin 1)) * a (ix3 b t c.rev))
        (1 - ki (ix3 b t (0 : Fin 1)) * ki (ix3 b t (0 : Fin 1))) := by
  rw [hostDivf_apply, subf_apply, mulf_apply, bcast_last_apply _ (by decide) (by decide), reverse_last_apply,
    bcast_last_apply _ (by decide) (by decide), subf_apply, mulf_apply, broadcastInDim_scalar_apply, constant_apply,
    Ideal.ofBits_one_f32]

/-- The same quotient where the coefficient and the denominator are single columns already (the step 'k = 1'). -/
theorem quot_one_apply
    (a ki : FVec Ideal ⟨3, ![256, 8000, 1]⟩ .f32)
    (hb1 : (⟨0, ![]⟩ : Shape).BroadcastsInDim ⟨3, ![256, 8000, 1]⟩ ![])
    (b : Fin 256) (t : Fin 8000) (c : Fin 1) :
    Host.divf (subf a (mulf ki (Host.reverse [2] a)))
      (subf (broadcastInDim ⟨3, ![256, 8000, 1]⟩ ![] hb1 (constant (F := Ideal) ⟨0, ![]⟩ .f32 0x3F800000#32))
        (mulf ki ki))
      (ix3 b t c)
    = Ideal.div (a (ix3 b t c) - ki (ix3 b t c) * a (ix3 b t c.rev)) (1 - ki (ix3 b t c) * ki (ix3 b t c)) := by
  rw [hostDivf_apply, subf_apply, mulf_apply, reverse_last_apply, subf_apply, mulf_apply, broadcastInDim_scalar_apply,
    constant_apply, Ideal.ofBits_one_f32]

/-- THE STEP over any three arrays that hold, along row '(b, t)', the entries below 'k' of a sequence 'r' ('a'), its
    entries from 'k' on ('bb') and its entry 'k' ('ki'): the host's composed term read at '(b, t, c)' is step 'k' of
    'r' at 'c'.  With 'bb = ki' (extent one) this is the first step, 'k = 15'. -/
theorem hostStep_core (k kb : ℕ) (hkb : k + kb = 16)
    (a : FVec Ideal ⟨3, ![256, 8000, k]⟩ .f32) (bb : FVec Ideal ⟨3, ![256, 8000, kb]⟩ .f32)
    (ki : FVec Ideal ⟨3, ![256, 8000, 1]⟩ .f32)
    (hbk : (⟨3, ![256, 8000, 1]⟩ : Shape).BroadcastsInDim ⟨3, ![256, 8000, k]⟩ ![0, 1, 2])
    (hb1 : (⟨0, ![]⟩ : Shape).BroadcastsInDim ⟨3, ![256, 8000, 1]⟩ ![])
    (hcc : Shape.Concatenates [⟨3, ![256, 8000, k]⟩, ⟨3, ![256, 8000, kb]⟩] ⟨3, ![256, 8000, 16]⟩ 2)
    (b : Fin 256) (t : Fin 8000) (r : ℕ → EReal)
    (ha : ∀ c : Fin k, a (ix3 b t c) = r c.val)
    (hbb : ∀ c : Fin kb, bb (ix3 b t c) = r (k + c.val))
    (hki : ki (ix3 b t (0 : Fin 1)) = r k)
    (c : Fin 16) :
    concatenate ⟨3, ![256, 8000, 16]⟩ 2
      [⟨⟨3, ![256, 8000, k]⟩,
        Host.divf (subf a (mulf (broadcastInDim ⟨3, ![256, 8000, k]⟩ ![0, 1, 2] hbk ki) (Host.reverse [2] a)))
          (broadcastInDim ⟨3, ![256, 8000, k]⟩ ![0, 1, 2] hbk
            (subf (broadcastInDim ⟨3, ![256, 8000, 1]⟩ ![] hb1 (constant (F := Ideal) ⟨0, ![]⟩ .f32 0x3F800000#32))
              (mulf ki ki)))⟩,
       ⟨⟨3, ![256, 8000, kb]⟩, bb⟩] hcc (ix3 b t c)
    = stepQ k r c.val := by
  unfold stepQ
  by_cases hc : c.val < k
  · rw [if_pos hc]
    refine (concatenate_pair_apply_left (t := ⟨3, ![256, 8000, 16]⟩) (s₁ := ⟨3, ![256, 8000, k]⟩)
      (s₂ := ⟨3, ![256, 8000, kb]⟩) 2 _ _ hcc (ix3 b t c) rfl (ix3 b t (⟨c.val, hc⟩ : Fin k)) ?_).trans ?_
    · intro ax
      match ax with
      | ⟨0, _⟩ => rfl
      | ⟨1, _⟩ => rfl
      | ⟨2, _⟩ => rfl
    · rw [quot_apply, ha, ha, hki]
      have e : ((⟨c.val, hc⟩ : Fin k).rev).val = k - 1 - c.val := by simp [Fin.rev]; omega
      rw [e]
  · rw [if_neg hc]
    have hck : c.val - k < kb := by have := c.isLt; omega
    refine (concatenate_pair_apply_right (t := ⟨3, ![256, 8000, 16]⟩) (s₁ := ⟨3, ![256, 8000, k]⟩)
      (s₂ := ⟨3, ![256, 8000, kb]⟩) 2 _ _ hcc (ix3 b t c) rfl rfl (ix3 b t (⟨c.val - k, hck⟩ : Fin kb))
      ?_ ?_).trans ?_
    · intro ax hax
      match ax with
      | ⟨0, _⟩ => rfl
      | ⟨1, _⟩ => rfl
      | ⟨2, _⟩ => exact absurd rfl hax
    · show (c.val - k) + k = c.val
      omega
    · rw [hbb]
      congr 1
      show k + (c.val - k) = c.val
      omega

/-- THE LAST STEP ('k = 1') over three arrays that hold, along row '(b, t)', entry 0 of a sequence 'r' ('a'), its entries
    from 1 on ('bb') and its entry 1 ('ki'): here the host broadcasts neither the coefficient nor the denominator. -/
theorem hostStep_core_one
    (a ki : FVec Ideal ⟨3, ![256, 8000, 1]⟩ .f32) (bb : FVec Ideal ⟨3, ![256, 8000, 15]⟩ .f32)
    (hb1 : (⟨0, ![]⟩ : Shape).BroadcastsInDim ⟨3, ![256, 8000, 1]⟩ ![])
    (hcc : Shape.Concatenates [⟨3, ![256, 8000, 1]⟩, ⟨3, ![256, 8000, 15]⟩] ⟨3, ![256, 8000, 16]⟩ 2)
    (b : Fin 256) (t : Fin 8000) (r : ℕ → EReal)
    (ha : a (ix3 b t (0 : Fin 1)) = r 0)
    (hbb : ∀ c : Fin 15, bb (ix3 b t c) = r (1 + c.val))
    (hki : ki (ix3 b t (0 : Fin 1)) = r 1)
    (c : Fin 16) :
    concatenate ⟨3, ![256, 8000, 16]⟩ 2
      [⟨⟨3, ![256, 8000, 1]⟩,
        Host.divf (subf a (mulf ki (Host.reverse [2] a)))
          (subf (broadcastInDim ⟨3, ![256, 8000, 1]⟩ ![] hb1 (constant (F := Ideal) ⟨0, ![]⟩ .f32 0x3F800000#32))
            (mulf ki ki))⟩,
       ⟨⟨3, ![256, 8000, 15]⟩, bb⟩] hcc (ix3 b t c)
    = stepQ 1 r c.val := by
  unfold stepQ
  by_cases hc : c.val < 1
  · rw [if_pos hc]
    refine (concatenate_pair_apply_left (t := ⟨3, ![256, 8000, 16]⟩) (s₁ := ⟨3, ![256, 8000, 1]⟩)
      (s₂ := ⟨3, ![256, 8000, 15]⟩) 2 _ _ hcc (ix3 b t c) rfl (ix3 b t (⟨c.val, hc⟩ : Fin 1)) ?_).trans ?_
    · intro ax
      match ax with
      | ⟨0, _⟩ => rfl
      | ⟨1, _⟩ => rfl
      | ⟨2, _⟩ => rfl
    · have e0 : (⟨c.val, hc⟩ : Fin 1) = 0 := Subsingleton.elim _ _
      have e1 : ((0 : Fin 1).rev) = 0 := Subsingleton.elim _ _
      have ec : c.val = 0 := by omega
      rw [quot_one_apply, e0, e1, ha, hki, ec]
  · rw [if_neg hc]
    have hck : c.val - 1 < 15 := by have := c.isLt; omega
    refine (concatenate_pair_apply_right (t := ⟨3, ![256, 8000, 16]⟩) (s₁ := ⟨3, ![256, 8000, 1]⟩)
      (s₂ := ⟨3, ![256, 8000, 15]⟩) 2 _ _ hcc (ix3 b t c) rfl rfl (ix3 b t (⟨c.val - 1, hck⟩ : Fin 15)) ?_ ?_).trans ?_
    · intro ax hax
      match ax with
      | ⟨0, _⟩ => rfl
      | ⟨1, _⟩ => rfl
      | ⟨2, _⟩ => exact absurd rfl hax
    · show (c.val - 1) + 1 = c.val
      omega
    · rw [hbb]
      congr 1
      show 1 + (c.val - 1) = c.val
      omega

/-! ## The step over the slices of one array -/

/-- THE STEPS 'k = 14, …, 2' on an array 'X': with 'a' the columns below 'k', 'bb' the columns from 'k' on ('kb' of them)
    and the coefficient the first column of 'bb', the host's composed term read at '(b, t, c)' is step 'k' of row
    '(b, t)' of 'X' at 'c'. -/
theorem hostStep_apply (k kb : ℕ) (hkb : k + kb = 16) (hkb0 : 0 < kb)
    (X : FVec Ideal ⟨3, ![256, 8000, 16]⟩ .f32)
    (hsa : (⟨3, ![256, 8000, 16]⟩ : Shape).Slices ![0, 0, 0] ⟨3, ![256, 8000, k]⟩)
    (hsb : (⟨3, ![256, 8000, 16]⟩ : Shape).Slices ![0, 0, k] ⟨3, ![256, 8000, kb]⟩)
    (hsk : (⟨3, ![256, 8000, kb]⟩ : Shape).Slices ![0, 0, 0] ⟨3, ![256, 8000, 1]⟩)
    (hbk : (⟨3, ![256, 8000, 1]⟩ : Shape).BroadcastsInDim ⟨3, ![256, 8000, k]⟩ ![0, 1, 2])
    (hb1 : (⟨0, ![]⟩ : Shape).BroadcastsInDim ⟨3, ![256, 8000, 1]⟩ ![])
    (hcc : Shape.Concatenates [⟨3, ![256, 8000, k]⟩, ⟨3, ![256, 8000, kb]⟩] ⟨3, ![256, 8000, 16]⟩ 2)
    (b : Fin 256) (t : Fin 8000) (c : Fin 16) :
    concatenate ⟨3, ![256, 8000, 16]⟩ 2
      [⟨⟨3, ![256, 8000, k]⟩,
        Host.divf
          (subf (extractStridedSlice ⟨3, ![256, 8000, k]⟩ ![0, 0, 0] X hsa)
            (mulf
              (broadcastInDim ⟨3, ![256, 8000, k]⟩ ![0, 1, 2] hbk
                (extractStridedSlice ⟨3, ![256, 8000, 1]⟩ ![0, 0, 0]
                  (extractStridedSlice ⟨3, ![256, 8000, kb]⟩ ![0, 0, k] X hsb) hsk))
              (Host.reverse [2] (extractStridedSlice ⟨3, ![256, 8000, k]⟩ ![0, 0, 0] X hsa))))
          (broadcastInDim ⟨3, ![256, 8000, k]⟩ ![0, 1, 2] hbk
            (subf (broadcastInDim ⟨3, ![256, 8000, 1]⟩ ![] hb1 (constant (F := Ideal) ⟨0, ![]⟩ .f32 0x3F800000#32))
              (mulf
                (extractStridedSlice ⟨3, ![256, 8000, 1]⟩ ![0, 0, 0]
                  (extractStridedSlice ⟨3, ![256, 8000, kb]⟩ ![0, 0, k] X hsb) hsk)
                (extractStridedSlice ⟨3, ![256, 8000, 1]⟩ ![0, 0, 0]
                  (extractStridedSlice ⟨3, ![256, 8000, kb]⟩ ![0, 0, k] X hsb) hsk))))⟩,
       ⟨⟨3, ![256, 8000, kb]⟩, extractStridedSlice ⟨3, ![256, 8000, kb]⟩ ![0, 0, k] X hsb⟩] hcc (ix3 b t c)
    = stepQ k (rowH X b t) c.val := by
  refine hostStep_core k kb hkb _ _ _ hbk hb1 hcc b t (rowH X b t) ?_ ?_ ?_ c
  · intro c'
    have := c'.isLt
    rw [slice_last_apply 0 X hsa b t c' (by omega), rowH_val X, Nat.zero_add]
  · intro c'
    have := c'.isLt
    rw [slice_last_apply k X hsb b t c' (by omega), rowH_val X]
  · have h0 : 0 + ((0 : Fin 1) : ℕ) < kb := by simpa using hkb0
    rw [slice_last_apply 0 _ hsk b t (0 : Fin 1) h0, slice_last_apply k X hsb b t _ (by simp; omega), rowH_val X]
    simp

/-- THE FIRST STEP ('k = 15') on an array 'X': the kept part and the coefficient are one slice, the last column. -/
theorem hostStep_first_apply
    (X : FVec Ideal ⟨3, ![256, 8000, 16]⟩ .f32)
    (hsa : (⟨3, ![256, 8000, 16]⟩ : Shape).Slices ![0, 0, 0] ⟨3, ![256, 8000, 15]⟩)
    (hsb : (⟨3, ![256, 8000, 16]⟩ : Shape).Slices ![0, 0, 15] ⟨3, ![256, 8000, 1]⟩)
    (hbk : (⟨3, ![256, 8000, 1]⟩ : Shape).BroadcastsInDim ⟨3, ![256, 8000, 15]⟩ ![0, 1, 2])
    (hb1 : (⟨0, ![]⟩ : Shape).BroadcastsInDim ⟨3, ![256, 8000, 1]⟩ ![])
    (hcc : Shape.Concatenates [⟨3, ![256, 8000, 15]⟩, ⟨3, ![256, 8000, 1]⟩] ⟨3, ![256, 8000, 16]⟩ 2)
    (b : Fin 256) (t : Fin 8000) (c : Fin 16) :
    concatenate ⟨3, ![256, 8000, 16]⟩ 2
      [⟨⟨3, ![256, 8000, 15]⟩,
        Host.divf
          (subf (extractStridedSlice ⟨3, ![256, 8000, 15]⟩ ![0, 0, 0] X hsa)
            (mulf
              (broadcastInDim ⟨3, ![256, 8000, 15]⟩ ![0, 1, 2] hbk
                (extractStridedSlice ⟨3, ![256, 8000, 1]⟩ ![0, 0, 15] X hsb))
              (Host.reverse [2] (extractStridedSlice ⟨3, ![256, 8000, 15]⟩ ![0, 0, 0] X hsa))))
          (broadcastInDim ⟨3, ![256, 8000, 15]⟩ ![0, 1, 2] hbk
            (subf (broadcastInDim ⟨3, ![256, 8000, 1]⟩ ![] hb1 (constant (F := Ideal) ⟨0, ![]⟩ .f32 0x3F800000#32))
              (mulf (extractStridedSlice ⟨3, ![256, 8000, 1]⟩ ![0, 0, 15] X hsb)
                (extractStridedSlice ⟨3, ![256, 8000, 1]⟩ ![0, 0, 15] X hsb))))⟩,
       ⟨⟨3, ![256, 8000, 1]⟩, extractStridedSlice ⟨3, ![256, 8000, 1]⟩ ![0, 0, 15] X hsb⟩] hcc (ix3 b t c)
    = stepQ 15 (rowH X b t) c.val := by
  refine hostStep_core 15 1 rfl _ _ _ hbk hb1 hcc b t (rowH X b t) ?_ ?_ ?_ c
  · intro c'
    have := c'.isLt
    rw [slice_last_apply 0 X hsa b t c' (by omega), rowH_val X, Nat.zero_add]
  · intro c'
    have := c'.isLt
    rw [slice_last_apply 15 X hsb b t c' (by omega), rowH_val X]
  · rw [slice_last_apply 15 X hsb b t (0 : Fin 1) (by simp), rowH_val X]
    simp

/-- THE LAST STEP ('k = 1') on an array 'X': 'a' is column 0, 'bb' the columns 1 … 15, the coefficient the first column
    of 'bb'; no broadcast. -/
theorem hostStep_last_apply
    (X : FVec Ideal ⟨3, ![256, 8000, 16]⟩ .f32)
    (hsa : (⟨3, ![256, 8000, 16]⟩ : Shape).Slices ![0, 0, 0] ⟨3, ![256, 8000, 1]⟩)
    (hsb : (⟨3, ![256, 8000, 16]⟩ : Shape).Slices ![0, 0, 1] ⟨3, ![256, 8000, 15]⟩)
    (hsk : (⟨3, ![256, 8000, 15]⟩ : Shape).Slices ![0, 0, 0] ⟨3, ![256, 8000, 1]⟩)
    (hb1 : (⟨0, ![]⟩ : Shape).BroadcastsInDim ⟨3, ![256, 8000, 1]⟩ ![])
    (hcc : Shape.Concatenates [⟨3, ![256, 8000, 1]⟩, ⟨3, ![256, 8000, 15]⟩] ⟨3, ![256, 8000, 16]⟩ 2)
    (b : Fin 256) (t : Fin 8000) (c : Fin 16) :
    concatenate ⟨3, ![256, 8000, 16]⟩ 2
      [⟨⟨3, ![256, 8000, 1]⟩,
        Host.divf
          (subf (extractStridedSlice ⟨3, ![256, 8000, 1]⟩ ![0, 0, 0] X hsa)
            (mulf
              (extractStridedSlice ⟨3, ![256, 8000, 1]⟩ ![0, 0, 0]
                (extractStridedSlice ⟨3, ![256, 8000, 15]⟩ ![0, 0, 1] X hsb) hsk)
              (Host.reverse [2] (extractStridedSlice ⟨3, ![256, 8000, 1]⟩ ![0, 0, 0] X hsa))))
          (subf (broadcastInDim ⟨3, ![256, 8000, 1]⟩ ![] hb1 (constant (F := Ideal) ⟨0, ![]⟩ .f32 0x3F800000#32))
            (mulf
              (extractStridedSlice ⟨3, ![256, 8000, 1]⟩ ![0, 0, 0]
                (extractStridedSlice ⟨3, ![256, 8000, 15]⟩ ![0, 0, 1] X hsb) hsk)
              (extractStridedSlice ⟨3, ![256, 8000, 1]⟩ ![0, 0, 0]
                (extractStridedSlice ⟨3, ![256, 8000, 15]⟩ ![0, 0, 1] X hsb) hsk)))⟩,
       ⟨⟨3, ![256, 8000, 15]⟩, extractStridedSlice ⟨3, ![256, 8000, 15]⟩ ![0, 0, 1] X hsb⟩] hcc (ix3 b t c)
    = stepQ 1 (rowH X b t) c.val := by
  refine hostStep_core_one _ _ _ hb1 hcc b t (rowH X b t) ?_ ?_ ?_ c
  · rw [slice_last_apply 0 X hsa b t (0 : Fin 1) (by simp), rowH_val X]
    simp
  · intro c'
    have := c'.isLt
    rw [slice_last_apply 1 X hsb b t c' (by omega), rowH_val X]
  · rw [slice_last_apply 0 _ hsk b t (0 : Fin 1) (by simp), slice_last_apply 1 X hsb b t _ (by simp), rowH_val X]
    simp

/-- The first 'n' direct-quotient steps keep a sequence zero past its sixteen entries. -/
theorem recQ_zero_past (n : ℕ) {r : ℕ → EReal} (hr : ∀ j, 16 ≤ j → r j = 0) : ∀ j, 16 ≤ j → recQ n r j = 0 := by
  induction n with
  | zero => exact hr
  | succ n ih => exact stepQ_tail (k := 15 - n) (by omega) ih

end Step

end Levinson
-- ==== Proof.RefValue.lean ====
/-
  The reference program's result as a function of its argument, read at an index: the fifteen steps of the reverse
  Levinson recursion with the quotient taken directly, applied to the argument's row.

  The reference keeps the whole [256, 8000, 16] array after every step; after step number i (step index k = 16 - i)
  row (b, t) of that array is the first i steps of the recursion on row (b, t) of the argument.  Each state is the
  previous one through one host step (LibHostStep.lean), so the rows follow by induction along the chain.
-/
import proofs.«154280_j86260123174591_2_alg».proof.Proof.Gen.ReferenceIdeal.Run
import proofs.«154280_j86260123174591_2_alg».proof.Proof.LibHostStep

set_option maxRecDepth 8192

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Levinson

/-- The reference's result array as a function of the device's launch contents: the last step's composed term. -/
def refOut (V0 : Valuation τ sig (Elt Ideal)) : S256x8000x16.Idx → EReal :=
  concatenate S256x8000x16 2 [⟨S256x8000x1, (Host.divf (subf (res_main_v181 V0) (mulf (res_main_v183 V0) (Host.reverse [2] (res_main_v181 V0)))) (subf (broadcastInDim S256x8000x1 ![] bcast_S_S256x8000x1 (constant S_ .f32 0x3F800000#32)) (mulf (res_main_v183 V0) (res_main_v183 V0))))⟩, ⟨S256x8000x15, (res_main_v182 V0)⟩] concatenates_S256x8000x1_S256x8000x15_S256x8000x16_d2

/-- The argument array. -/
abbrev arg0 (V0 : Valuation τ sig (Elt Ideal)) : FVec Ideal S256x8000x16 .f32 := V0 (Proc.devRef .tc main_arg0)

/-- After the first step (k = 15) every row is one step of the argument's row. -/
theorem row1 (V0 : Valuation τ sig (Elt Ideal)) (b : Fin 256) (t : Fin 8000) :
    rowH (res_main_v11 V0 : FVec Ideal S256x8000x16 .f32) b t = recQ 1 (rowH (arg0 V0) b t) := by
  refine rowH_congr _ b t _ (recQ_zero_past 1 (rowH_tail _ b t)) (fun c => ?_)
  exact hostStep_first_apply (arg0 V0) _ _ _ _ _ b t c

/-- After step number 2 (k = 14) every row is the first 2 steps of the argument's row. -/
theorem row2 (V0 : Valuation τ sig (Elt Ideal)) (b : Fin 256) (t : Fin 8000) :
    rowH (res_main_v24 V0 : FVec Ideal S256x8000x16 .f32) b t = recQ 2 (rowH (arg0 V0) b t) := by
  refine rowH_congr _ b t _ (recQ_zero_past 2 (rowH_tail _ b t)) (fun c => ?_)
  refine (hostStep_apply 14 2 rfl (by norm_num) (res_main_v11 V0) _ _ _ _ _ _ b t c).trans ?_
  rw [row1 V0 b t]
  rfl

/-- After step number 3 (k = 13) every row is the first 3 steps of the argument's row. -/
theorem row3 (V0 : Valuation τ sig (Elt Ideal)) (b : Fin 256) (t : Fin 8000) :
    rowH (res_main_v37 V0 : FVec Ideal S256x8000x16 .f32) b t = recQ 3 (rowH (arg0 V0) b t) := by
  refine rowH_congr _ b t _ (recQ_zero_past 3 (rowH_tail _ b t)) (fun c => ?_)
  refine (hostStep_apply 13 3 rfl (by norm_num) (res_main_v24 V0) _ _ _ _ _ _ b t c).trans ?_
  rw [row2 V0 b t]
  rfl

/-- After step number 4 (k = 12) every row is the first 4 steps of the argument's row. -/
theorem row4 (V0 : Valuation τ sig (Elt Ideal)) (b : Fin 256) (t : Fin 8000) :
    rowH (res_main_v50 V0 : FVec Ideal S256x8000x16 .f32) b t = recQ 4 (rowH (arg0 V0) b t) := by
  refine rowH_congr _ b t _ (recQ_zero_past 4 (rowH_tail _ b t)) (fun c => ?_)
  refine (hostStep_apply 12 4 rfl (by norm_num) (res_main_v37 V0) _ _ _ _ _ _ b t c).trans ?_
  rw [row3 V0 b t]
  rfl

/-- After step number 5 (k = 11) every row is the first 5 steps of the argument's row. -/
theorem row5 (V0 : Valuation τ sig (Elt Ideal)) (b : Fin 256) (t : Fin 8000) :
    rowH (res_main_v63 V0 : FVec Ideal S256x8000x16 .f32) b t = recQ 5 (rowH (arg0 V0) b t) := by
  refine rowH_congr _ b t _ (recQ_zero_past 5 (rowH_tail _ b t)) (fun c => ?_)
  refine (hostStep_apply 11 5 rfl (by norm_num) (res_main_v50 V0) _ _ _ _ _ _ b t c).trans ?_
  rw [row4 V0 b t]
  rfl

/-- After step number 6 (k = 10) every row is the first 6 steps of the argument's row. -/
theorem row6 (V0 : Valuation τ sig (Elt Ideal)) (b : Fin 256) (t : Fin 8000) :
    rowH (res_main_v76 V0 : FVec Ideal S256x8000x16 .f32) b t = recQ 6 (rowH (arg0 V0) b t) := by
  refine rowH_congr _ b t _ (recQ_zero_past 6 (rowH_tail _ b t)) (fun c => ?_)
  refine (hostStep_apply 10 6 rfl (by norm_num) (res_main_v63 V0) _ _ _ _ _ _ b t c).trans ?_
  rw [row5 V0 b t]
  rfl

/-- After step number 7 (k = 9) every row is the first 7 steps of the argument's row. -/
theorem row7 (V0 : Valuation τ sig (Elt Ideal)) (b : Fin 256) (t : Fin 8000) :
    rowH (res_main_v89 V0 : FVec Ideal S256x8000x16 .f32) b t = recQ 7 (rowH (arg0 V0) b t) := by
  refine rowH_congr _ b t _ (recQ_zero_past 7 (rowH_tail _ b t)) (fun c => ?_)
  refine (hostStep_apply 9 7 rfl (by norm_num) (res_main_v76 V0) _ _ _ _ _ _ b t c).trans ?_
  rw [row6 V0 b t]
  rfl

/-- After step number 8 (k = 8) every row is the first 8 steps of the argument's row. -/
theorem row8 (V0 : Valuation τ sig (Elt Ideal)) (b : Fin 256) (t : Fin 8000) :
    rowH (res_main_v102 V0 : FVec Ideal S256x8000x16 .f32) b t = recQ 8 (rowH (arg0 V0) b t) := by
  refine rowH_congr _ b t _ (recQ_zero_past 8 (rowH_tail _ b t)) (fun c => ?_)
  refine (hostStep_apply 8 8 rfl (by norm_num) (res_main_v89 V0) _ _ _ _ _ _ b t c).trans ?_
  rw [row7 V0 b t]
  rfl

/-- After step number 9 (k = 7) every row is the first 9 steps of the argument's row. -/
theorem row9 (V0 : Valuation τ sig (Elt Ideal)) (b : Fin 256) (t : Fin 8000) :
    rowH (res_main_v115 V0 : FVec Ideal S256x8000x16 .f32) b t = recQ 9 (rowH (arg0 V0) b t) := by
  refine rowH_congr _ b t _ (recQ_zero_past 9 (rowH_tail _ b t)) (fun c => ?_)
  refine (hostStep_apply 7 9 rfl (by norm_num) (res_main_v102 V0) _ _ _ _ _ _ b t c).trans ?_
  rw [row8 V0 b t]
  rfl

/-- After step number 10 (k = 6) every row is the first 10 steps of the argument's row. -/
theorem row10 (V0 : Valuation τ sig (Elt Ideal)) (b : Fin 256) (t : Fin 8000) :
    rowH (res_main_v128 V0 : FVec Ideal S256x8000x16 .f32) b t = recQ 10 (rowH (arg0 V0) b t) := by
  refine rowH_congr _ b t _ (recQ_zero_past 10 (rowH_tail _ b t)) (fun c => ?_)
  refine (hostStep_apply 6 10 rfl (by norm_num) (res_main_v115 V0) _ _ _ _ _ _ b t c).trans ?_
  rw [row9 V0 b t]
  rfl

/-- After step number 11 (k = 5) every row is the first 11 steps of the argument's row. -/
theorem row11 (V0 : Valuation τ sig (Elt Ideal)) (b : Fin 256) (t : Fin 8000) :
    rowH (res_main_v141 V0 : FVec Ideal S256x8000x16 .f32) b t = recQ 11 (rowH (arg0 V0) b t) := by
  refine rowH_congr _ b t _ (recQ_zero_past 11 (rowH_tail _ b t)) (fun c => ?_)
  refine (hostStep_apply 5 11 rfl (by norm_num) (res_main_v128 V0) _ _ _ _ _ _ b t c).trans ?_
  rw [row10 V0 b t]
  rfl

/-- After step number 12 (k = 4) every row is the first 12 steps of the argument's row. -/
theorem row12 (V0 : Valuation τ sig (Elt Ideal)) (b : Fin 256) (t : Fin 8000) :
    rowH (res_main_v154 V0 : FVec Ideal S256x8000x16 .f32) b t = recQ 12 (rowH (arg0 V0) b t) := by
  refine rowH_congr _ b t _ (recQ_zero_past 12 (rowH_tail _ b t)) (fun c => ?_)
  refine (hostStep_apply 4 12 rfl (by norm_num) (res_main_v141 V0) _ _ _ _ _ _ b t c).trans ?_
  rw [row11 V0 b t]
  rfl

/-- After step number 13 (k = 3) every row is the first 13 steps of the argument's row. -/
theorem row13 (V0 : Valuation τ sig (Elt Ideal)) (b : Fin 256) (t : Fin 8000) :
    rowH (res_main_v167 V0 : FVec Ideal S256x8000x16 .f32) b t = recQ 13 (rowH (arg0 V0) b t) := by
  refine rowH_congr _ b t _ (recQ_zero_past 13 (rowH_tail _ b t)) (fun c => ?_)
  refine (hostStep_apply 3 13 rfl (by norm_num) (res_main_v154 V0) _ _ _ _ _ _ b t c).trans ?_
  rw [row12 V0 b t]
  rfl

/-- After step number 14 (k = 2) every row is the first 14 steps of the argument's row. -/
theorem row14 (V0 : Valuation τ sig (Elt Ideal)) (b : Fin 256) (t : Fin 8000) :
    rowH (res_main_v180 V0 : FVec Ideal S256x8000x16 .f32) b t = recQ 14 (rowH (arg0 V0) b t) := by
  refine rowH_congr _ b t _ (recQ_zero_past 14 (rowH_tail _ b t)) (fun c => ?_)
  refine (hostStep_apply 2 14 rfl (by norm_num) (res_main_v167 V0) _ _ _ _ _ _ b t c).trans ?_
  rw [row13 V0 b t]
  rfl

/-- THE REFERENCE'S RESULT AT AN INDEX: the fifteen direct-quotient steps on the argument's row. -/
theorem refOut_apply (V0 : Valuation τ sig (Elt Ideal)) (b : Fin 256) (t : Fin 8000) (c : Fin 16) :
    refOut V0 (ValueIdx.ix3 b t c) = Levinson.recQ 15 (Levinson.rowH (V0 (Proc.devRef .tc main_arg0)) b t) c.val := by
  refine (hostStep_last_apply (res_main_v180 V0) _ _ _ _ _ b t c).trans ?_
  rw [row14 V0 b t]
  rfl

end Cert.ReferenceIdeal.RefValue

end
-- ==== Proof.PreRead.lean ====
/-
  The precondition, read.  The precondition function restates the reference's fifteen-step recursion and asks that the
  argument and the recursion's result be finite at every entry (`|·| < +∞`).  Its operations are the reference's own, so its
  value is `bothFinite` of the argument and of the very term the reference's run ends at (`fn_eq`); a conjunction of two
  all-reductions that is one has a one at every entry, and `|x| < +∞` on the extended reals says `x` is neither infinity.
-/
import proofs.«154280_j86260123174591_2_alg».proof.Proof.Gen.ReferenceIdeal.Run
import proofs.«154280_j86260123174591_2_alg».proof.Pre_finite_inputs
import proofs.«154280_j86260123174591_2_alg».proof.Proof.LibLevinson
import Idealize.ShloMosaic.Lib.ReduceAll
import Idealize.ShloMosaic.Lib.IdealHost

set_option maxRecDepth 16384

noncomputable section

open Idealize.ShloMosaic Idealize.ShloMosaic.TcCoe Idealize.SL.Sem Idealize.ShloMosaic.ValueIdx

namespace Cert.ReferenceIdeal.PreRead

open Cert.ReferenceIdeal Cert.ReferenceIdeal.Gen Cert.ReferenceIdeal.Value Idealize.ShloMosaic.StableHlo Levinson

variable [hP : Cert.Pre_finite_inputs.Facts]

/-- The reference's result as a term of the launch contents (the term of the generated run's post). -/
def refTerm (V0 : Valuation τ sig (Elt Ideal)) : S256x8000x16.Idx → EReal :=
  concatenate S256x8000x16 2 [⟨S256x8000x1, (Host.divf (subf (res_main_v181 V0) (mulf (res_main_v183 V0) (Host.reverse [2] (res_main_v181 V0)))) (subf (broadcastInDim S256x8000x1 ![] bcast_S_S256x8000x1 (constant S_ .f32 0x3F800000#32)) (mulf (res_main_v183 V0) (res_main_v183 V0))))⟩, ⟨S256x8000x15, (res_main_v182 V0)⟩] concatenates_S256x8000x1_S256x8000x15_S256x8000x16_d2

/-- Both arrays are finite everywhere, as the precondition function spells it: `|·| < +∞` at every entry of each, the two
    conjoined. -/
def bothFinite (x R : S256x8000x16.Idx → EReal) : IVec Cert.Pre_finite_inputs.S_ 1 :=
  andi (Host.reduce IntOp.andi (cmpf .olt (Host.absf (F := Ideal) x) (broadcastInDim Cert.Pre_finite_inputs.S256x8000x16 ![] hP.bcast_S_S256x8000x16 (constant (F := Ideal) Cert.Pre_finite_inputs.S_ .f32 0x7F800000#32))) (constantI Cert.Pre_finite_inputs.S_ 1 1#1) hP.reducesTo_S256x8000x16_S_d0_1_2 hP.h_S_)
    (Host.reduce IntOp.andi (cmpf .olt (Host.absf (F := Ideal) R) (broadcastInDim Cert.Pre_finite_inputs.S256x8000x16 ![] hP.bcast_S_S256x8000x16 (constant (F := Ideal) Cert.Pre_finite_inputs.S_ .f32 0x7F800000#32))) (constantI Cert.Pre_finite_inputs.S_ 1 1#1) hP.reducesTo_S256x8000x16_S_d0_1_2 hP.h_S_)

set_option maxHeartbeats 4000000 in
/-- The precondition function restates the reference's recursion operation for operation: its value is `bothFinite` of the
    argument and of the reference's own result term. -/
theorem fn_eq (V0 : Valuation τ sig (Elt Ideal)) :
    Cert.Pre_finite_inputs.fn (F := Ideal) (V0 (Proc.devRef .tc main_arg0)) = bothFinite (V0 (Proc.devRef .tc main_arg0)) (refTerm V0) := rfl

/-- `|x| < +∞` on the extended reals says `x` is neither infinity. -/
theorem finite_of_lt_inf (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨ne_top_of_lt hlt.1, fun hb => ?_⟩
  subst hb
  simp at hlt

instance : Subsingleton Cert.Pre_finite_inputs.S_.Idx := ⟨fun a b => funext fun d => d.elim0⟩

theorem finite_of_both (x R : S256x8000x16.Idx → EReal) (h : bothFinite x R = fun _ => 1#1) (i : S256x8000x16.Idx) :
    R i ≠ ⊤ ∧ R i ≠ ⊥ := by
  have h0 := congrFun h ix0
  unfold bothFinite at h0
  have h2 := (IntOp.andi_eq_one.mp h0).2
  have hi := Host.reduce_andi_all _ _ _ _ ix0 h2 i
  exact finite_of_lt_inf (R i) hi

/-- Under the precondition the reference's result term is finite at every index. -/
theorem pre_finite (V0 : Valuation τ sig (Elt Ideal))
    (h : Cert.Pre_finite_inputs.fn (F := Ideal) (V0 (Proc.devRef .tc main_arg0)) = fun _ => 1#1) (i : S256x8000x16.Idx) :
    refTerm V0 i ≠ ⊤ ∧ refTerm V0 i ≠ ⊥ :=
  finite_of_both _ _ ((fn_eq V0).symm.trans h) i

end Cert.ReferenceIdeal.PreRead
end
-- ==== Proof.lean ====
/-
  The proof of `Cert.Claim`.

  The kernel applies the reverse Levinson recursion (fifteen steps, each dividing by `1 - k²` for the current reflection
  coefficient `k`) to every row of sixteen coefficients; the reference does the same on the unpacked array.  They differ in
  one place: the reference divides, the kernel multiplies by the reciprocal taken once.  On the extended reals these
  agree off a zero denominator and differ at one (`0 / 0` against `0 · (1 / 0)`), so the claim is stated on the domain where
  the reference's own result is finite — there no step divides by zero (LibLevinson.lean).

  The three frames are the generated ones (the reference's is its generated run with the result dropped); the idealization
  rewrote nothing, so `preserves` is trivial; `algebraic` joins the kernel's result array (KerArray.lean, over the body's
  value in KerHead / KerMid / KerTail) to the reference's (RefValue.lean) through `Levinson.recR_eq_recQ`, whose hypothesis
  is the precondition read back (PreRead.lean).
-/
import proofs.«154280_j86260123174591_2_alg».proof.Defs
import proofs.«154280_j86260123174591_2_alg».proof.Proof.Gen.Kernel
import proofs.«154280_j86260123174591_2_alg».proof.Proof.Gen.Kernel.Frame
import proofs.«154280_j86260123174591_2_alg».proof.Proof.Gen.KernelIdeal
import proofs.«154280_j86260123174591_2_alg».proof.Proof.Gen.KernelIdeal.Frame
import proofs.«154280_j86260123174591_2_alg».proof.Proof.Gen.ReferenceIdeal
import proofs.«154280_j86260123174591_2_alg».proof.Proof.Gen.ReferenceIdeal.Run
import proofs.«154280_j86260123174591_2_alg».proof.Proof.Gen.Pre_finite_inputs
import proofs.«154280_j86260123174591_2_alg».proof.Proof.LibLevinson
import proofs.«154280_j86260123174591_2_alg».proof.Proof.KerArray
import proofs.«154280_j86260123174591_2_alg».proof.Proof.RefValue
import proofs.«154280_j86260123174591_2_alg».proof.Proof.PreRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition both programs end at the reference's result term: the reference by its generated run, the kernel
    because its result is the hoisted-reciprocal recursion of each row, which is the direct one where that is finite. -/
theorem algebraic : Cert.algebraic_KernelIdeal_ReferenceIdeal := by
  intro m ρ m' ρ' hpre hagree
  refine ⟨fun c => Cert.ReferenceIdeal.PreRead.refTerm (StableHlo.launchContents m' c), ?_, ?_⟩
  · refine (θ_run Cert.KernelIdeal.defs _ _).mono (fun r h c => ⟨?_, (h c).2⟩) (Cert.KernelIdeal.KerArray.run m ρ)
    have hfn : Cert.Pre_finite_inputs.fn (F := Ideal) (StableHlo.launchContents m' c (Proc.devRef .tc Cert.ReferenceIdeal.main_arg0)) = fun _ => 1#1 := by
      show Cert.Pre_finite_inputs.fn (F := Ideal) (m' ((c.tc : Thread Cert.ReferenceIdeal.nD Cert.ReferenceIdeal.τ).loc Cert.ReferenceIdeal.main_arg0)) = _
      rw [hagree c]
      exact hpre c
    have hfin := Cert.ReferenceIdeal.PreRead.pre_finite (StableHlo.launchContents m' c) hfn
    funext i
    obtain ⟨b, t, cc, rfl⟩ : ∃ (b : Fin 256) (t : Fin 8000) (cc : Fin 16), i = ix3 b t cc := ⟨i 0, i 1, i 2, eq_ix3 i⟩
    show _ = Cert.ReferenceIdeal.PreRead.refTerm (StableHlo.launchContents m' c) (ix3 b t cc)
    refine ((h c).1 b t cc).trans ?_
    have hrow : (m ((c.tc : Thread Cert.KernelIdeal.nD Cert.KernelIdeal.τ).loc Cert.KernelIdeal.main_arg0) : Cert.KernelIdeal.S256x8000x16.Idx → EReal)
        = StableHlo.launchContents m' c (Proc.devRef .tc Cert.ReferenceIdeal.main_arg0) := (hagree c).symm
    rw [hrow]
    have href : ∀ (b : Fin 256) (t : Fin 8000) (cc : Fin 16), Cert.ReferenceIdeal.PreRead.refTerm (StableHlo.launchContents m' c) (ix3 b t cc)
        = Levinson.recQ 15 (Levinson.rowH (StableHlo.launchContents m' c (Proc.devRef .tc Cert.ReferenceIdeal.main_arg0)) b t) cc.val :=
      fun b t cc => Cert.ReferenceIdeal.RefValue.refOut_apply (StableHlo.launchContents m' c) b t cc
    rw [href b t cc]
    refine congrFun (Levinson.recR_eq_recQ _ (fun j hj => ?_) 15 (le_refl _)) _
    have := hfin (ix3 b t ⟨j, by omega⟩)
    rwa [href] at this
  · refine (θ_run Cert.ReferenceIdeal.defs _ _).mono (fun r h c => ⟨(h c).1, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
